-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S3 : Shape := ⟨1, ![3]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S8x4096x1024 .f32) (main_arg1 : FVec F S3 .f32) (main_arg2 : FVec F S3 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S8x4096x1024 : Shape := ⟨3, ![8, 4096, 1024]⟩
abbrev S3 : Shape := ⟨1, ![3]⟩
abbrev S3954 : Shape := ⟨1, ![3954]⟩
abbrev S32768x1024 : Shape := ⟨2, ![32768, 1024]⟩
abbrev S_ : Shape := ⟨0, ![]⟩
abbrev S6 : Shape := ⟨1, ![6]⟩
abbrev S3954x1 : Shape := ⟨2, ![3954, 1]⟩
abbrev S1024x1024 : Shape := ⟨2, ![1024, 1024]⟩
abbrev S3954x2 : Shape := ⟨2, ![3954, 2]⟩

abbrev nBuf : Space → Nat
  | .hbm => 50
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S3, .f32⟩
  | .hbm, ⟨2, _⟩ => ⟨S3, .f32⟩
  | .hbm, ⟨3, _⟩ => ⟨S3954, .i32⟩
  | .hbm, ⟨4, _⟩ => ⟨S3954, .i1⟩
  | .hbm, ⟨5, _⟩ => ⟨S3954, .i32⟩
  | .hbm, ⟨6, _⟩ => ⟨S3954, .i1⟩
  | .hbm, ⟨7, _⟩ => ⟨S3954, .i32⟩
  | .hbm, ⟨8, _⟩ => ⟨S3954, .i1⟩
  | .hbm, ⟨9, _⟩ => ⟨S32768x1024, .f32⟩
  | .hbm, ⟨10, _⟩ => ⟨S3, .f32⟩
  | .hbm, ⟨11, _⟩ => ⟨S3, .f32⟩
  | .hbm, ⟨12, _⟩ => ⟨S_, .f32⟩
  | .hbm, ⟨13, _⟩ => ⟨S3, .f32⟩
  | .hbm, ⟨14, _⟩ => ⟨S3, .f32⟩
  | .hbm, ⟨15, _⟩ => ⟨S_, .f32⟩
  | .hbm, ⟨16, _⟩ => ⟨S3, .f32⟩
  | .hbm, ⟨17, _⟩ => ⟨S3, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S3, .f32⟩
  | .hbm, ⟨22, _⟩ => ⟨S3, .f32⟩
  | .hbm, ⟨23, _⟩ => ⟨S_, .f32⟩
  | .hbm, ⟨24, _⟩ => ⟨S3, .f32⟩
  | .hbm, ⟨25, _⟩ => ⟨S3, .f32⟩
  | .hbm, ⟨26, _⟩ => ⟨S6, .f32⟩
  | .hbm, ⟨27, _⟩ => ⟨S_, .i32⟩
  | .hbm, ⟨28, _⟩ => ⟨S3954, .i32⟩
  | .hbm, ⟨29, _⟩ => ⟨S3954, .i32⟩
  | .hbm, ⟨30, _⟩ => ⟨S3954, .i32⟩
  | .hbm, ⟨31, _⟩ => ⟨S3954x1, .i32⟩
  | .hbm, ⟨32, _⟩ => ⟨S3954, .f32⟩
  | .hbm, ⟨33, _⟩ => ⟨S_, .f32⟩
  | .hbm, ⟨34, _⟩ => ⟨S1024x1024, .f32⟩
  | .hbm, ⟨35, _⟩ => ⟨S_, .i32⟩
  | .hbm, ⟨36, _⟩ => ⟨S3954, .i32⟩
  | .hbm, ⟨37, _⟩ => ⟨S3954, .i32⟩
  | .hbm, ⟨38, _⟩ => ⟨S3954, .i32⟩
  | .hbm, ⟨39, _⟩ => ⟨S_, .i32⟩
  | .hbm, ⟨40, _⟩ => ⟨S3954, .i32⟩
  | .hbm, ⟨41, _⟩ => ⟨S3954, .i32⟩
  | .hbm, ⟨42, _⟩ => ⟨S3954, .i32⟩
  | .hbm, ⟨43, _⟩ => ⟨S3954x1, .i32⟩
  | .hbm, ⟨44, _⟩ => ⟨S3954x1, .i32⟩
  | .hbm, ⟨45, _⟩ => ⟨S3954x2, .i32⟩
  | .hbm, ⟨46, _⟩ => ⟨S1024x1024, .f32⟩
  | .hbm, ⟨47, _⟩ => ⟨S1024x1024, .bf16⟩
  | .hbm, ⟨48, _⟩ => ⟨S32768x1024, .f32⟩
  | .hbm, ⟨49, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_6 : Ref sig .tc := ⟨.hbm, 20, rfl⟩
abbrev main_v9 : Ref sig .tc := ⟨.hbm, 21, rfl⟩
abbrev main_v10 : Ref sig .tc := ⟨.hbm, 22, rfl⟩
abbrev main_cst_7 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_9 : Ref sig .tc := ⟨.hbm, 33, rfl⟩
abbrev main_v19 : Ref sig .tc := ⟨.hbm, 34, rfl⟩
abbrev main_c_10 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_11 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x4096x1024_S32768x1024 : S8x4096x1024.ShapeCasts S32768x1024
  bcast_S_S3 : S_.BroadcastsInDim S3 (![] : Fin 0 → Fin S3.rank)
  concatenates_S3_S3_S6_d0 : Shape.Concatenates [S3, S3] S6 0
  bcast_S_S3954 : S_.BroadcastsInDim S3954 (![] : Fin 0 → Fin S3954.rank)
  bcast_S3954_S3954x1_0 : S3954.BroadcastsInDim S3954x1 (![0] : Fin 1 → Fin S3954x1.rank)
  bcast_S_S1024x1024 : S_.BroadcastsInDim S1024x1024 (![] : Fin 0 → Fin S1024x1024.rank)
  concatenates_S3954x1_S3954x1_S3954x2_d1 : Shape.Concatenates [S3954x1, S3954x1] S3954x2 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S32768x1024_S8x4096x1024 : S32768x1024.ShapeCasts S8x4096x1024
  gather_S6_S3954x1_S3954_n_0_n_n_0_1_1_wf : GatherDims.WF S6 S3954x1 S3954 [] [0] [] [0] [] 1 ![1]
  scatter_S1024x1024_S3954x2_S3954_n_01_01_1_wf : ScatterDims.WF S1024x1024 S3954x2 S3954 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)

variable [Facts₀]

def gather_S6_S3954x1_S3954_n_0_n_n_0_1_1 : GatherDims S6 S3954x1 S3954 where
  offsetDims := []
  collapsedSliceDims := [0]
  operandBatchingDims := []
  startIndicesBatchingDims := []
  startIndexMap := [0]
  indexVectorDim := 1
  sliceSizes := ![1]
  wf := gather_S6_S3954x1_S3954_n_0_n_n_0_1_1_wf
def scatter_S1024x1024_S3954x2_S3954_n_01_01_1 : ScatterDims S1024x1024 S3954x2 S3954 where
  updateWindowDims := []
  insertedWindowDims := [0, 1]
  scatterDimsToOperandDims := [0, 1]
  indexVectorDim := 1
  wf := scatter_S1024x1024_S3954x2_S3954_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S3 : Shape := ⟨1, ![3]⟩
abbrev S512 : Shape := ⟨1, ![512]⟩
abbrev S1022 : Shape := ⟨1, ![1022]⟩
abbrev S256 : Shape := ⟨1, ![256]⟩
abbrev S1020 : Shape := ⟨1, ![1020]⟩
abbrev S128 : Shape := ⟨1, ![128]⟩
abbrev S1016 : Shape := ⟨1, ![1016]⟩
abbrev S1 : Shape := ⟨1, ![1]⟩
abbrev S_ : Shape := ⟨0, ![]⟩
abbrev S512x1 : Shape := ⟨2, ![512, 1]⟩
abbrev S8x4096x512 : Shape := ⟨3, ![8, 4096, 512]⟩
abbrev S1022x1 : Shape := ⟨2, ![1022, 1]⟩
abbrev S8x4096x1022 : Shape := ⟨3, ![8, 4096, 1022]⟩
abbrev S256x1 : Shape := ⟨2, ![256, 1]⟩
abbrev S8x4096x256 : Shape := ⟨3, ![8, 4096, 256]⟩
abbrev S1020x1 : Shape := ⟨2, ![1020, 1]⟩
abbrev S8x4096x1020 : Shape := ⟨3, ![8, 4096, 1020]⟩
abbrev S128x1 : Shape := ⟨2, ![128, 1]⟩
abbrev S8x4096x128 : Shape := ⟨3, ![8, 4096, 128]⟩
abbrev S1016x1 : Shape := ⟨2, ![1016, 1]⟩
abbrev S8x4096x1016 : Shape := ⟨3, ![8, 4096, 1016]⟩

abbrev nBuf : Space → Nat
  | .hbm => 159
  | .vmem => 0
  | .smem => 0
  | _ => 0

abbrev hbmTy0_0 (i : Nat) : BufTy := match i % 128 with
  | 0 => ⟨S8x4096x1024, .f32⟩
  | 1 => ⟨S3, .f32⟩
  | 2 => ⟨S3, .f32⟩
  | 3 => ⟨S512, .i32⟩
  | 4 => ⟨S512, .i1⟩
  | 5 => ⟨S512, .i32⟩
  | 6 => ⟨S512, .i1⟩
  | 7 => ⟨S1022, .i32⟩
  | 8 => ⟨S1022, .i1⟩
  | 9 => ⟨S1022, .i32⟩
  | 10 => ⟨S1022, .i1⟩
  | 11 => ⟨S256, .i32⟩
  | 12 => ⟨S256, .i1⟩
  | 13 => ⟨S256, .i32⟩
  | 14 => ⟨S256, .i1⟩
  | 15 => ⟨S1020, .i32⟩
  | 16 => ⟨S1020, .i1⟩
  | 17 => ⟨S1020, .i32⟩
  | 18 => ⟨S1020, .i1⟩
  | 19 => ⟨S128, .i32⟩
  | 20 => ⟨S128, .i1⟩
  | 21 => ⟨S128, .i32⟩
  | 22 => ⟨S128, .i1⟩
  | 23 => ⟨S1016, .i32⟩
  | 24 => ⟨S1016, .i1⟩
  | 25 => ⟨S1016, .i32⟩
  | 26 => ⟨S1016, .i1⟩
  | 27 => ⟨S1, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S1, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i32⟩
  | 44 => ⟨S512, .i32⟩
  | 45 => ⟨S512, .i32⟩
  | 46 => ⟨S512, .i32⟩
  | 47 => ⟨S512x1, .i32⟩
  | 48 => ⟨S8x4096x512, .f32⟩
  | 49 => ⟨S8x4096x512, .f32⟩
  | 50 => ⟨S8x4096x512, .f32⟩
  | 51 => ⟨S_, .i32⟩
  | 52 => ⟨S512, .i32⟩
  | 53 => ⟨S512, .i32⟩
  | 54 => ⟨S512, .i32⟩
  | 55 => ⟨S512x1, .i32⟩
  | 56 => ⟨S8x4096x1024, .f32⟩
  | 57 => ⟨S_, .i32⟩
  | 58 => ⟨S1022, .i32⟩
  | 59 => ⟨S1022, .i32⟩
  | 60 => ⟨S1022, .i32⟩
  | 61 => ⟨S1022x1, .i32⟩
  | 62 => ⟨S8x4096x1022, .f32⟩
  | 63 => ⟨S8x4096x1022, .f32⟩
  | 64 => ⟨S8x4096x1022, .f32⟩
  | 65 => ⟨S_, .i32⟩
  | 66 => ⟨S1022, .i32⟩
  | 67 => ⟨S1022, .i32⟩
  | 68 => ⟨S1022, .i32⟩
  | 69 => ⟨S1022x1, .i32⟩
  | 70 => ⟨S8x4096x1024, .f32⟩
  | 71 => ⟨S1, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S1, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .i32⟩
  | 88 => ⟨S256, .i32⟩
  | 89 => ⟨S256, .i32⟩
  | 90 => ⟨S256, .i32⟩
  | 91 => ⟨S256x1, .i32⟩
  | 92 => ⟨S8x4096x256, .f32⟩
  | 93 => ⟨S8x4096x256, .f32⟩
  | 94 => ⟨S8x4096x256, .f32⟩
  | 95 => ⟨S_, .i32⟩
  | 96 => ⟨S256, .i32⟩
  | 97 => ⟨S256, .i32⟩
  | 98 => ⟨S256, .i32⟩
  | 99 => ⟨S256x1, .i32⟩
  | 100 => ⟨S8x4096x1024, .f32⟩
  | 101 => ⟨S_, .i32⟩
  | 102 => ⟨S1020, .i32⟩
  | 103 => ⟨S1020, .i32⟩
  | 104 => ⟨S1020, .i32⟩
  | 105 => ⟨S1020x1, .i32⟩
  | 106 => ⟨S8x4096x1020, .f32⟩
  | 107 => ⟨S8x4096x1020, .f32⟩
  | 108 => ⟨S8x4096x1020, .f32⟩
  | 109 => ⟨S_, .i32⟩
  | 110 => ⟨S1020, .i32⟩
  | 111 => ⟨S1020, .i32⟩
  | 112 => ⟨S1020, .i32⟩
  | 113 => ⟨S1020x1, .i32⟩
  | 114 => ⟨S8x4096x1024, .f32⟩
  | 115 => ⟨S1, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S1, .f32⟩
  | 124 => ⟨S_, .f32⟩
  | 125 => ⟨S_, .f32⟩
  | 126 => ⟨S_, .f32⟩
  | 127 => ⟨S_, .f32⟩
  | _ => ⟨S8x4096x1024, .f32⟩

abbrev hbmTy0_1 (i : Nat) : BufTy := match i % 128 with
  | 0 => ⟨S_, .f32⟩
  | 1 => ⟨S_, .f32⟩
  | 2 => ⟨S_, .f32⟩
  | 3 => ⟨S_, .i32⟩
  | 4 => ⟨S128, .i32⟩
  | 5 => ⟨S128, .i32⟩
  | 6 => ⟨S128, .i32⟩
  | 7 => ⟨S128x1, .i32⟩
  | 8 => ⟨S8x4096x128, .f32⟩
  | 9 => ⟨S8x4096x128, .f32⟩
  | 10 => ⟨S8x4096x128, .f32⟩
  | 11 => ⟨S_, .i32⟩
  | 12 => ⟨S128, .i32⟩
  | 13 => ⟨S128, .i32⟩
  | 14 => ⟨S128, .i32⟩
  | 15 => ⟨S128x1, .i32⟩
  | 16 => ⟨S8x4096x1024, .f32⟩
  | 17 => ⟨S_, .i32⟩
  | 18 => ⟨S1016, .i32⟩
  | 19 => ⟨S1016, .i32⟩
  | 20 => ⟨S1016, .i32⟩
  | 21 => ⟨S1016x1, .i32⟩
  | 22 => ⟨S8x4096x1016, .f32⟩
  | 23 => ⟨S8x4096x1016, .f32⟩
  | 24 => ⟨S8x4096x1016, .f32⟩
  | 25 => ⟨S_, .i32⟩
  | 26 => ⟨S1016, .i32⟩
  | 27 => ⟨S1016, .i32⟩
  | 28 => ⟨S1016, .i32⟩
  | 29 => ⟨S1016x1, .i32⟩
  | 30 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_c_11 : Ref sig .tc := ⟨.hbm, 15, rfl⟩
abbrev main_c_12 : Ref sig .tc := ⟨.hbm, 16, rfl⟩
abbrev main_c_13 : Ref sig .tc := ⟨.hbm, 17, rfl⟩
abbrev main_c_14 : Ref sig .tc := ⟨.hbm, 18, rfl⟩
abbrev main_c_15 : Ref sig .tc := ⟨.hbm, 19, rfl⟩
abbrev main_c_16 : Ref sig .tc := ⟨.hbm, 20, rfl⟩
abbrev main_c_17 : Ref sig .tc := ⟨.hbm, 21, rfl⟩
abbrev main_c_18 : Ref sig .tc := ⟨.hbm, 22, rfl⟩
abbrev main_c_19 : Ref sig .tc := ⟨.hbm, 23, rfl⟩
abbrev main_c_20 : Ref sig .tc := ⟨.hbm, 24, rfl⟩
abbrev main_c_21 : Ref sig .tc := ⟨.hbm, 25, rfl⟩
abbrev main_c_22 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_cst_23 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_24 : Ref sig .tc := ⟨.hbm, 39, rfl⟩
abbrev main_v10 : Ref sig .tc := ⟨.hbm, 40, rfl⟩
abbrev main_cst_25 : Ref sig .tc := ⟨.hbm, 41, rfl⟩
abbrev main_v11 : Ref sig .tc := ⟨.hbm, 42, rfl⟩
abbrev main_c_26 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_27 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_28 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_29 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_30 : Ref sig .tc := ⟨.hbm, 75, rfl⟩
abbrev main_v40 : Ref sig .tc := ⟨.hbm, 76, rfl⟩
abbrev main_cst_31 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_32 : Ref sig .tc := ⟨.hbm, 83, rfl⟩
abbrev main_v46 : Ref sig .tc := ⟨.hbm, 84, rfl⟩
abbrev main_cst_33 : Ref sig .tc := ⟨.hbm, 85, rfl⟩
abbrev main_v47 : Ref sig .tc := ⟨.hbm, 86, rfl⟩
abbrev main_c_34 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_35 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_36 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_37 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_38 : Ref sig .tc := ⟨.hbm, 119, rfl⟩
abbrev main_v76 : Ref sig .tc := ⟨.hbm, 120, rfl⟩
abbrev main_cst_39 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_40 : Ref sig .tc := ⟨.hbm, 127, rfl⟩
abbrev main_v82 : Ref sig .tc := ⟨.hbm, 128, rfl⟩
abbrev main_cst_41 : Ref sig .tc := ⟨.hbm, 129, rfl⟩
abbrev main_v83 : Ref sig .tc := ⟨.hbm, 130, rfl⟩
abbrev main_c_42 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_43 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_44 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_45 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩

abbrev nD : Nat := 1
abbrev τ : Topo := Topo.v7x

variable {F : FTy → Type} [FloatOps F]

class Facts₀ : Prop where
  slices_S3_S1_0 : S3.Slices ![0] S1
  shapeCasts_S1_S_ : S1.ShapeCasts S_
  bcast_S_S512 : S_.BroadcastsInDim S512 (![] : Fin 0 → Fin S512.rank)
  bcast_S512_S512x1_0 : S512.BroadcastsInDim S512x1 (![0] : Fin 1 → Fin S512x1.rank)
  bcast_S_S8x4096x512 : S_.BroadcastsInDim S8x4096x512 (![] : Fin 0 → Fin S8x4096x512.rank)
  bcast_S_S1022 : S_.BroadcastsInDim S1022 (![] : Fin 0 → Fin S1022.rank)
  bcast_S1022_S1022x1_0 : S1022.BroadcastsInDim S1022x1 (![0] : Fin 1 → Fin S1022x1.rank)
  bcast_S_S8x4096x1022 : S_.BroadcastsInDim S8x4096x1022 (![] : Fin 0 → Fin S8x4096x1022.rank)
  slices_S3_S1_1 : S3.Slices ![1] S1
  bcast_S_S256 : S_.BroadcastsInDim S256 (![] : Fin 0 → Fin S256.rank)
  bcast_S256_S256x1_0 : S256.BroadcastsInDim S256x1 (![0] : Fin 1 → Fin S256x1.rank)
  bcast_S_S8x4096x256 : S_.BroadcastsInDim S8x4096x256 (![] : Fin 0 → Fin S8x4096x256.rank)
  bcast_S_S1020 : S_.BroadcastsInDim S1020 (![] : Fin 0 → Fin S1020.rank)
  bcast_S1020_S1020x1_0 : S1020.BroadcastsInDim S1020x1 (![0] : Fin 1 → Fin S1020x1.rank)
  bcast_S_S8x4096x1020 : S_.BroadcastsInDim S8x4096x1020 (![] : Fin 0 → Fin S8x4096x1020.rank)
  slices_S3_S1_2 : S3.Slices ![2] S1
  bcast_S_S128 : S_.BroadcastsInDim S128 (![] : Fin 0 → Fin S128.rank)
  bcast_S128_S128x1_0 : S128.BroadcastsInDim S128x1 (![0] : Fin 1 → Fin S128x1.rank)
  bcast_S_S8x4096x128 : S_.BroadcastsInDim S8x4096x128 (![] : Fin 0 → Fin S8x4096x128.rank)
  bcast_S_S1016 : S_.BroadcastsInDim S1016 (![] : Fin 0 → Fin S1016.rank)
  bcast_S1016_S1016x1_0 : S1016.BroadcastsInDim S1016x1 (![0] : Fin 1 → Fin S1016x1.rank)
  bcast_S_S8x4096x1016 : S_.BroadcastsInDim S8x4096x1016 (![] : Fin 0 → Fin S8x4096x1016.rank)
  gather_S8x4096x1024_S512x1_S8x4096x512_01_2_n_n_2_1_840961_wf : GatherDims.WF S8x4096x1024 S512x1 S8x4096x512 [0, 1] [2] [] [2] [] 1 ![8, 4096, 1]
  scatter_S8x4096x1024_S512x1_S8x4096x512_01_2_2_1_wf : ScatterDims.WF S8x4096x1024 S512x1 S8x4096x512 [0, 1] [2] [2] 1
  gather_S8x4096x1024_S1022x1_S8x4096x1022_01_2_n_n_2_1_840961_wf : GatherDims.WF S8x4096x1024 S1022x1 S8x4096x1022 [0, 1] [2] [] [2] [] 1 ![8, 4096, 1]
  scatter_S8x4096x1024_S1022x1_S8x4096x1022_01_2_2_1_wf : ScatterDims.WF S8x4096x1024 S1022x1 S8x4096x1022 [0, 1] [2] [2] 1
  gather_S8x4096x1024_S256x1_S8x4096x256_01_2_n_n_2_1_840961_wf : GatherDims.WF S8x4096x1024 S256x1 S8x4096x256 [0, 1] [2] [] [2] [] 1 ![8, 4096, 1]
  scatter_S8x4096x1024_S256x1_S8x4096x256_01_2_2_1_wf : ScatterDims.WF S8x4096x1024 S256x1 S8x4096x256 [0, 1] [2] [2] 1
  gather_S8x4096x1024_S1020x1_S8x4096x1020_01_2_n_n_2_1_840961_wf : GatherDims.WF S8x4096x1024 S1020x1 S8x4096x1020 [0, 1] [2] [] [2] [] 1 ![8, 4096, 1]
  scatter_S8x4096x1024_S1020x1_S8x4096x1020_01_2_2_1_wf : ScatterDims.WF S8x4096x1024 S1020x1 S8x4096x1020 [0, 1] [2] [2] 1
  gather_S8x4096x1024_S128x1_S8x4096x128_01_2_n_n_2_1_840961_wf : GatherDims.WF S8x4096x1024 S128x1 S8x4096x128 [0, 1] [2] [] [2] [] 1 ![8, 4096, 1]
  scatter_S8x4096x1024_S128x1_S8x4096x128_01_2_2_1_wf : ScatterDims.WF S8x4096x1024 S128x1 S8x4096x128 [0, 1] [2] [2] 1
  gather_S8x4096x1024_S1016x1_S8x4096x1016_01_2_n_n_2_1_840961_wf : GatherDims.WF S8x4096x1024 S1016x1 S8x4096x1016 [0, 1] [2] [] [2] [] 1 ![8, 4096, 1]
  scatter_S8x4096x1024_S1016x1_S8x4096x1016_01_2_2_1_wf : ScatterDims.WF S8x4096x1024 S1016x1 S8x4096x1016 [0, 1] [2] [2] 1

variable [Facts₀]

def gather_S8x4096x1024_S512x1_S8x4096x512_01_2_n_n_2_1_840961 : GatherDims S8x4096x1024 S512x1 S8x4096x512 where
  offsetDims := [0, 1]
  collapsedSliceDims := [2]
  operandBatchingDims := []
  startIndicesBatchingDims := []
  startIndexMap := [2]
  indexVectorDim := 1
  sliceSizes := ![8, 4096, 1]
  wf := gather_S8x4096x1024_S512x1_S8x4096x512_01_2_n_n_2_1_840961_wf
def scatter_S8x4096x1024_S512x1_S8x4096x512_01_2_2_1 : ScatterDims S8x4096x1024 S512x1 S8x4096x512 where
  updateWindowDims := [0, 1]
  insertedWindowDims := [2]
  scatterDimsToOperandDims := [2]
  indexVectorDim := 1
  wf := scatter_S8x4096x1024_S512x1_S8x4096x512_01_2_2_1_wf
def gather_S8x4096x1024_S1022x1_S8x4096x1022_01_2_n_n_2_1_840961 : GatherDims S8x4096x1024 S1022x1 S8x4096x1022 where
  offsetDims := [0, 1]
  collapsedSliceDims := [2]
  operandBatchingDims := []
  startIndicesBatchingDims := []
  startIndexMap := [2]
  indexVectorDim := 1
  sliceSizes := ![8, 4096, 1]
  wf := gather_S8x4096x1024_S1022x1_S8x4096x1022_01_2_n_n_2_1_840961_wf
def scatter_S8x4096x1024_S1022x1_S8x4096x1022_01_2_2_1 : ScatterDims S8x4096x1024 S1022x1 S8x4096x1022 where
  updateWindowDims := [0, 1]
  insertedWindowDims := [2]
  scatterDimsToOperandDims := [2]
  indexVectorDim := 1
  wf := scatter_S8x4096x1024_S1022x1_S8x4096x1022_01_2_2_1_wf
def gather_S8x4096x1024_S256x1_S8x4096x256_01_2_n_n_2_1_840961 : GatherDims S8x4096x1024 S256x1 S8x4096x256 where
  offsetDims := [0, 1]
  collapsedSliceDims := [2]
  operandBatchingDims := []
  startIndicesBatchingDims := []
  startIndexMap := [2]
  indexVectorDim := 1
  sliceSizes := ![8, 4096, 1]
  wf := gather_S8x4096x1024_S256x1_S8x4096x256_01_2_n_n_2_1_840961_wf
def scatter_S8x4096x1024_S256x1_S8x4096x256_01_2_2_1 : ScatterDims S8x4096x1024 S256x1 S8x4096x256 where
  updateWindowDims := [0, 1]
  insertedWindowDims := [2]
  scatterDimsToOperandDims := [2]
  indexVectorDim := 1
  wf := scatter_S8x4096x1024_S256x1_S8x4096x256_01_2_2_1_wf
def gather_S8x4096x1024_S1020x1_S8x4096x1020_01_2_n_n_2_1_840961 : GatherDims S8x4096x1024 S1020x1 S8x4096x1020 where
  offsetDims := [0, 1]
  collapsedSliceDims := [2]
  operandBatchingDims := []
  startIndicesBatchingDims := []
  startIndexMap := [2]
  indexVectorDim := 1
  sliceSizes := ![8, 4096, 1]
  wf := gather_S8x4096x1024_S1020x1_S8x4096x1020_01_2_n_n_2_1_840961_wf
def scatter_S8x4096x1024_S1020x1_S8x4096x1020_01_2_2_1 : ScatterDims S8x4096x1024 S1020x1 S8x4096x1020 where
  updateWindowDims := [0, 1]
  insertedWindowDims := [2]
  scatterDimsToOperandDims := [2]
  indexVectorDim := 1
  wf := scatter_S8x4096x1024_S1020x1_S8x4096x1020_01_2_2_1_wf
def gather_S8x4096x1024_S128x1_S8x4096x128_01_2_n_n_2_1_840961 : GatherDims S8x4096x1024 S128x1 S8x4096x128 where
  offsetDims := [0, 1]
  collapsedSliceDims := [2]
  operandBatchingDims := []
  startIndicesBatchingDims := []
  startIndexMap := [2]
  indexVectorDim := 1
  sliceSizes := ![8, 4096, 1]
  wf := gather_S8x4096x1024_S128x1_S8x4096x128_01_2_n_n_2_1_840961_wf
def scatter_S8x4096x1024_S128x1_S8x4096x128_01_2_2_1 : ScatterDims S8x4096x1024 S128x1 S8x4096x128 where
  updateWindowDims := [0, 1]
  insertedWindowDims := [2]
  scatterDimsToOperandDims := [2]
  indexVectorDim := 1
  wf := scatter_S8x4096x1024_S128x1_S8x4096x128_01_2_2_1_wf
def gather_S8x4096x1024_S1016x1_S8x4096x1016_01_2_n_n_2_1_840961 : GatherDims S8x4096x1024 S1016x1 S8x4096x1016 where
  offsetDims := [0, 1]
  collapsedSliceDims := [2]
  operandBatchingDims := []
  startIndicesBatchingDims := []
  startIndexMap := [2]
  indexVectorDim := 1
  sliceSizes := ![8, 4096, 1]
  wf := gather_S8x4096x1024_S1016x1_S8x4096x1016_01_2_n_n_2_1_840961_wf
def scatter_S8x4096x1024_S1016x1_S8x4096x1016_01_2_2_1 : ScatterDims S8x4096x1024 S1016x1 S8x4096x1016 where
  updateWindowDims := [0, 1]
  insertedWindowDims := [2]
  scatterDimsToOperandDims := [2]
  indexVectorDim := 1
  wf := scatter_S8x4096x1024_S1016x1_S8x4096x1016_01_2_2_1_wf

class Facts : Prop extends Facts₀ where

variable [Facts]
-- ==== Proof.KerBody.lean ====
/-
  The arithmetic of one grid step, read entry by entry.

  One step takes a 1024 × 1024 block X of the flattened input and the whole 1024 × 1024 matrix U and leaves
  X + X·U.  At the extended reals the narrowing of X to the short format before the product is the identity, so
  entry (p, q) of the result is X[p,q] + Σ_k X[p,k] · U[k,q].
-/
import proofs.«168499_j23390391894546_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KerSide

open Cert.KernelIdeal Cert.KernelIdeal.Gen

/-- The left operand of the product at output entry (p, q) and contraction position k is entry (p, k). -/
theorem lhs_at (p q k : Fin 1024) :
    dot_S1024x1024_S1024x1024_S1024x1024_1_0_0_1_n_n.lhsIdx (ix2 p q)
      ((contrEquiv1 dot_S1024x1024_S1024x1024_S1024x1024_1_0_0_1_n_n 1024 rfl rfl).symm k) = ix2 p k := by
  have hk := contrEquiv1_symm_val dot_S1024x1024_S1024x1024_S1024x1024_1_0_0_1_n_n 1024 rfl rfl k
  funext a; apply Fin.ext
  match a with
  | ⟨0, _⟩ =>
    show (dot_S1024x1024_S1024x1024_S1024x1024_1_0_0_1_n_n.lhsIdx (ix2 p q) _ (0 : Fin S1024x1024.rank)).val = p.val
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  | ⟨1, _⟩ =>
    exact (dot_S1024x1024_S1024x1024_S1024x1024_1_0_0_1_n_n.lhsIdx_val_of_single (cl := (1 : Fin S1024x1024.rank)) rfl (ix2 p q) _).trans hk

/-- The right operand there is entry (k, q). -/
theorem rhs_at (p q k : Fin 1024) :
    dot_S1024x1024_S1024x1024_S1024x1024_1_0_0_1_n_n.rhsIdx (ix2 p q)
      ((contrEquiv1 dot_S1024x1024_S1024x1024_S1024x1024_1_0_0_1_n_n 1024 rfl rfl).symm k) = ix2 k q := by
  have hk := contrEquiv1_symm_val dot_S1024x1024_S1024x1024_S1024x1024_1_0_0_1_n_n 1024 rfl rfl k
  funext a; apply Fin.ext
  match a with
  | ⟨0, _⟩ =>
    exact (dot_S1024x1024_S1024x1024_S1024x1024_1_0_0_1_n_n.rhsIdx_val_of_single (cr := (0 : Fin S1024x1024.rank)) rfl (ix2 p q) _).trans hk
  | ⟨1, _⟩ =>
    show (dot_S1024x1024_S1024x1024_S1024x1024_1_0_0_1_n_n.rhsIdx (ix2 p q) _ (1 : Fin S1024x1024.rank)).val = q.val
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- One step's result at entry (p, q): the block's entry plus the row of the block against the column of the matrix. -/
theorem pay_apply (x0 : Vec Ideal S1024x1024 .f32) (x1 : Vec Ideal S1024x1024 .bf16) (p q : Fin 1024) :
    k0_pay1 (F := Ideal) x0 x1 (ix2 p q) = x0 (ix2 p q) + ∑ k : Fin 1024, x0 (ix2 p k) * x1 (ix2 k q) := by
  unfold k0_pay1
  simp only [shapeCast_self]
  rw [addf_apply]
  refine congrArg (x0 (ix2 p q) + ·) ?_
  refine (Ideal.matmul_constant_zero_apply (φ₁ := .bf16) (φ₂ := .bf16) dot_S1024x1024_S1024x1024_S1024x1024_1_0_0_1_n_n none
    (truncf .bf16 x0 bitsLt_bf16_f32) x1 (ix2 p q)).trans ?_
  rw [← Equiv.sum_comp (contrEquiv1 dot_S1024x1024_S1024x1024_S1024x1024_1_0_0_1_n_n 1024 rfl rfl).symm]
  refine Finset.sum_congr rfl fun k _ => ?_
  rw [lhs_at, rhs_at]
  rfl

/-- The whole-array function of the region: row r, column q of the output is x2[r,q] + Σ_k x2[r,k] · U[k,q]. -/
def matAdd (x2 : (⟨S32768x1024, .f32⟩ : BufTy).Contents (Elt Ideal)) (U : (⟨S1024x1024, .bf16⟩ : BufTy).Contents (Elt Ideal)) :
    (⟨S32768x1024, .f32⟩ : BufTy).Contents (Elt Ideal) :=
  fun i => x2 i + ∑ k : Fin 1024, x2 (ix2 (i 0) k) * U (ix2 k (i 1))

theorem matAdd_apply (x2 : (⟨S32768x1024, .f32⟩ : BufTy).Contents (Elt Ideal)) (U : (⟨S1024x1024, .bf16⟩ : BufTy).Contents (Elt Ideal))
    (r : Fin 32768) (q : Fin 1024) :
    matAdd x2 U (ix2 r q) = x2 (ix2 r q) + ∑ k : Fin 1024, x2 (ix2 r k) * U (ix2 k q) := rfl

end Cert.KerSide

end
-- ==== Proof.KerBlocks.lean ====
/-
  From the blocks to the whole array.

  The flattened input has 32768 rows; step t of 32 takes rows 1024·t … 1024·t + 1023 (all 1024 columns) and the
  whole matrix, and writes the same rows of the output.  So the output array ends as ONE function of the two
  arrays the steps read: row r, column q is x2[r,q] + Σ_k x2[r,k] · U[k,q].
-/
import proofs.«168499_j23390391894546_2_alg».proof.Proof.Gen.KernelIdeal.Frame
import proofs.«168499_j23390391894546_2_alg».proof.Proof.KerBody
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KerSide

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The block indices of the three windows at step t: the row block is t for the input and the output, the matrix is whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at step t is rows 1024·t … of the flattened input. -/
theorem iblk0_apply (c : Dev nD) (t : Fin cfg0.N) (x : S1024x1024.Idx) (k : S32768x1024.Idx)
    (hk0 : (k 0).val = t.val * 1024 + (x 0).val) (hk1 : (k 1).val = (x 1).val) :
    (iblk m c 0 t : Vec Ideal S1024x1024 .f32) x = (V m c main_v0 : S32768x1024.Idx → Elt Ideal .f32) k := by
  obtain ⟨e0, e1, -⟩ := idx_facts t
  unfold iblk
  rw [View.read_apply]
  show V m c main_v0 (((cfg0.win 0).blk t).view.emb x) = V m c main_v0 k
  refine congrArg (V m c main_v0) ?_
  funext a
  apply Fin.ext
  match a with
  | ⟨0, _⟩ => show win0_0.index t (0 : Fin 2) * 1024 + 1 * (x 0).val = (k 0).val; omega
  | ⟨1, _⟩ => show win0_0.index t (1 : Fin 2) * 1024 + 1 * (x 1).val = (k 1).val; omega

/-- The matrix block at every step is the whole matrix. -/
theorem iblk1_apply (c : Dev nD) (t : Fin cfg0.N) (x : S1024x1024.Idx) :
    (iblk m c 1 t : Vec Ideal S1024x1024 .bf16) x = (V m c main_v30 : S1024x1024.Idx → Elt Ideal .bf16) x := by
  obtain ⟨-, -, e2, e3, -⟩ := idx_facts t
  unfold iblk
  rw [View.read_apply]
  show V m c main_v30 (((cfg0.win 1).blk t).view.emb x) = V m c main_v30 x
  refine congrArg (V m c main_v30) ?_
  funext a
  apply Fin.ext
  match a with
  | ⟨0, _⟩ => show win0_1.index t (0 : Fin 2) * 1024 + 1 * (x 0).val = (x 0).val; omega
  | ⟨1, _⟩ => show win0_1.index t (1 : Fin 2) * 1024 + 1 * (x 1).val = (x 1).val; omega

/-- One step's result over blocks that are rows b·1024 … of X and the whole of Um is the same rows of matAdd X Um. -/
theorem pay_rows (x0 : Vec Ideal S1024x1024 .f32) (x1 : Vec Ideal S1024x1024 .bf16)
    (X : (⟨S32768x1024, .f32⟩ : BufTy).Contents (Elt Ideal)) (Um : (⟨S1024x1024, .bf16⟩ : BufTy).Contents (Elt Ideal)) (b : Nat)
    (h0 : ∀ (y : S1024x1024.Idx) (k : S32768x1024.Idx), (k 0).val = b * 1024 + (y 0).val → (k 1).val = (y 1).val → x0 y = X k)
    (h1 : ∀ y : S1024x1024.Idx, x1 y = Um y)
    (j : S1024x1024.Idx) (i : S32768x1024.Idx) (hi0 : (i 0).val = b * 1024 + (j 0).val) (hi1 : (i 1).val = (j 1).val) :
    k0_pay1 (F := Ideal) x0 x1 j = matAdd X Um i := by
  obtain ⟨p, q, rfl⟩ : ∃ (p q : Fin 1024), j = ix2 p q := ⟨j 0, j 1, eq_ix2 j⟩
  obtain ⟨r, s, rfl⟩ : ∃ (r : Fin 32768) (s : Fin 1024), i = ix2 r s := ⟨i 0, i 1, eq_ix2 i⟩
  have hr : r.val = b * 1024 + p.val := hi0
  obtain rfl : s = q := Fin.ext hi1
  rw [pay_apply, matAdd_apply]
  rw [h0 (ix2 p s) (ix2 r s) hr rfl]
  refine congrArg (X (ix2 r s) + ·) (Finset.sum_congr rfl fun k _ => ?_)
  rw [h0 (ix2 p k) (ix2 r k) hr rfl, h1]

/-- WHAT STEP t WRITES BACK is block t of matAdd of the two arrays the steps read. -/
theorem flushed_eq (c : Dev nD) (t : Fin cfg0.N) :
    (dats m 0 c).flushed 2 t = ((cfg0.win 2).blk t).view.read (Elt Ideal) (matAdd (V m c main_v0) (V m c main_v30)) := by
  show (cfg0.win 2).cut (grid0.coords t) ((dats m 0 c).after 2 t) = _
  rw [after0_2]
  unfold out0_2
  rw [View.canon_unit_zero hz]
  simp only [View.ld_unit_zero (S := S1024x1024) hz]
  obtain ⟨-, -, -, -, e4, e5⟩ := idx_facts t
  funext j
  show k0_pay1 (F := Ideal) (iblk m c 0 t) (iblk m c 1 t) j = matAdd (V m c main_v0) (V m c main_v30) (((cfg0.win 2).blk t).view.emb j)
  refine pay_rows (iblk m c 0 t) (iblk m c 1 t) (V m c main_v0) (V m c main_v30) t.val
    (fun y k h0 h1 => iblk0_apply m c t y k h0 h1) (fun y => iblk1_apply m c t y) j _ ?_ ?_
  · show win0_2.index t (0 : Fin 2) * 1024 + 1 * (j 0).val = t.val * 1024 + (j 0).val; omega
  · show win0_2.index t (1 : Fin 2) * 1024 + 1 * (j 1).val = (j 1).val; omega

/-- An index of the output array is in step t's block iff each coordinate is in the block's range on its axis. -/
theorem mem_blk (t : Fin cfg0.N) (i : S32768x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v31).slice (win0_2.rect t)).set ↔ _
  rw [View.set_slice_whole, Rect.mem_set_unit]
  exact Iff.rfl

/-- Every index of the output array is in the block of the step its row falls in. -/
theorem cover (i : S32768x1024.Idx) : ∃ t : Fin cfg0.N, (cfg0.win 2).flush t = true ∧ i ∈ ((cfg0.win 2).blk t).view.set := by
  have hi0 : (i 0).val < 32768 := (i 0).isLt
  have hi1 : (i 1).val < 1024 := (i 1).isLt
  have hN : cfg0.N = 32 := N_0
  refine ⟨⟨(i 0).val / 1024, by rw [hN]; omega⟩, flush0_2 _, ?_⟩
  obtain ⟨-, -, -, -, e4, e5⟩ := idx_facts ⟨(i 0).val / 1024, by rw [hN]; omega⟩
  rw [mem_blk]
  intro a
  match a with
  | ⟨0, _⟩ =>
    show win0_2.index _ (0 : Fin 2) * 1024 ≤ (i 0).val ∧ (i 0).val < win0_2.index _ (0 : Fin 2) * 1024 + 1024
    rw [e4]; show (i 0).val / 1024 * 1024 ≤ (i 0).val ∧ (i 0).val < (i 0).val / 1024 * 1024 + 1024; omega
  | ⟨1, _⟩ =>
    show win0_2.index _ (1 : Fin 2) * 1024 ≤ (i 1).val ∧ (i 1).val < win0_2.index _ (1 : Fin 2) * 1024 + 1024
    rw [e5]; omega

/-- THE OUTPUT ARRAY after the last step: matAdd of the flattened input and the matrix as the steps find them. -/
theorem final (c : Dev nD) : (dats m 0 c).arrAt 2 cfg0.N = matAdd (V m c main_v0) (V m c main_v30) :=
  (dats m 0 c).arrAt_eq_of_cover 2 (matAdd (V m c main_v0) (V m c main_v30)) (fun t _ => flushed_eq m c t) cover

end Cert.KerSide

end
-- ==== Proof.LibReadStretch.lean ====
/-
  Reading a stretch of host operations through a two-operand concatenation.

  The contents a buffer holds after a line of host operations are found by rewriting each operation's result at its own buffer
  to its function's value and at any other buffer to what was there. A concatenation takes its operands as a list of
  shape-tagged vectors together with a witness about the list's tags; because the witness speaks of the list, a rewriting pass
  treats the whole list as fixed and stops there. `cat2` is the same concatenation with its two operands as plain arguments
  and a witness about the two tags only, so the pass goes on into the operands. `read_stretch` is the one-pass reading of a
  stretch with that folding added.
-/
import Idealize.ShloMosaic.Lib.StableHlo.Run

noncomputable section

namespace Idealize.ShloMosaic

/-- The concatenation of two vectors along axis `a` of `t`, its operands as arguments. -/
def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A printed two-operand concatenation is `cat2` of its operands. -/
theorem concatenate_two {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ x y h := rfl

namespace StableHlo

/-- One pass over a stretch's fold at a buffer: each operation's result at its own buffer becomes its function's value, at any
    other buffer what was there (the buffers' inequality decided), and a two-operand concatenation is folded to `cat2` so that
    the pass reads its operands too. -/
macro "read_stretch" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_two]))

end StableHlo

end Idealize.ShloMosaic

end
-- ==== Proof.KerHost.lean ====
/-
  The two arrays the region reads, as functions of the program's arguments.

  Before the region the host flattens the input [8,4096,1024] to [32768,1024], and builds the 1024 × 1024 matrix:
  the six sigmoid weights 1/(1 + exp(-u)), 1/(1 + exp(-d)) are gathered along a table of 3954 positions and added into
  the zero matrix at the 3954 (row, column) pairs of two further tables, and the sum is narrowed to the short format.
  Each is read here as ONE closed term of the arguments, the tables left as opaque functions.
-/
import proofs.«168499_j23390391894546_2_alg».proof.Proof.Gen.KernelIdeal.Frame
import proofs.«168499_j23390391894546_2_alg».proof.Proof.LibReadStretch
import Idealize.ShloMosaic.PureOps.Ideal

noncomputable section

open Idealize.ShloMosaic Idealize.ShloMosaic.TcCoe Idealize.SL.Sem

namespace Cert.KerSide

open Cert.KernelIdeal Cert.KernelIdeal.Gen

variable (m : (ℓ : Loc nD τ sig) → Buf (Elt Ideal) ℓ)

/-- The six sigmoid weights from one argument's three numbers: 1 / (1 + exp (-w)). -/
def sigm (w : (⟨S3, .f32⟩ : BufTy).Contents (Elt Ideal)) : (⟨S3, .f32⟩ : BufTy).Contents (Elt Ideal) :=
  Host.divf (F := Ideal) (broadcastInDim S3 ![] bcast_S_S3 (constant (F := Ideal) S_ .f32 0x3F800000#32))
    (addf (F := Ideal) (broadcastInDim S3 ![] bcast_S_S3 (constant (F := Ideal) S_ .f32 0x3F800000#32))
      (Host.exp (F := Ideal) (Host.negf (F := Ideal) w)))

/-- A table of positions with the wrap-around of negative entries the host applies (none is negative: the selector is constantly false). -/
def wrapTab (tab : Fin 3954 → BitVec 32) (n : BitVec 32) : (⟨S3954, .i32⟩ : BufTy).Contents (Elt Ideal) :=
  select (constantI S3954 1 0#1)
    (addi (fun i => tab (S3954.rowMajor i)) (broadcastInDim S3954 ![] bcast_S_S3954 (constantI S_ 32 n)))
    (fun i => tab (S3954.rowMajor i))

/-- The [1024,1024] matrix the region finds: the 3954 gathered weights added into the zero matrix at their (row, column)
    pairs, narrowed to the short format. The host operations' functions composed as the program applies them. -/
def Umat (u d : (⟨S3, .f32⟩ : BufTy).Contents (Elt Ideal)) : (⟨S1024x1024, .bf16⟩ : BufTy).Contents (Elt Ideal) :=
  truncf (F := Ideal) .bf16
    (Host.scatterAdd (F := Ideal) scatter_S1024x1024_S3954x2_S3954_n_01_01_1
      (broadcastInDim S1024x1024 ![] bcast_S_S1024x1024 (constant (F := Ideal) S_ .f32 0x00000000#32))
      (cat2 S3954x2 1 S3954x1 S3954x1
        (broadcastInDim S3954x1 ![0] bcast_S3954_S3954x1_0 (wrapTab lit1 1024#32))
        (broadcastInDim S3954x1 ![0] bcast_S3954_S3954x1_0 (wrapTab lit2 1024#32))
        concatenates_S3954x1_S3954x1_S3954x2_d1)
      (Host.gather gather_S6_S3954x1_S3954_n_0_n_n_0_1_1
        (cat2 S6 0 S3 S3 (sigm u) (sigm d) concatenates_S3_S3_S6_d0)
        (broadcastInDim S3954x1 ![0] bcast_S3954_S3954x1_0 (wrapTab lit0 6#32))))
    bitsLt_bf16_f32

/-- The region finds the matrix at Umat of the two weight arguments. -/
theorem V_main_v30 (c : Dev nD) :
    V m c main_v30 = Umat (m ((c : Thread nD τ).loc main_arg1)) (m ((c : Thread nD τ).loc main_arg2)) := by
  show StableHlo.after hostOps0 (fun b => m (c, b)) (Proc.devRef .tc main_v30) = _
  read_stretch
  rfl

/-- The region finds the flattened input: the argument reshaped to [32768,1024]. -/
theorem V_main_v0 (c : Dev nD) :
    V m c main_v0 = shapeCast S32768x1024 (m ((c : Thread nD τ).loc main_arg0)) shapeCasts_S8x4096x1024_S32768x1024 := by
  show StableHlo.after hostOps0 (fun b => m (c, b)) (Proc.devRef .tc main_v0) = _
  read_stretch
  rfl

end Cert.KerSide

end
-- ==== Proof.KerRun.lean ====
/-
  The kernel's run, its result as one closed term of the three arguments.

  After the region the host reshapes the [32768,1024] output back to [8,4096,1024]. With the output array at matAdd of
  the two arrays the region reads, and those two read as terms of the arguments, the result buffer holds
  kerVal x u d = reshape (matAdd (reshape x) (Umat u d)), and no argument is written.
-/
import proofs.«168499_j23390391894546_2_alg».proof.Proof.KerBlocks
import proofs.«168499_j23390391894546_2_alg».proof.Proof.KerHost

noncomputable section

open Idealize.ShloMosaic Idealize.ShloMosaic.TcCoe Idealize.SL.Sem Idealize.ShloMosaic.ValueIdx
open Idealize.ShloMosaic.Pipeline (Dat)

namespace Cert.KerSide

open Cert.KernelIdeal Cert.KernelIdeal.Gen

variable (m : (ℓ : Loc nD τ sig) → Buf (Elt Ideal) ℓ) (ρ : Dev nD → PrngReg)

/-- The result as a term of the arguments: flatten, add the product with the matrix, restore the shape. -/
def kerVal (x : (⟨S8x4096x1024, .f32⟩ : BufTy).Contents (Elt Ideal)) (u d : (⟨S3, .f32⟩ : BufTy).Contents (Elt Ideal)) :
    (⟨S8x4096x1024, .f32⟩ : BufTy).Contents (Elt Ideal) :=
  shapeCast S8x4096x1024 (matAdd (shapeCast S32768x1024 x shapeCasts_S8x4096x1024_S32768x1024) (Umat u d))
    shapeCasts_S32768x1024_S8x4096x1024

/-- What the host operation after the region leaves in the result buffer. -/
theorem tail_val (c : Dev nD) :
    Pipeline.afterTail₀ cfgs (dats m) 0 (V0 m) [hostOps1] c main_v32
      = kerVal (m ((c : Thread nD τ).loc main_arg0)) (m ((c : Thread nD τ).loc main_arg1)) (m ((c : Thread nD τ).loc main_arg2)) := by
  have e : Pipeline.withArrays (cfgs 0).spec c (V0 m c) (fun w => (dats m 0 c).arrAt w (cfgs 0).N) (Proc.devRef .tc main_v31)
      = matAdd (shapeCast S32768x1024 (m ((c : Thread nD τ).loc main_arg0)) shapeCasts_S8x4096x1024_S32768x1024)
          (Umat (m ((c : Thread nD τ).loc main_arg1)) (m ((c : Thread nD τ).loc main_arg2))) := by
    refine (Pipeline.withArrays_arr spec0 launch0.win.arr_inj c _ _ 2).trans ?_
    rw [← V_main_v0 m c, ← V_main_v30 m c]
    exact final m c
  unfold Pipeline.afterTail₀
  show StableHlo.after hostOps1 _ (Proc.devRef .tc main_v32) = _
  after_results
  rw [e]
  rfl

/-- THE KERNEL'S RUN: every weakly fair execution terminates with the result buffer at kerVal of the three arguments and
    the arguments as launched. -/
theorem run : θ_run (defs (F := Ideal)) (onTc (τ := τ) (main (F := Ideal))) ⟨m, fun _ => 0, ρ⟩ fun r => ∀ c : Dev nD,
      r.2.mem ((c.tc : Thread nD τ).loc main_v32)
        = kerVal (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v32 (Pipeline.mem_restRefs_of main_v32 (by decide) (by decide))).trans (tail_val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KerSide

end
-- ==== Proof.KerValApply.lean ====
/-
  The kernel's result read at one entry.

  Entry (a, b, n) of the [8,4096,1024] result is row a·4096 + b, column n of the flattened array, so it is
  x[a,b,n] + Σ_k x[a,b,k] · U[k,n] with U the matrix built from the two weight arguments.
-/
import proofs.«168499_j23390391894546_2_alg».proof.Proof.KerRun

noncomputable section

open scoped BigOperators
open Idealize.ShloMosaic Idealize.ShloMosaic.ValueIdx

namespace Cert.KerSide

open Cert.KernelIdeal Cert.KernelIdeal.Gen

/-- The flattened input at row b·4096 + r is the input at (b, r). -/
theorem flat_apply (x : (⟨S8x4096x1024, .f32⟩ : BufTy).Contents (Elt Ideal)) (b : Fin 8) (r : Fin 4096) (k : Fin 1024)
    (row : Fin 32768) (hrow : row.val = b.val * 4096 + r.val) :
    shapeCast S32768x1024 x shapeCasts_S8x4096x1024_S32768x1024 (ix2 row k) = x (ix3 b r k) := by
  refine shapeCast_apply x _ (ix2 row k) (ix3 b r k) ?_
  rw [Shape.rowMajor_val_three, Shape.rowMajor_val_two]
  show (b.val * 4096 + r.val) * 1024 + k.val = row.val * 1024 + k.val
  rw [hrow]

/-- The result at entry (a, b, n). -/
theorem kerVal_apply (x : (⟨S8x4096x1024, .f32⟩ : BufTy).Contents (Elt Ideal)) (u d : (⟨S3, .f32⟩ : BufTy).Contents (Elt Ideal))
    (a : Fin 8) (b : Fin 4096) (n : Fin 1024) :
    kerVal x u d (ix3 a b n) = x (ix3 a b n) + ∑ k : Fin 1024, x (ix3 a b k) * Umat u d (ix2 k n) := by
  have hlt : a.val * 4096 + b.val < 32768 := by have := a.isLt; have := b.isLt; omega
  unfold kerVal
  refine (shapeCast_apply _ _ (ix3 a b n) (ix2 (⟨a.val * 4096 + b.val, hlt⟩ : Fin 32768) n) ?_).trans ?_
  · rw [Shape.rowMajor_val_three, Shape.rowMajor_val_two]
    rfl
  · rw [matAdd_apply, flat_apply x a b n _ rfl]
    refine congrArg (x (ix3 a b n) + ·) (Finset.sum_congr rfl fun k _ => ?_)
    rw [flat_apply x a b k _ rfl]

end Cert.KerSide

end
-- ==== Proof.LibScatterLast.lean ====
import Idealize.ShloMosaic.PureOps.Ideal
import Idealize.ShloMosaic.PureOps.Ideal.Laws
import Idealize.ShloMosaic.Lib.ValueIdx
import Idealize.ShloMosaic.PureOps.Reduce
/-!
# The accumulating scatter along the last axis, read at an index

The host's accumulating scatter into the last axis of a rank-3 array: operand `[A, B, N]`, scatter indices `[E, 1]`,
updates `[A, B, E]`, the updates' two leading axes being window axes, the operand's last axis inserted and addressed by
the one component of the index vector. Update `(a, b, e)` lands at `(a, b, k)` where `k` is the scatter index `(e, 0)`
read as a signed integer; it is dropped when `k` is outside `[0, N)`. So the result at `(a, b, n)` is the operand
there plus the sum of the updates `(a, b, e)` over the entries `e` whose index is `n`.
-/
noncomputable section
open scoped BigOperators
open Idealize.ShloMosaic Idealize.ShloMosaic.ValueIdx

namespace Cert.LibScatterLast

/-- The dimension numbers of the last-axis scatter; their conditions `wf` are decided on literal shapes. -/
abbrev lastScatter (A B N E : Nat)
    (wf : ScatterDims.WF ⟨3, ![A, B, N]⟩ ⟨2, ![E, 1]⟩ ⟨3, ![A, B, E]⟩ [0, 1] [2] [2] 1) :
    ScatterDims ⟨3, ![A, B, N]⟩ ⟨2, ![E, 1]⟩ ⟨3, ![A, B, E]⟩ where
  updateWindowDims := [0, 1]
  insertedWindowDims := [2]
  scatterDimsToOperandDims := [2]
  indexVectorDim := 1
  wf := wf

variable {A B N E w : Nat} (wf : ScatterDims.WF ⟨3, ![A, B, N]⟩ ⟨2, ![E, 1]⟩ ⟨3, ![A, B, E]⟩ [0, 1] [2] [2] 1)

/-- On the last axis the window of update `(a, b, e)` starts at the scatter index `(e, 0)` read signed. -/
theorem start2 (a : Fin A) (b : Fin B) (e : Fin E) (idx : IVec ⟨2, ![E, 1]⟩ w) :
    (lastScatter A B N E wf).start (ix3 a b e) idx 2 = (idx (ix2 e (0 : Fin 1))).toInt := by
  unfold ScatterDims.start
  rw [dif_pos (show (2 : Fin 3) ∈ (lastScatter A B N E wf).scatterDimsToOperandDims from List.mem_singleton.mpr rfl)]
  congr 2
  funext c
  apply Fin.ext
  match c with
  | ⟨0, _⟩ => rfl
  | ⟨1, _⟩ => rfl

/-- On the two leading axes the window starts at `0`. -/
theorem start0 (a : Fin A) (b : Fin B) (e : Fin E) (idx : IVec ⟨2, ![E, 1]⟩ w) :
    (lastScatter A B N E wf).start (ix3 a b e) idx 0 = 0 := by
  unfold ScatterDims.start
  rw [dif_neg (fun h => by have := congrArg Fin.val (List.mem_singleton.mp h); simp at this)]

theorem start1 (a : Fin A) (b : Fin B) (e : Fin E) (idx : IVec ⟨2, ![E, 1]⟩ w) :
    (lastScatter A B N E wf).start (ix3 a b e) idx 1 = 0 := by
  unfold ScatterDims.start
  rw [dif_neg (fun h => by have := congrArg Fin.val (List.mem_singleton.mp h); simp at this)]

/-- The operand's kept axes are the two leading ones. -/
theorem sKept_eq : (lastScatter A B N E wf).sKept = [0, 1] := by
  show Shape.kept (⟨3, ![A, B, N]⟩ : Shape) [(2 : Fin 3)] = [(0 : Fin 3), (1 : Fin 3)]
  rw [Shape.kept_single]; rfl

/-- The window coordinates: the update's own two leading coordinates, and `0` on the inserted last axis. -/
theorem window0 (a : Fin A) (b : Fin B) (e : Fin E) : (lastScatter A B N E wf).window (ix3 a b e) 0 = a.val := by
  unfold ScatterDims.window
  rw [dif_pos (by rw [sKept_eq]; simp)]
  rfl

theorem window1 (a : Fin A) (b : Fin B) (e : Fin E) : (lastScatter A B N E wf).window (ix3 a b e) 1 = b.val := by
  unfold ScatterDims.window
  rw [dif_pos (by rw [sKept_eq]; simp)]
  rfl

theorem window2 (a : Fin A) (b : Fin B) (e : Fin E) : (lastScatter A B N E wf).window (ix3 a b e) 2 = 0 := by
  unfold ScatterDims.window
  rw [dif_neg (by rw [sKept_eq]; simp)]

/-- Where an update lands: leading coordinates kept, last coordinate the scatter index read signed; dropped when that
    is out of range. -/
theorem resultIdx_eq_some_iff (a : Fin A) (b : Fin B) (e : Fin E) (idx : IVec ⟨2, ![E, 1]⟩ w)
    (a' : Fin A) (b' : Fin B) (n : Fin N) :
    (lastScatter A B N E wf).resultIdx? (ix3 a b e) idx = some (ix3 a' b' n) ↔
      (idx (ix2 e (0 : Fin 1))).toInt = (n.val : Int) ∧ a = a' ∧ b = b' := by
  have hs0 : (lastScatter A B N E wf).start (ix3 a b e) idx 0 + ((lastScatter A B N E wf).window (ix3 a b e) 0 : Nat)
      = (a.val : Int) := by rw [start0, window0]; simp
  have hs1 : (lastScatter A B N E wf).start (ix3 a b e) idx 1 + ((lastScatter A B N E wf).window (ix3 a b e) 1 : Nat)
      = (b.val : Int) := by rw [start1, window1]; simp
  have hs2 : (lastScatter A B N E wf).start (ix3 a b e) idx 2 + ((lastScatter A B N E wf).window (ix3 a b e) 2 : Nat)
      = (idx (ix2 e (0 : Fin 1))).toInt := by rw [start2, window2]; simp
  unfold ScatterDims.resultIdx?
  constructor
  · intro h
    split at h
    · next hb =>
      have h' := Option.some.inj h
      have e0 : ((lastScatter A B N E wf).start (ix3 a b e) idx 0 + ((lastScatter A B N E wf).window (ix3 a b e) 0 : Nat)).toNat = a'.val :=
        congrArg Fin.val (congrFun h' 0)
      have e1 : ((lastScatter A B N E wf).start (ix3 a b e) idx 1 + ((lastScatter A B N E wf).window (ix3 a b e) 1 : Nat)).toNat = b'.val :=
        congrArg Fin.val (congrFun h' 1)
      have e2 : ((lastScatter A B N E wf).start (ix3 a b e) idx 2 + ((lastScatter A B N E wf).window (ix3 a b e) 2 : Nat)).toNat = n.val :=
        congrArg Fin.val (congrFun h' 2)
      have b2 := (hb 2).1
      rw [hs0] at e0
      rw [hs1] at e1
      rw [hs2] at e2 b2
      refine ⟨by omega, Fin.ext (by omega), Fin.ext (by omega)⟩
    · exact absurd h (by simp)
  · rintro ⟨h1, rfl, rfl⟩
    have hcond : ∀ c : Fin 3, 0 ≤ (lastScatter A B N E wf).start (ix3 a b e) idx c + ((lastScatter A B N E wf).window (ix3 a b e) c : Nat) ∧
        (lastScatter A B N E wf).start (ix3 a b e) idx c + ((lastScatter A B N E wf).window (ix3 a b e) c : Nat) < ((⟨3, ![A, B, N]⟩ : Shape).size c : Nat) := by
      intro c
      match c with
      | ⟨0, _⟩ =>
        show 0 ≤ (lastScatter A B N E wf).start (ix3 a b e) idx 0 + ((lastScatter A B N E wf).window (ix3 a b e) 0 : Nat) ∧
          (lastScatter A B N E wf).start (ix3 a b e) idx 0 + ((lastScatter A B N E wf).window (ix3 a b e) 0 : Nat) < (A : Int)
        rw [hs0]; have := a.isLt; omega
      | ⟨1, _⟩ =>
        show 0 ≤ (lastScatter A B N E wf).start (ix3 a b e) idx 1 + ((lastScatter A B N E wf).window (ix3 a b e) 1 : Nat) ∧
          (lastScatter A B N E wf).start (ix3 a b e) idx 1 + ((lastScatter A B N E wf).window (ix3 a b e) 1 : Nat) < (B : Int)
        rw [hs1]; have := b.isLt; omega
      | ⟨2, _⟩ =>
        show 0 ≤ (lastScatter A B N E wf).start (ix3 a b e) idx 2 + ((lastScatter A B N E wf).window (ix3 a b e) 2 : Nat) ∧
          (lastScatter A B N E wf).start (ix3 a b e) idx 2 + ((lastScatter A B N E wf).window (ix3 a b e) 2 : Nat) < (N : Int)
        rw [hs2, h1]; have := n.isLt; omega
    rw [dif_pos hcond]
    congr 1
    funext c
    apply Fin.ext
    match c with
    | ⟨0, _⟩ =>
      show ((lastScatter A B N E wf).start (ix3 a b e) idx 0 + ((lastScatter A B N E wf).window (ix3 a b e) 0 : Nat)).toNat = a.val
      rw [hs0]; simp
    | ⟨1, _⟩ =>
      show ((lastScatter A B N E wf).start (ix3 a b e) idx 1 + ((lastScatter A B N E wf).window (ix3 a b e) 1 : Nat)).toNat = b.val
      rw [hs1]; simp
    | ⟨2, _⟩ =>
      show ((lastScatter A B N E wf).start (ix3 a b e) idx 2 + ((lastScatter A B N E wf).window (ix3 a b e) 2 : Nat)).toNat = n.val
      rw [hs2, h1]; simp

/-- THE LAST-AXIS SCATTER READ AT `(a, b, n)`: the operand there plus the sum, over the entries whose scatter index read
    signed is `n`, of the update at `(a, b, e)`. -/
theorem scatter_last_apply (x : (⟨3, ![A, B, N]⟩ : Shape).Idx → EReal) (idx : IVec ⟨2, ![E, 1]⟩ w)
    (upd : (⟨3, ![A, B, E]⟩ : Shape).Idx → EReal) (a : Fin A) (b : Fin B) (n : Fin N) :
    Ideal.hostScatterAdd (lastScatter A B N E wf) x idx upd (ix3 a b n)
      = x (ix3 a b n) + ∑ e : Fin E, if (idx (ix2 e (0 : Fin 1))).toInt = (n.val : Int) then upd (ix3 a b e) else 0 := by
  unfold Ideal.hostScatterAdd
  congr 1
  rw [Finset.sum_filter]
  symm
  refine Finset.sum_of_injOn (fun e : Fin E => (ix3 a b e : (⟨3, ![A, B, E]⟩ : Shape).Idx)) ?_ ?_ ?_ ?_
  · intro e _ e' _ h
    exact congrFun h 2
  · intro e _; exact Finset.mem_coe.mpr (Finset.mem_univ _)
  · intro j _ hj
    rw [eq_ix3 j] at hj ⊢
    rw [if_neg]
    intro hP
    obtain ⟨_, ha, hb⟩ := (resultIdx_eq_some_iff wf (j 0) (j 1) (j 2) idx a b n).mp hP
    exact hj ⟨j 2, Finset.mem_coe.mpr (Finset.mem_univ _), by subst ha; subst hb; rfl⟩
  · intro e _
    by_cases hA : (idx (ix2 e (0 : Fin 1))).toInt = (n.val : Int)
    · rw [if_pos hA, if_pos ((resultIdx_eq_some_iff wf a b e idx a b n).mpr ⟨hA, rfl, rfl⟩)]
    · rw [if_neg hA, if_neg (fun h => hA ((resultIdx_eq_some_iff wf a b e idx a b n).mp h).1)]

end Cert.LibScatterLast
end
-- ==== Proof.LibGather.lean ====
import Idealize.ShloMosaic.PureOps.Ideal
import Idealize.ShloMosaic.Lib.ValueIdx
import Idealize.ShloMosaic.PureOps.Reduce
/-!
# Two gathers read at an index

`gather_last_apply`: the gather along the last axis of a rank-3 array: operand `[A, B, N]`, start indices `[E, 1]`, result
`[A, B, E]`; the operand's last axis is collapsed and addressed by the one component of the index vector, the two leading
axes are copied whole (slice sizes `A, B, 1`). Result element `(a, b, e)` is the operand at `(a, b, k)`, where `k` is the
start index `(e, 0)` read as a signed integer and clamped into `[0, N − 1]`.

`gather_flat_apply`: the gather of single elements of a flat array: operand `[N]`, start indices `[E, 1]`, result `[E]`.
Result element `e` is the operand at the start index `(e, 0)` read signed and clamped into `[0, N − 1]`.
-/
noncomputable section
open Idealize.ShloMosaic Idealize.ShloMosaic.ValueIdx

namespace Cert.LibGather

section Last
variable {α : Type}

/-- The dimension numbers of the last-axis gather; their conditions `wf` are decided on literal shapes. -/
abbrev lastGather (A B N E : Nat)
    (wf : GatherDims.WF ⟨3, ![A, B, N]⟩ ⟨2, ![E, 1]⟩ ⟨3, ![A, B, E]⟩ [0, 1] [2] [] [2] [] 1 ![A, B, 1]) :
    GatherDims ⟨3, ![A, B, N]⟩ ⟨2, ![E, 1]⟩ ⟨3, ![A, B, E]⟩ where
  offsetDims := [0, 1]
  collapsedSliceDims := [2]
  operandBatchingDims := []
  startIndicesBatchingDims := []
  startIndexMap := [2]
  indexVectorDim := 1
  sliceSizes := ![A, B, 1]
  wf := wf

variable {A B N E w : Nat}
  (wf : GatherDims.WF ⟨3, ![A, B, N]⟩ ⟨2, ![E, 1]⟩ ⟨3, ![A, B, E]⟩ [0, 1] [2] [] [2] [] 1 ![A, B, 1])

theorem sKept_eq : (lastGather A B N E wf).sKept = [0, 1] := by
  show Shape.kept (⟨3, ![A, B, N]⟩ : Shape) ([(2 : Fin 3)] ++ []) = [(0 : Fin 3), (1 : Fin 3)]
  rw [List.append_nil, Shape.kept_single]; rfl

/-- THE LAST-AXIS GATHER READ AT `(a, b, e)`. -/
theorem gather_last_apply (hN : 0 < N) (x : (⟨3, ![A, B, N]⟩ : Shape).Idx → α) (idx : IVec ⟨2, ![E, 1]⟩ w)
    (a : Fin A) (b : Fin B) (e : Fin E) :
    Host.gather (lastGather A B N E wf) x idx (ix3 a b e)
      = x (ix3 a b ⟨min (idx (ix2 e (0 : Fin 1))).toInt.toNat (N - 1), by omega⟩) := by
  unfold Host.gather
  congr 1
  funext c
  refine Fin.ext ?_
  show (lastGather A B N E wf).start (ix3 a b e) idx c + (lastGather A B N E wf).batchCoord (ix3 a b e) c
      + (lastGather A B N E wf).offCoord (ix3 a b e) c = _
  rw [GatherDims.batchCoord_eq_zero _ _ _ List.not_mem_nil, Nat.add_zero]
  match c with
  | ⟨0, _⟩ =>
    have h0 : (lastGather A B N E wf).start (ix3 a b e) idx 0 = 0 := by
      unfold GatherDims.start
      rw [dif_neg (fun h => by have := congrArg Fin.val (List.mem_singleton.mp h); simp at this)]
    have h1 : (lastGather A B N E wf).offCoord (ix3 a b e) 0 = a.val := by
      unfold GatherDims.offCoord
      rw [dif_pos (by rw [sKept_eq]; simp)]
      rfl
    show (lastGather A B N E wf).start (ix3 a b e) idx 0 + (lastGather A B N E wf).offCoord (ix3 a b e) 0 = a.val
    rw [h0, h1, Nat.zero_add]
  | ⟨1, _⟩ =>
    have h0 : (lastGather A B N E wf).start (ix3 a b e) idx 1 = 0 := by
      unfold GatherDims.start
      rw [dif_neg (fun h => by have := congrArg Fin.val (List.mem_singleton.mp h); simp at this)]
    have h1 : (lastGather A B N E wf).offCoord (ix3 a b e) 1 = b.val := by
      unfold GatherDims.offCoord
      rw [dif_pos (by rw [sKept_eq]; simp)]
      rfl
    show (lastGather A B N E wf).start (ix3 a b e) idx 1 + (lastGather A B N E wf).offCoord (ix3 a b e) 1 = b.val
    rw [h0, h1, Nat.zero_add]
  | ⟨2, _⟩ =>
    have h1 : (lastGather A B N E wf).offCoord (ix3 a b e) 2 = 0 :=
      GatherDims.offCoord_eq_zero _ _ _ (by rw [sKept_eq]; simp)
    show (lastGather A B N E wf).start (ix3 a b e) idx 2 + (lastGather A B N E wf).offCoord (ix3 a b e) 2
      = min (idx (ix2 e (0 : Fin 1))).toInt.toNat (N - 1)
    rw [h1, Nat.add_zero]
    unfold GatherDims.start
    rw [dif_pos (show (2 : Fin 3) ∈ (lastGather A B N E wf).startIndexMap from List.mem_singleton.mpr rfl)]
    have hsi : (lastGather A B N E wf).siIdx (ix3 a b e) ⟨List.idxOf (2 : Fin 3) (lastGather A B N E wf).startIndexMap,
        List.idxOf_lt_length_iff.2 (List.mem_singleton.mpr rfl)⟩ = ix2 e (0 : Fin 1) := by
      funext c'; refine Fin.ext ?_
      match c' with
      | ⟨0, _⟩ => rfl
      | ⟨1, _⟩ => rfl
    rw [hsi]
    rfl

end Last

section Flat
variable {α : Type}

/-- The dimension numbers of the single-element gather of a flat array. -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e)
      = x (ix1 ⟨min (idx (ix2 e (0 : Fin 1))).toInt.toNat (N - 1), by omega⟩) := by
  unfold Host.gather
  congr 1
  funext c
  obtain rfl : c = 0 := Subsingleton.elim _ _
  refine Fin.ext ?_
  show (flatGather N E wf).start (ix1 e) idx 0 + (flatGather N E wf).batchCoord (ix1 e) 0
      + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext c'; refine Fin.ext ?_
    match c' with
    | ⟨0, _⟩ => rfl
    | ⟨1, _⟩ => rfl
  rw [hsi]
  rfl

end Flat

end Cert.LibGather
end
-- ==== Proof.LibScatterPoint.lean ====
import Idealize.ShloMosaic.PureOps.Ideal
import Idealize.ShloMosaic.PureOps.Ideal.Laws
import Idealize.ShloMosaic.Lib.ValueIdx
import Idealize.ShloMosaic.PureOps.Reduce
/-!
# The accumulating scatter of single elements into a matrix, read at an index

The host's accumulating scatter of scalars into a rank-2 array: operand `[N, M]`, scatter indices `[E, 2]`, updates `[E]`;
no window axes, both operand axes inserted and addressed by the two components of the index vector. Update `e` lands at
`(p, q)`, the scatter indices `(e, 0)` and `(e, 1)` read as signed integers; it is dropped when either is out of range. So
the result at `(i, j)` is the operand there plus the sum of the updates over the entries whose index pair is `(i, j)`.
-/
noncomputable section
open scoped BigOperators
open Idealize.ShloMosaic Idealize.ShloMosaic.ValueIdx

namespace Cert.LibScatterPoint

/-- The dimension numbers of the point scatter; their conditions `wf` are decided on literal shapes. -/
abbrev pointScatter (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)

/-- On the row axis update `e` starts at the scatter index `(e, 0)` read signed. -/
theorem start0 (e : Fin E) (idx : IVec ⟨2, ![E, 2]⟩ w) :
    (pointScatter N M E wf).start (ix1 e) idx 0 = (idx (ix2 e (0 : Fin 2))).toInt := by
  unfold ScatterDims.start
  rw [dif_pos (show (0 : Fin 2) ∈ (pointScatter N M E wf).scatterDimsToOperandDims by simp)]
  congr 2
  funext c
  apply Fin.ext
  match c with
  | ⟨0, _⟩ => rfl
  | ⟨1, _⟩ => rfl

/-- On the column axis it starts at the scatter index `(e, 1)` read signed. -/
theorem start1 (e : Fin E) (idx : IVec ⟨2, ![E, 2]⟩ w) :
    (pointScatter N M E wf).start (ix1 e) idx 1 = (idx (ix2 e (1 : Fin 2))).toInt := by
  unfold ScatterDims.start
  rw [dif_pos (show (1 : Fin 2) ∈ (pointScatter N M E wf).scatterDimsToOperandDims by simp)]
  congr 2
  funext c
  apply Fin.ext
  match c with
  | ⟨0, _⟩ => rfl
  | ⟨1, _⟩ => rfl

/-- No operand axis is kept: both are inserted. -/
theorem sKept_eq : (pointScatter N M E wf).sKept = [] := by
  show Shape.kept (⟨2, ![N, M]⟩ : Shape) [(0 : Fin 2), (1 : Fin 2)] = []
  rfl

/-- So every window coordinate is `0`. -/
theorem window_eq (e : Fin E) (c : Fin 2) : (pointScatter N M E wf).window (ix1 e) c = 0 := by
  unfold ScatterDims.window
  rw [dif_neg (by rw [sKept_eq]; exact List.not_mem_nil)]

/-- Where an update lands: at the pair of its two scatter indices read signed; dropped when either is out of range. -/
theorem resultIdx_eq_some_iff (e : Fin E) (idx : IVec ⟨2, ![E, 2]⟩ w) (i : Fin N) (j : Fin M) :
    (pointScatter N M E wf).resultIdx? (ix1 e) idx = some (ix2 i j) ↔
      (idx (ix2 e (0 : Fin 2))).toInt = (i.val : Int) ∧ (idx (ix2 e (1 : Fin 2))).toInt = (j.val : Int) := by
  have hs0 : (pointScatter N M E wf).start (ix1 e) idx 0 + ((pointScatter N M E wf).window (ix1 e) 0 : Nat)
      = (idx (ix2 e (0 : Fin 2))).toInt := by rw [start0, window_eq]; simp
  have hs1 : (pointScatter N M E wf).start (ix1 e) idx 1 + ((pointScatter N M E wf).window (ix1 e) 1 : Nat)
      = (idx (ix2 e (1 : Fin 2))).toInt := by rw [start1, window_eq]; simp
  unfold ScatterDims.resultIdx?
  constructor
  · intro h
    split at h
    · next hb =>
      have h' := Option.some.inj h
      have e0 : ((pointScatter N M E wf).start (ix1 e) idx 0 + ((pointScatter N M E wf).window (ix1 e) 0 : Nat)).toNat = i.val :=
        congrArg Fin.val (congrFun h' 0)
      have e1 : ((pointScatter N M E wf).start (ix1 e) idx 1 + ((pointScatter N M E wf).window (ix1 e) 1 : Nat)).toNat = j.val :=
        congrArg Fin.val (congrFun h' 1)
      have b0 := (hb 0).1
      have b1 := (hb 1).1
      rw [hs0] at e0 b0
      rw [hs1] at e1 b1
      exact ⟨by omega, by omega⟩
    · exact absurd h (by simp)
  · rintro ⟨h0, h1⟩
    have hcond : ∀ c : Fin 2, 0 ≤ (pointScatter N M E wf).start (ix1 e) idx c + ((pointScatter N M E wf).window (ix1 e) c : Nat) ∧
        (pointScatter N M E wf).start (ix1 e) idx c + ((pointScatter N M E wf).window (ix1 e) c : Nat) < ((⟨2, ![N, M]⟩ : Shape).size c : Nat) := by
      intro c
      match c with
      | ⟨0, _⟩ =>
        show 0 ≤ (pointScatter N M E wf).start (ix1 e) idx 0 + ((pointScatter N M E wf).window (ix1 e) 0 : Nat) ∧
          (pointScatter N M E wf).start (ix1 e) idx 0 + ((pointScatter N M E wf).window (ix1 e) 0 : Nat) < (N : Int)
        rw [hs0, h0]; have := i.isLt; omega
      | ⟨1, _⟩ =>
        show 0 ≤ (pointScatter N M E wf).start (ix1 e) idx 1 + ((pointScatter N M E wf).window (ix1 e) 1 : Nat) ∧
          (pointScatter N M E wf).start (ix1 e) idx 1 + ((pointScatter N M E wf).window (ix1 e) 1 : Nat) < (M : Int)
        rw [hs1, h1]; have := j.isLt; omega
    rw [dif_pos hcond]
    congr 1
    funext c
    apply Fin.ext
    match c with
    | ⟨0, _⟩ =>
      show ((pointScatter N M E wf).start (ix1 e) idx 0 + ((pointScatter N M E wf).window (ix1 e) 0 : Nat)).toNat = i.val
      rw [hs0, h0]; simp
    | ⟨1, _⟩ =>
      show ((pointScatter N M E wf).start (ix1 e) idx 1 + ((pointScatter N M E wf).window (ix1 e) 1 : Nat)).toNat = j.val
      rw [hs1, h1]; simp

/-- THE POINT SCATTER READ AT `(i, j)`: the operand there plus the sum of the updates over the entries whose two scatter
    indices read signed are `i` and `j`. -/
theorem scatter_point_apply (x : (⟨2, ![N, M]⟩ : Shape).Idx → EReal) (idx : IVec ⟨2, ![E, 2]⟩ w)
    (upd : (⟨1, ![E]⟩ : Shape).Idx → EReal) (i : Fin N) (j : Fin M) :
    Ideal.hostScatterAdd (pointScatter N M E wf) x idx upd (ix2 i j)
      = x (ix2 i j) + ∑ e : Fin E,
          if (idx (ix2 e (0 : Fin 2))).toInt = (i.val : Int) ∧ (idx (ix2 e (1 : Fin 2))).toInt = (j.val : Int)
          then upd (ix1 e) else 0 := by
  unfold Ideal.hostScatterAdd
  congr 1
  rw [Finset.sum_filter]
  symm
  refine Finset.sum_of_injOn (fun e : Fin E => (ix1 e : (⟨1, ![E]⟩ : Shape).Idx)) ?_ ?_ ?_ ?_
  · intro e _ e' _ h
    exact congrFun h 0
  · intro e _; exact Finset.mem_coe.mpr (Finset.mem_univ _)
  · intro y _ hy
    exact absurd ⟨y 0, Finset.mem_coe.mpr (Finset.mem_univ _), (eq_ix1 y).symm⟩ hy
  · intro e _
    by_cases hA : (idx (ix2 e (0 : Fin 2))).toInt = (i.val : Int) ∧ (idx (ix2 e (1 : Fin 2))).toInt = (j.val : Int)
    · rw [if_pos hA, if_pos ((resultIdx_eq_some_iff wf e idx i j).mpr hA)]
    · rw [if_neg hA, if_neg (fun h => hA ((resultIdx_eq_some_iff wf e idx i j).mp h))]

end Cert.LibScatterPoint
end
-- ==== Proof.LibLayout.lean ====
import Idealize.ShloMosaic.PureOps.Ideal
import Idealize.ShloMosaic.PureOps.Ideal.Laws
import Idealize.ShloMosaic.PureOps.Contract
import Idealize.ShloMosaic.Lib.ValueIdx
import Idealize.ShloMosaic.Lib.IdealHost
import Idealize.ShloMosaic.Lib.KernelVsHost
/-!
# Layout operations of the host read at an index

A column `[R, 1]` broadcast along the rows' entries, a vector made a column, a range of columns cut out of a matrix, and the
host's sum down the rows (axis 0) of a matrix and of a stack of one-row matrices — each read at explicit coordinates.
(A one-row matrix broadcast down the rows and a scalar broadcast are in the library: `broadcastInDim_oneRow_apply`,
`broadcastInDim_scalar_apply`.)
-/
noncomputable section
open scoped BigOperators
open Idealize.ShloMosaic Idealize.ShloMosaic.ValueIdx

namespace Cert.LibLayout

section Broadcasts
variable {α : Type}

/-- A column `[R, 1]` broadcast to `[R, M]` reads, at `(p, q)`, the column's entry `p`. -/
theorem broadcastInDim_col_apply {R M : Nat} (h : (⟨2, ![R, 1]⟩ : Shape).BroadcastsInDim ⟨2, ![R, M]⟩ ![0, 1])
    (y : (⟨2, ![R, 1]⟩ : Shape).Idx → α) (p : Fin R) (q : Fin M) :
    broadcastInDim ⟨2, ![R, M]⟩ ![0, 1] h y (ix2 p q) = y (ix2 p (0 : Fin 1)) := by
  refine broadcastInDim_apply ![0, 1] h y (ix2 p q) (ix2 p (0 : Fin 1)) ?_
  intro a
  match a with
  | ⟨0, _⟩ =>
    show p.val = if R = 1 then 0 else p.val
    split_ifs with hR
    · have := p.isLt; omega
    · rfl
  | ⟨1, _⟩ =>
    show (0 : ℕ) = if (1 : ℕ) = 1 then 0 else q.val
    simp

/-- A vector of `E` entries made a column `[E, 1]` reads, at `(r, 0)`, its entry `r`. -/
theorem broadcastInDim_toCol_apply {E : Nat} (h : (⟨1, ![E]⟩ : Shape).BroadcastsInDim ⟨2, ![E, 1]⟩ ![0])
    (v : (⟨1, ![E]⟩ : Shape).Idx → α) (r : Fin E) :
    broadcastInDim ⟨2, ![E, 1]⟩ ![0] h v (ix2 r (0 : Fin 1)) = v (ix1 r) := by
  refine broadcastInDim_apply ![0] h v (ix2 r (0 : Fin 1)) (ix1 r) ?_
  intro a
  match a with
  | ⟨0, _⟩ =>
    show r.val = if E = 1 then 0 else r.val
    split_ifs with hE
    · have := r.isLt; omega
    · rfl

end Broadcasts

section Slice
variable {α : Type}

/-- The columns `c0 … c0 + M − 1` of a matrix `[R, M']`, read at `(p, q)`: the matrix at `(p, c0 + q)`. -/
theorem slice_cols_apply {R M M' : Nat} (c0 : Nat) (hs : (⟨2, ![R, M']⟩ : Shape).Slices ![0, c0] ⟨2, ![R, M]⟩)
    (x : (⟨2, ![R, M']⟩ : Shape).Idx → α) (p : Fin R) (q : Fin M) (hq : c0 + q.val < M') :
    extractStridedSlice ⟨2, ![R, M]⟩ ![0, c0] x hs (ix2 p q) = x (ix2 p (⟨c0 + q.val, hq⟩ : Fin M')) := by
  refine extractStridedSlice_apply ![0, c0] x hs (ix2 p q) (ix2 p (⟨c0 + q.val, hq⟩ : Fin M')) ?_
  intro a
  match a with
  | ⟨0, _⟩ => show p.val = 0 + p.val; omega
  | ⟨1, _⟩ => rfl

end Slice

section Reduce
variable {φ : FTy}

/-- The source index over `(q)` with row `k`, for the sum down the rows of a matrix. -/
theorem lift_rows {R M : Nat} (h : (⟨2, ![R, M]⟩ : Shape).Reduces [0] ⟨1, ![M]⟩) (q : Fin M) (k : Fin R) :
    h.lift (ix1 q) k = ix2 k q := by
  funext c
  apply Fin.ext
  show Shape.Reduces.liftVal h (ix1 q) k.val c = (ix2 k q c).val
  unfold Shape.Reduces.liftVal
  match c with
  | ⟨0, _⟩ => rfl
  | ⟨1, _⟩ => rfl

/-- THE HOST'S SUM DOWN THE ROWS of a matrix `[R, M]`, read at column `q`: the initial value plus the sum over the rows. -/
theorem reduceAdd_rows_apply {R M : Nat} {u : Shape} (rt : (⟨2, ![R, M]⟩ : Shape).ReducesTo [0] ⟨1, ![M]⟩)
    (hu : 0 < u.numel) (x : FVec Ideal ⟨2, ![R, M]⟩ φ) (init : u.Idx → Ideal φ) (q : Fin M) :
    Host.reduceAdd (F := Ideal) x init rt hu (ix1 q) = init (Shape.Idx.first hu) + ∑ r : Fin R, x (ix2 r q) := by
  have h : (⟨2, ![R, M]⟩ : Shape).Reduces [0] ⟨1, ![M]⟩ := ⟨rt.1, Nat.one_pos, rt.2⟩
  rw [hostReduceAdd_apply, Ideal.hostReduceAdd_single rt h]
  congr 1
  show ∑ k : Fin R, x (h.lift (ix1 q) k) = _
  exact Finset.sum_congr rfl fun k _ => by rw [lift_rows]

/-- The source index over `(0, q)` with part `k`, for the sum over a stack of one-row matrices. -/
theorem lift_parts {P M : Nat} (h : (⟨3, ![P, 1, M]⟩ : Shape).Reduces [0] ⟨2, ![1, M]⟩) (q : Fin M) (k : Fin P) :
    h.lift (ix2 (0 : Fin 1) q) k = ix3 k (0 : Fin 1) q := by
  funext c
  apply Fin.ext
  show Shape.Reduces.liftVal h (ix2 (0 : Fin 1) q) k.val c = (ix3 k (0 : Fin 1) q c).val
  unfold Shape.Reduces.liftVal
  match c with
  | ⟨0, _⟩ => rfl
  | ⟨1, _⟩ => rfl
  | ⟨2, _⟩ => rfl

/-- THE HOST'S SUM OVER A STACK `[P, 1, M]` of one-row matrices (axis 0), read at `(0, q)`: the initial value plus the
    sum over the parts. -/
theorem reduceAdd_parts_apply {P M : Nat} {u : Shape} (rt : (⟨3, ![P, 1, M]⟩ : Shape).ReducesTo [0] ⟨2, ![1, M]⟩)
    (hu : 0 < u.numel) (x : FVec Ideal ⟨3, ![P, 1, M]⟩ φ) (init : u.Idx → Ideal φ) (q : Fin M) :
    Host.reduceAdd (F := Ideal) x init rt hu (ix2 (0 : Fin 1) q)
      = init (Shape.Idx.first hu) + ∑ p : Fin P, x (ix3 p (0 : Fin 1) q) := by
  have h : (⟨3, ![P, 1, M]⟩ : Shape).Reduces [0] ⟨2, ![1, M]⟩ := ⟨rt.1, Nat.succ_pos 1, rt.2⟩
  rw [hostReduceAdd_apply, Ideal.hostReduceAdd_single rt h]
  congr 1
  show ∑ k : Fin P, x (h.lift (ix2 (0 : Fin 1) q) k) = _
  exact Finset.sum_congr rfl fun k _ => by rw [lift_parts]

/-- With a scalar initial value (a rank-0 array) the initial value is its one entry. -/
theorem first_scalar (hu : 0 < (⟨0, ![]⟩ : Shape).numel) : Shape.Idx.first hu = ix0 := eq_ix0 _

/-- The sum down the rows from a scalar initial value. -/
theorem reduceAdd_rows_scalar_apply {R M : Nat} (rt : (⟨2, ![R, M]⟩ : Shape).ReducesTo [0] ⟨1, ![M]⟩)
    (hu : 0 < (⟨0, ![]⟩ : Shape).numel) (x : FVec Ideal ⟨2, ![R, M]⟩ φ) (init : (⟨0, ![]⟩ : Shape).Idx → Ideal φ) (q : Fin M) :
    Host.reduceAdd (F := Ideal) x init rt hu (ix1 q) = init ix0 + ∑ r : Fin R, x (ix2 r q) := by
  rw [reduceAdd_rows_apply, first_scalar]

/-- The sum over a stack of one-row matrices from a scalar initial value. -/
theorem reduceAdd_parts_scalar_apply {P M : Nat} (rt : (⟨3, ![P, 1, M]⟩ : Shape).ReducesTo [0] ⟨2, ![1, M]⟩)
    (hu : 0 < (⟨0, ![]⟩ : Shape).numel) (x : FVec Ideal ⟨3, ![P, 1, M]⟩ φ) (init : (⟨0, ![]⟩ : Shape).Idx → Ideal φ) (q : Fin M) :
    Host.reduceAdd (F := Ideal) x init rt hu (ix2 (0 : Fin 1) q) = init ix0 + ∑ p : Fin P, x (ix3 p (0 : Fin 1) q) := by
  rw [reduceAdd_parts_apply, first_scalar]

end Reduce

end Cert.LibLayout
end
-- ==== Proof.Stage.lean ====
import Idealize.ShloMosaic.PureOps.Ideal
import Idealize.ShloMosaic.PureOps.Contract
import Idealize.ShloMosaic.Lib.ValueIdx
import Idealize.ShloMosaic.Lib.IdealHost
import proofs.«168499_j23390391894546_2_alg».proof.Proof.LibScatterLast
import proofs.«168499_j23390391894546_2_alg».proof.Proof.LibGather
import proofs.«168499_j23390391894546_2_alg».proof.Proof.LibScatterPoint
import proofs.«168499_j23390391894546_2_alg».proof.Proof.LibLayout
/-!
# One gather–scale–scatter stage, and one index column, read at an index

An index column is a literal table made a column `[E, 1]`, after the wrap-around of negative entries — a `select` on a mask
that is constantly false, so the column is the table itself.

A stage gathers `E` columns of the array `x : [8, 4096, 1024]` along its last axis, multiplies them by one scalar weight, and
scatter-adds the result into the last axis of an accumulator. At `(a, b, n)` it adds to the accumulator the sum, over the
entries whose target index is `n`, of the weight times `x` at `(a, b, source)`, the source clamped into `[0, 1023]`.
-/
noncomputable section
open scoped BigOperators
open Idealize.ShloMosaic Idealize.ShloMosaic.ValueIdx

namespace Cert.Stage

open Cert.LibScatterLast Cert.LibGather Cert.LibLayout

/-- An index column read at `(e, 0)`: the table's entry `e` (the wrap-around mask is constantly false). -/
theorem col_apply {E : Nat} (bcCol : (⟨1, ![E]⟩ : Shape).BroadcastsInDim ⟨2, ![E, 1]⟩ ![0])
    (wrapped tbl : IVec ⟨1, ![E]⟩ 32) (e : Fin E) :
    broadcastInDim ⟨2, ![E, 1]⟩ ![0] bcCol (select (constantI ⟨1, ![E]⟩ 1 0#1) wrapped tbl) (ix2 e (0 : Fin 1))
      = tbl (ix1 e) := by
  rw [broadcastInDim_toCol_apply, select_apply]
  exact select_zero _ _

/-- ONE STAGE READ AT `(a, b, n)`. -/
theorem stage_apply {E : Nat}
    (wfS : ScatterDims.WF ⟨3, ![8, 4096, 1024]⟩ ⟨2, ![E, 1]⟩ ⟨3, ![8, 4096, E]⟩ [0, 1] [2] [2] 1)
    (wfG : GatherDims.WF ⟨3, ![8, 4096, 1024]⟩ ⟨2, ![E, 1]⟩ ⟨3, ![8, 4096, E]⟩ [0, 1] [2] [] [2] [] 1 ![8, 4096, 1])
    (bcBig : (⟨0, ![]⟩ : Shape).BroadcastsInDim ⟨3, ![8, 4096, E]⟩ ![])
    (acc x : FVec Ideal ⟨3, ![8, 4096, 1024]⟩ .f32) (idxT idxS : IVec ⟨2, ![E, 1]⟩ 32)
    (wt : FVec Ideal ⟨0, ![]⟩ .f32) (a : Fin 8) (b : Fin 4096) (n : Fin 1024) :
    Host.scatterAdd (F := Ideal) (lastScatter 8 4096 1024 E wfS) acc idxT
        (mulf (broadcastInDim ⟨3, ![8, 4096, E]⟩ ![] bcBig wt) (Host.gather (lastGather 8 4096 1024 E wfG) x idxS))
        (ix3 a b n)
      = acc (ix3 a b n) + ∑ e : Fin E, if (idxT (ix2 e (0 : Fin 1))).toInt = (n.val : Int)
          then wt ix0 * x (ix3 a b ⟨min (idxS (ix2 e (0 : Fin 1))).toInt.toNat (1024 - 1), by omega⟩) else 0 := by
  show Ideal.hostScatterAdd (lastScatter 8 4096 1024 E wfS) acc idxT _ (ix3 a b n) = _
  rw [scatter_last_apply]
  congr 1
  refine Finset.sum_congr rfl fun e _ => ?_
  rw [mulf_apply, broadcastInDim_scalar_apply, gather_last_apply wfG (by norm_num : 0 < 1024)]

end Cert.Stage
end
-- ==== Proof.TableFormulas.lean ====
import Mathlib.Tactic
/-!
# The octave tables as closed formulas

The correction terms are listed as 3954 entries in six consecutive stretches, one pair per octave `o = 1, 2, 3` (stride
`s = 2^o`): an "up" stretch of `1024 / s` entries `i ↦ (source i, target i·s)` and a "down" stretch of `1024 − s` entries
`i ↦ (source i + s, target (i + s) / s)`. The stretches start at 0, 512, 1534, 1790, 2810, 2938 and the list ends at 3954.
Entry `e` carries weight slot `0, 3, 1, 4, 2, 5` in the six stretches (slots `0–2`: the up weights, `3–5`: the down weights).
-/

namespace Cert.Tables

/-- The weight slot of entry `e`. -/
def slotF (e : Nat) : Nat :=
  if e < 512 then 0 else if e < 1534 then 3 else if e < 1790 then 1 else if e < 2810 then 4 else if e < 2938 then 2 else 5

/-- The source column of entry `e`. -/
def srcF (e : Nat) : Nat :=
  if e < 512 then e else if e < 1534 then (e - 512) + 2 else if e < 1790 then e - 1534
  else if e < 2810 then (e - 1790) + 4 else if e < 2938 then e - 2810 else (e - 2938) + 8

/-- The target column of entry `e`. -/
def tgtF (e : Nat) : Nat :=
  if e < 512 then 2 * e else if e < 1534 then ((e - 512) + 2) / 2 else if e < 1790 then 4 * (e - 1534)
  else if e < 2810 then ((e - 1790) + 4) / 4 else if e < 2938 then 8 * (e - 2810) else ((e - 2938) + 8) / 8

theorem slotF_lt (e : Nat) : slotF e < 6 := by unfold slotF; split_ifs <;> omega
theorem srcF_lt {e : Nat} (h : e < 3954) : srcF e < 1024 := by unfold srcF; split_ifs <;> omega
theorem tgtF_lt {e : Nat} (h : e < 3954) : tgtF e < 1024 := by unfold tgtF; split_ifs <;> omega

theorem slotF_0 {e : Nat} (h : e < 512) : slotF e = 0 := by unfold slotF; split_ifs <;> omega
theorem slotF_1 {e : Nat} (h : e < 1022) : slotF (512 + e) = 3 := by unfold slotF; split_ifs <;> omega
theorem slotF_2 {e : Nat} (h : e < 256) : slotF (1534 + e) = 1 := by unfold slotF; split_ifs <;> omega
theorem slotF_3 {e : Nat} (h : e < 1020) : slotF (1790 + e) = 4 := by unfold slotF; split_ifs <;> omega
theorem slotF_4 {e : Nat} (h : e < 128) : slotF (2810 + e) = 2 := by unfold slotF; split_ifs <;> omega
theorem slotF_5 {e : Nat} (h : e < 1016) : slotF (2938 + e) = 5 := by unfold slotF; split_ifs <;> omega

/-- A 32-bit word holding a number below 1024, read signed, is that number. -/
theorem toInt_ofNat_small {v : Nat} (h : v < 1024) : (BitVec.ofNat 32 v).toInt = (v : Int) := by
  have hn : (BitVec.ofNat 32 v).toNat = v := by
    rw [BitVec.toNat_ofNat]; exact Nat.mod_eq_of_lt (by omega)
  rw [BitVec.toInt_eq_toNat_cond, hn, if_pos (by omega)]

/-- Read unsigned it is that number too, so clamping it into `[0, N − 1]` changes nothing when it is below `N`. -/
theorem toNat_toInt_ofNat_small {v : Nat} (h : v < 1024) : (BitVec.ofNat 32 v).toInt.toNat = v := by
  rw [toInt_ofNat_small h]; simp

end Cert.Tables
-- ==== Proof.TablesKernel.lean ====
import proofs.«168499_j23390391894546_2_alg».proof.KernelIdeal
import proofs.«168499_j23390391894546_2_alg».proof.Proof.TableFormulas
/-!
# The kernel's three literal tables are the closed formulas

The host side of the kernel carries the 3954 correction entries as three literal tables: the weight slot, the source column
and the target column of each entry. Entry by entry they are the closed formulas `slotF`, `srcF`, `tgtF`; each equation is
checked by evaluating both sides at every one of the 3954 entries.
-/

namespace Cert.Tables

open Cert.KernelIdeal

set_option maxRecDepth 100000 in
theorem k_slot_t : ∀ e : Fin 3954, lit0t e.val = BitVec.ofNat 32 (slotF e.val) := by decide +kernel
set_option maxRecDepth 100000 in
theorem k_src_t : ∀ e : Fin 3954, lit1t e.val = BitVec.ofNat 32 (srcF e.val) := by decide +kernel
set_option maxRecDepth 100000 in
theorem k_tgt_t : ∀ e : Fin 3954, lit2t e.val = BitVec.ofNat 32 (tgtF e.val) := by decide +kernel

/-- The weight-slot table. -/
theorem k_slot (e : Fin 3954) : lit0 e = BitVec.ofNat 32 (slotF e.val) := k_slot_t e
/-- The source-column table. -/
theorem k_src (e : Fin 3954) : lit1 e = BitVec.ofNat 32 (srcF e.val) := k_src_t e
/-- The target-column table. -/
theorem k_tgt (e : Fin 3954) : lit2 e = BitVec.ofNat 32 (tgtF e.val) := k_tgt_t e

end Cert.Tables
-- ==== Proof.Harmonic.lean ====
import Mathlib.Tactic
import proofs.«168499_j23390391894546_2_alg».proof.Proof.TableFormulas
/-!
# The matrix form of the octave mixing equals its gather–scatter form

For one row `X` (its 1024 columns) and six weights `W 0 … W 5`, the matrix form adds to `X n` the product of the row with
column `n` of the correction matrix `U`, where `U k n` is the sum of the weights of the list entries with source `k` and
target `n`:

  `X n + ∑ k < 1024, X k · (0 + ∑ e < 3954, [srcF e = k ∧ tgtF e = n] W (slotF e))`.

The gather–scatter form adds to `X n`, stretch after stretch, the sum over the stretch's entries with target `n` of the
stretch's weight times the row at the entry's source. Over a commutative ring the two agree: distributing the row's entry
into the inner sum, exchanging the two sums, and collapsing the sum over `k` at `k = srcF e` (a source is a column) turns the
first into one sum over the 3954 entries, which is then cut into its six stretches, on each of which the weight slot is constant.
-/
open scoped BigOperators
open Finset

namespace Cert.Harmonic

open Cert.Tables

/-- One stretch's contribution to column `n`: entries `off ≤ · < off + E`, weight `wt`. -/
def stretch (X : ℕ → ℝ) (n off E : ℕ) (wt : ℝ) : ℝ :=
  ∑ e ∈ range E, if tgtF (off + e) = n then wt * X (srcF (off + e)) else 0

/-- The matrix form at column `n`. -/
def matForm (X W : ℕ → ℝ) (n : ℕ) : ℝ :=
  X n + ∑ k ∈ range 1024, X k * (0 + ∑ e ∈ range 3954, if srcF e = k ∧ tgtF e = n then W (slotF e) else 0)

/-- The gather–scatter form at column `n`, the six stretches added in order. -/
def scatForm (X W : ℕ → ℝ) (n : ℕ) : ℝ :=
  X n + stretch X n 0 512 (W 0) + stretch X n 512 1022 (W 3) + stretch X n 1534 256 (W 1)
    + stretch X n 1790 1020 (W 4) + stretch X n 2810 128 (W 2) + stretch X n 2938 1016 (W 5)

/-- The product of the row with a column of the correction matrix is one sum over the list's entries. -/
theorem row_times_column (X W : ℕ → ℝ) (n : ℕ) :
    ∑ k ∈ range 1024, X k * (0 + ∑ e ∈ range 3954, if srcF e = k ∧ tgtF e = n then W (slotF e) else 0)
      = ∑ e ∈ range 3954, if tgtF e = n then W (slotF e) * X (srcF e) else 0 := by
  simp only [zero_add, Finset.mul_sum]
  rw [Finset.sum_comm]
  refine Finset.sum_congr rfl fun e he => ?_
  have hs : srcF e ∈ range 1024 := Finset.mem_range.mpr (srcF_lt (Finset.mem_range.mp he))
  by_cases hn : tgtF e = n
  · simp only [hn, and_true, if_true, mul_ite, mul_zero]
    rw [Finset.sum_ite_eq (range 1024) (srcF e) (fun k => X k * W (slotF e)), if_pos hs, mul_comm]
  · simp [hn]

/-- The sum over the 3954 entries cut into the six stretches. -/
theorem cut_six (f : ℕ → ℝ) :
    ∑ e ∈ range 3954, f e
      = ∑ e ∈ range 512, f (0 + e) + ∑ e ∈ range 1022, f (512 + e) + ∑ e ∈ range 256, f (1534 + e)
        + ∑ e ∈ range 1020, f (1790 + e) + ∑ e ∈ range 128, f (2810 + e) + ∑ e ∈ range 1016, f (2938 + e) := by
  have e1 : ∑ e ∈ range 3954, f e = ∑ e ∈ range 2938, f e + ∑ e ∈ range 1016, f (2938 + e) :=
    Finset.sum_range_add f 2938 1016
  have e2 : ∑ e ∈ range 2938, f e = ∑ e ∈ range 2810, f e + ∑ e ∈ range 128, f (2810 + e) :=
    Finset.sum_range_add f 2810 128
  have e3 : ∑ e ∈ range 2810, f e = ∑ e ∈ range 1790, f e + ∑ e ∈ range 1020, f (1790 + e) :=
    Finset.sum_range_add f 1790 1020
  have e4 : ∑ e ∈ range 1790, f e = ∑ e ∈ range 1534, f e + ∑ e ∈ range 256, f (1534 + e) :=
    Finset.sum_range_add f 1534 256
  have e5 : ∑ e ∈ range 1534, f e = ∑ e ∈ range 512, f e + ∑ e ∈ range 1022, f (512 + e) :=
    Finset.sum_range_add f 512 1022
  rw [e1, e2, e3, e4, e5]
  simp only [Nat.zero_add]

/-- THE TWO FORMS AGREE. -/
theorem matForm_eq_scatForm (X W : ℕ → ℝ) (n : ℕ) : matForm X W n = scatForm X W n := by
  unfold matForm scatForm stretch
  rw [row_times_column, cut_six]
  beta_reduce
  have c0 : ∀ e ∈ range 512, (if tgtF (0 + e) = n then W (slotF (0 + e)) * X (srcF (0 + e)) else 0)
      = if tgtF (0 + e) = n then W 0 * X (srcF (0 + e)) else 0 := fun e he => by
    rw [Nat.zero_add, slotF_0 (Finset.mem_range.mp he)]
  have c1 : ∀ e ∈ range 1022, (if tgtF (512 + e) = n then W (slotF (512 + e)) * X (srcF (512 + e)) else 0)
      = if tgtF (512 + e) = n then W 3 * X (srcF (512 + e)) else 0 := fun e he => by
    rw [slotF_1 (Finset.mem_range.mp he)]
  have c2 : ∀ e ∈ range 256, (if tgtF (1534 + e) = n then W (slotF (1534 + e)) * X (srcF (1534 + e)) else 0)
      = if tgtF (1534 + e) = n then W 1 * X (srcF (1534 + e)) else 0 := fun e he => by
    rw [slotF_2 (Finset.mem_range.mp he)]
  have c3 : ∀ e ∈ range 1020, (if tgtF (1790 + e) = n then W (slotF (1790 + e)) * X (srcF (1790 + e)) else 0)
      = if tgtF (1790 + e) = n then W 4 * X (srcF (1790 + e)) else 0 := fun e he => by
    rw [slotF_3 (Finset.mem_range.mp he)]
  have c4 : ∀ e ∈ range 128, (if tgtF (2810 + e) = n then W (slotF (2810 + e)) * X (srcF (2810 + e)) else 0)
      = if tgtF (2810 + e) = n then W 2 * X (srcF (2810 + e)) else 0 := fun e he => by
    rw [slotF_4 (Finset.mem_range.mp he)]
  have c5 : ∀ e ∈ range 1016, (if tgtF (2938 + e) = n then W (slotF (2938 + e)) * X (srcF (2938 + e)) else 0)
      = if tgtF (2938 + e) = n then W 5 * X (srcF (2938 + e)) else 0 := fun e he => by
    rw [slotF_5 (Finset.mem_range.mp he)]
  rw [Finset.sum_congr rfl c0, Finset.sum_congr rfl c1, Finset.sum_congr rfl c2, Finset.sum_congr rfl c3,
    Finset.sum_congr rfl c4, Finset.sum_congr rfl c5]
  simp only [add_assoc]

end Cert.Harmonic
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.HarmonicE.lean ====
import proofs.«168499_j23390391894546_2_alg».proof.Proof.Harmonic
import proofs.«168499_j23390391894546_2_alg».proof.Proof.LibReal
/-!
# The two forms over the extended reals

The same two forms with the row and the weights extended reals. Addition and multiplication of extended reals are
commutative and associative, but multiplication does not distribute over addition at the infinities, and the step that
distributes a row entry into the inner sum needs it. When every row entry and every weight is a real number both forms are
the coercions of their real-number counterparts, and so agree.
-/
noncomputable section
open scoped BigOperators
open Finset

namespace Cert.Harmonic

open Cert.Tables Cert.LibReal

/-- One stretch's contribution to column `n`, over the extended reals. -/
def stretchE (X : ℕ → EReal) (n off E : ℕ) (wt : EReal) : EReal :=
  ∑ e ∈ range E, if tgtF (off + e) = n then wt * X (srcF (off + e)) else 0

/-- The matrix form at column `n`, over the extended reals. -/
def matFormE (X W : ℕ → EReal) (n : ℕ) : EReal :=
  X n + ∑ k ∈ range 1024, X k * (0 + ∑ e ∈ range 3954, if srcF e = k ∧ tgtF e = n then W (slotF e) else 0)

/-- The gather–scatter form at column `n`, over the extended reals, the six stretches added in order. -/
def scatFormE (X W : ℕ → EReal) (n : ℕ) : EReal :=
  X n + stretchE X n 0 512 (W 0) + stretchE X n 512 1022 (W 3) + stretchE X n 1534 256 (W 1)
    + stretchE X n 1790 1020 (W 4) + stretchE X n 2810 128 (W 2) + stretchE X n 2938 1016 (W 5)

theorem coe_ite (c : Prop) [Decidable c] (a b : ℝ) : ((if c then a else b : ℝ) : EReal) = if c then (a : EReal) else (b : EReal) := by
  split_ifs <;> rfl

/-- With real entries and real weights the two forms agree. -/
theorem matFormE_eq_scatFormE (X W : ℕ → EReal) (hX : ∀ k, IsReal (X k)) (hW : ∀ s, IsReal (W s)) (n : ℕ) :
    matFormE X W n = scatFormE X W n := by
  choose xr hx using hX
  choose wr hw using hW
  obtain rfl : X = fun k => (xr k : EReal) := funext hx
  obtain rfl : W = fun s => (wr s : EReal) := funext hw
  have hm : matFormE (fun k => (xr k : EReal)) (fun s => (wr s : EReal)) n = ((matForm xr wr n : ℝ) : EReal) := by
    unfold matFormE matForm
    simp only [EReal.coe_add, EReal.coe_mul, coe_sum, coe_ite, EReal.coe_zero]
  have hs : scatFormE (fun k => (xr k : EReal)) (fun s => (wr s : EReal)) n = ((scatForm xr wr n : ℝ) : EReal) := by
    unfold scatFormE scatForm stretchE stretch
    simp only [EReal.coe_add, EReal.coe_mul, coe_sum, coe_ite, EReal.coe_zero]
  rw [hm, hs, matForm_eq_scatForm]

end Cert.Harmonic
end
-- ==== Proof.Weights.lean ====
import Idealize.ShloMosaic.PureOps.Ideal
import Idealize.ShloMosaic.Lib.ValueIdx
import proofs.«168499_j23390391894546_2_alg».proof.Proof.LibReal
/-!
# The six weights by slot, and a row of the input by column number

`W6 u d s`: the logistic function of the up weight `s` for slots `s = 0, 1, 2` and of the down weight `s − 3` for slots
`3, 4, 5`. `rowE x a b k`: the input at `(a, b, k)`, the column number clamped into `[0, 1023]`. Both are total functions of
a natural number, so that sums over lists of entries can be written over ranges of naturals.
-/
noncomputable section
open Idealize.ShloMosaic Idealize.ShloMosaic.ValueIdx

namespace Cert.Weights

open Cert.LibReal

/-- The six weights by slot. -/
def W6 (u d : (⟨1, ![3]⟩ : Shape).Idx → EReal) (s : ℕ) : EReal :=
  if s < 3 then Ideal.logistic (u (ix1 ⟨min s 2, by omega⟩)) else Ideal.logistic (d (ix1 ⟨min (s - 3) 2, by omega⟩))

/-- A row of the input by column number. -/
def rowE (x : (⟨3, ![8, 4096, 1024]⟩ : Shape).Idx → EReal) (a : Fin 8) (b : Fin 4096) (k : ℕ) : EReal :=
  x (ix3 a b ⟨min k (1024 - 1), by omega⟩)

theorem rowE_val (x : (⟨3, ![8, 4096, 1024]⟩ : Shape).Idx → EReal) (a : Fin 8) (b : Fin 4096) (k : Fin 1024) :
    rowE x a b k.val = x (ix3 a b k) := by
  unfold rowE
  refine congrArg (fun j => x (ix3 a b j)) (Fin.ext ?_)
  show min k.val (1024 - 1) = k.val
  have := k.isLt; omega

/-- The printed weight chain `1 / (1 + exp (−w))` on a number is the logistic function. -/
theorem chain_eq_logistic (w : EReal) :
    Ideal.div (Ideal.ofBits .f32 0x3F800000#32) (Ideal.ofBits .f32 0x3F800000#32 + Ideal.exp (-w)) = Ideal.logistic w := by
  rw [ofBits_one]; rfl

theorem W6_0 (u d) : W6 u d 0 = Ideal.logistic (u (ix1 (0 : Fin 3))) := rfl
theorem W6_1 (u d) : W6 u d 1 = Ideal.logistic (u (ix1 (1 : Fin 3))) := rfl
theorem W6_2 (u d) : W6 u d 2 = Ideal.logistic (u (ix1 (2 : Fin 3))) := rfl
theorem W6_3 (u d) : W6 u d 3 = Ideal.logistic (d (ix1 (0 : Fin 3))) := rfl
theorem W6_4 (u d) : W6 u d 4 = Ideal.logistic (d (ix1 (1 : Fin 3))) := rfl
theorem W6_5 (u d) : W6 u d 5 = Ideal.logistic (d (ix1 (2 : Fin 3))) := rfl

/-- Real weights give real logistic weights; real inputs give real rows. -/
theorem W6_isReal (u d : (⟨1, ![3]⟩ : Shape).Idx → EReal) (hu : ∀ i, IsReal (u i)) (hd : ∀ i, IsReal (d i)) (s : ℕ) :
    IsReal (W6 u d s) := by
  unfold W6; split_ifs
  · exact (hu _).logistic
  · exact (hd _).logistic

theorem rowE_isReal (x : (⟨3, ![8, 4096, 1024]⟩ : Shape).Idx → EReal) (hx : ∀ i, IsReal (x i)) (a : Fin 8) (b : Fin 4096)
    (k : ℕ) : IsReal (rowE x a b k) := hx _

end Cert.Weights
end
-- ==== Proof.KerRead.lean ====
import proofs.«168499_j23390391894546_2_alg».proof.Proof.KerHost
import proofs.«168499_j23390391894546_2_alg».proof.Proof.Stage
import proofs.«168499_j23390391894546_2_alg».proof.Proof.TablesKernel
import proofs.«168499_j23390391894546_2_alg».proof.Proof.HarmonicE
import proofs.«168499_j23390391894546_2_alg».proof.Proof.Weights
import Idealize.ShloMosaic.Lib.Pipeline.Value
/-!
# The correction matrix read at an index

Entry `(k, n)` of the matrix the host builds is zero plus the sum, over the 3954 list entries with source `k` and target
`n`, of the entry's weight: the logistic function of the up weight `slot` (slots 0–2) or of the down weight `slot − 3`
(slots 3–5). The three literal tables are replaced by their closed formulas; a source, a target and a slot are all in
range, so no entry is dropped by the scatter and no index is moved by the gather's clamp.
-/
noncomputable section
open scoped BigOperators
open Idealize.ShloMosaic Idealize.ShloMosaic.ValueIdx

namespace Cert.KerSide

open Cert.KernelIdeal Cert.KernelIdeal.Gen Cert.Tables Cert.Harmonic Cert.LibReal Cert.Weights
open Cert.LibGather Cert.LibScatterPoint

/-- The printed weight chain `1 / (1 + exp (−w))` is the logistic function. -/
theorem sigm_apply (w : FVec Ideal S3 .f32) (j : Fin 3) : sigm w (ix1 j) = Ideal.logistic (w (ix1 j)) := by
  unfold sigm
  exact chain_eq_logistic (w (ix1 j))

/-- The six weights side by side, read at a slot. -/
theorem W6v_apply (u d : FVec Ideal S3 .f32) (s : Fin 6) :
    cat2 S6 0 S3 S3 (sigm u) (sigm d) concatenates_S3_S3_S6_d0 (ix1 s) = W6 u d s.val := by
  unfold cat2 W6
  by_cases hs : s.val < 3
  · rw [if_pos hs, concatenate_pair_apply_left (t := S6) (s₁ := S3) (s₂ := S3) 0 _ _ _ (ix1 s) rfl (ix1 (⟨s.val, hs⟩ : Fin 3))
      (fun b => by match b with | ⟨0, _⟩ => rfl), sigm_apply]
    refine congrArg (fun j => Ideal.logistic (u (ix1 j))) (Fin.ext ?_)
    show s.val = min s.val 2
    omega
  · rw [if_neg hs, concatenate_pair_apply_right (t := S6) (s₁ := S3) (s₂ := S3) 0 _ _ _ (ix1 s) rfl rfl (ix1 (⟨s.val - 3, by have := s.isLt; omega⟩ : Fin 3))
      (fun b hb => absurd (Subsingleton.elim _ _) hb) (by show (s.val - 3) + 3 = s.val; omega), sigm_apply]
    refine congrArg (fun j => Ideal.logistic (d (ix1 j))) (Fin.ext ?_)
    show s.val - 3 = min (s.val - 3) 2
    have := s.isLt; omega

/-- Position `e` of a flat table of 3954 entries is entry `e`. -/
theorem rm (e : Fin 3954) : (S3954.rowMajor (ix1 e) : Fin 3954) = e := Fin.ext (Shape.rowMajor_val_one _)

/-- A table's index column read at `(e, 0)` is the table's entry `e`. -/
theorem colK (tab : Fin 3954 → BitVec 32) (n : BitVec 32) (e : Fin 3954) :
    broadcastInDim S3954x1 ![0] bcast_S3954_S3954x1_0 (wrapTab tab n) (ix2 e (0 : Fin 1)) = tab e := by
  unfold wrapTab
  rw [Cert.Stage.col_apply]
  exact congrArg tab (rm e)

/-- The two index columns side by side: component 0 is the first column, … -/
theorem idx0 (colS colT : IVec S3954x1 32) (e : Fin 3954) :
    cat2 S3954x2 1 S3954x1 S3954x1 colS colT concatenates_S3954x1_S3954x1_S3954x2_d1 (ix2 e (0 : Fin 2))
      = colS (ix2 e (0 : Fin 1)) := by
  unfold cat2
  exact concatenate_pair_apply_left (t := S3954x2) (s₁ := S3954x1) (s₂ := S3954x1) 1 _ _ _ (ix2 e (0 : Fin 2)) rfl (ix2 e (0 : Fin 1))
    (fun b => by match b with | ⟨0, _⟩ => rfl | ⟨1, _⟩ => rfl)

/-- … component 1 the second. -/
theorem idx1 (colS colT : IVec S3954x1 32) (e : Fin 3954) :
    cat2 S3954x2 1 S3954x1 S3954x1 colS colT concatenates_S3954x1_S3954x1_S3954x2_d1 (ix2 e (1 : Fin 2))
      = colT (ix2 e (0 : Fin 1)) := by
  unfold cat2
  exact concatenate_pair_apply_right (t := S3954x2) (s₁ := S3954x1) (s₂ := S3954x1) 1 _ _ _ (ix2 e (1 : Fin 2)) rfl rfl (ix2 e (0 : Fin 1))
    (fun b hb => by
      match b, hb with
      | ⟨0, _⟩, _ => rfl
      | ⟨1, _⟩, hb => exact absurd rfl hb)
    (by rfl)

/-- The weight the gather hands entry `e`: the weight of its slot. -/
theorem gathered_apply (u d : FVec Ideal S3 .f32) (e : Fin 3954) :
    Host.gather gather_S6_S3954x1_S3954_n_0_n_n_0_1_1 (cat2 S6 0 S3 S3 (sigm u) (sigm d) concatenates_S3_S3_S6_d0)
        (broadcastInDim S3954x1 ![0] bcast_S3954_S3954x1_0 (wrapTab lit0 6#32)) (ix1 e)
      = W6 u d (slotF e.val) := by
  show Host.gather (flatGather 6 3954 gather_S6_S3954x1_S3954_n_0_n_n_0_1_1_wf) _ _ (ix1 e) = _
  rw [gather_flat_apply (by norm_num : 0 < 6), W6v_apply]
  refine congrArg (W6 u d) ?_
  show min (broadcastInDim S3954x1 ![0] bcast_S3954_S3954x1_0 (wrapTab lit0 6#32) (ix2 e (0 : Fin 1))).toInt.toNat (6 - 1) = slotF e.val
  rw [colK, k_slot, toNat_toInt_ofNat_small (by have := slotF_lt e.val; omega)]
  have := slotF_lt e.val
  omega

/-- THE CORRECTION MATRIX READ AT `(k, n)`. -/
theorem Umat_apply (u d : FVec Ideal S3 .f32) (k n : Fin 1024) :
    Umat u d (ix2 k n)
      = 0 + ∑ e ∈ Finset.range 3954, if srcF e = k.val ∧ tgtF e = n.val then W6 u d (slotF e) else 0 := by
  unfold Umat
  rw [truncf_apply]
  show Ideal.hostScatterAdd (pointScatter 1024 1024 3954 scatter_S1024x1024_S3954x2_S3954_n_01_01_1_wf) _ _ _ (ix2 k n) = _
  rw [scatter_point_apply, broadcastInDim_scalar_apply, constant_apply, Ideal.ofBits_zero_f32]
  congr 1
  rw [← Fin.sum_univ_eq_sum_range (fun e => if srcF e = k.val ∧ tgtF e = n.val then W6 u d (slotF e) else 0) 3954]
  refine Finset.sum_congr rfl fun e _ => ?_
  rw [idx0, idx1, colK, colK, k_src, k_tgt, toInt_ofNat_small (srcF_lt e.isLt), toInt_ofNat_small (tgtF_lt e.isLt),
    gathered_apply]
  simp only [Nat.cast_inj]

end Cert.KerSide
end
-- ==== Proof.KerForm.lean ====
import proofs.«168499_j23390391894546_2_alg».proof.Proof.KerValApply
import proofs.«168499_j23390391894546_2_alg».proof.Proof.KerRead
/-!
# The kernel's result at an index is the matrix form

At `(a, b, n)` the kernel's result is the input there plus the product of the input's row `(a, b)` with column `n` of the
correction matrix; with the matrix read entry by entry this is the matrix form of the row and the six weights at column `n`.
-/
noncomputable section
open scoped BigOperators
open Idealize.ShloMosaic Idealize.ShloMosaic.ValueIdx

namespace Cert.KerSide

open Cert.KernelIdeal Cert.KernelIdeal.Gen Cert.Tables Cert.Harmonic Cert.Weights

theorem kerVal_form (x : (⟨S8x4096x1024, .f32⟩ : BufTy).Contents (Elt Ideal)) (u d : (⟨S3, .f32⟩ : BufTy).Contents (Elt Ideal))
    (a : Fin 8) (b : Fin 4096) (n : Fin 1024) :
    kerVal x u d (ix3 a b n) = matFormE (rowE x a b) (W6 u d) n.val := by
  rw [kerVal_apply]
  unfold matFormE
  rw [rowE_val]
  congr 1
  rw [← Fin.sum_univ_eq_sum_range (fun k => rowE x a b k * (0 + ∑ e ∈ Finset.range 3954,
    if srcF e = k ∧ tgtF e = n.val then W6 u d (slotF e) else 0)) 1024]
  refine Finset.sum_congr rfl fun k _ => ?_
  rw [rowE_val, Umat_apply]

end Cert.KerSide
end
-- ==== Proof.RefOps.lean ====
/- The reference program's @main as LISTS of its 156 host operations, one list per printed window
   (the windows main_part0, main_part1, …), each entry the printed operation verbatim, and ops their concatenation;
   with each window's operations touching only the TensorCore's references. A table, read off the printed program. -/
import proofs.«168499_j23390391894546_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- `main_part0`'s 60 operations (statements 1 … 60), in order. -/
abbrev ops0 : List (HloOp τ sig (Elt F)) :=
  [ nullary main_c (fun i => lit0 (S512.rowMajor i)),
    nullary main_c_0 (constantI S512 1 0#1),
    nullary main_c_1 (fun i => lit1 (S512.rowMajor i)),
    nullary main_c_2 (constantI S512 1 0#1),
    nullary main_c_3 (fun i => lit2 (S1022.rowMajor i)),
    nullary main_c_4 (constantI S1022 1 0#1),
    nullary main_c_5 (fun i => lit3 (S1022.rowMajor i)),
    nullary main_c_6 (constantI S1022 1 0#1),
    nullary main_c_7 (fun i => lit4 (S256.rowMajor i)),
    nullary main_c_8 (constantI S256 1 0#1),
    nullary main_c_9 (fun i => lit5 (S256.rowMajor i)),
    nullary main_c_10 (constantI S256 1 0#1),
    nullary main_c_11 (fun i => lit6 (S1020.rowMajor i)),
    nullary main_c_12 (constantI S1020 1 0#1),
    nullary main_c_13 (fun i => lit7 (S1020.rowMajor i)),
    nullary main_c_14 (constantI S1020 1 0#1),
    nullary main_c_15 (fun i => lit8 (S128.rowMajor i)),
    nullary main_c_16 (constantI S128 1 0#1),
    nullary main_c_17 (fun i => lit9 (S128.rowMajor i)),
    nullary main_c_18 (constantI S128 1 0#1),
    nullary main_c_19 (fun i => lit10 (S1016.rowMajor i)),
    nullary main_c_20 (constantI S1016 1 0#1),
    nullary main_c_21 (fun i => lit11 (S1016.rowMajor i)),
    nullary main_c_22 (constantI S1016 1 0#1),
    unary main_arg1 main_v0 ((extractStridedSlice S1 ![0] · slices_S3_S1_0) : (⟨S3, .f32⟩ : BufTy).Contents (Elt F) → (⟨S1, .f32⟩ : BufTy).Contents (Elt F)),
    reshape main_v0 main_v1 rfl shapeCasts_S1_S_,
    unary main_v1 main_v2 (Host.negf : (⟨S_, .f32⟩ : BufTy).Contents (Elt F) → (⟨S_, .f32⟩ : BufTy).Contents (Elt F)),
    unary main_v2 main_v3 (Host.exp : (⟨S_, .f32⟩ : BufTy).Contents (Elt F) → (⟨S_, .f32⟩ : BufTy).Contents (Elt F)),
    nullary main_cst (constant S_ .f32 0x3F800000#32),
    binary main_cst main_v3 main_v4 (addf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v4 main_v5 (Host.divf : (⟨S_, .f32⟩ : BufTy).Contents (Elt F) → (⟨S_, .f32⟩ : BufTy).Contents (Elt F) → (⟨S_, .f32⟩ : BufTy).Contents (Elt F)),
    unary main_arg2 main_v6 ((extractStridedSlice S1 ![0] · slices_S3_S1_0) : (⟨S3, .f32⟩ : BufTy).Contents (Elt F) → (⟨S1, .f32⟩ : BufTy).Contents (Elt F)),
    reshape main_v6 main_v7 rfl shapeCasts_S1_S_,
    unary main_v7 main_v8 (Host.negf : (⟨S_, .f32⟩ : BufTy).Contents (Elt F) → (⟨S_, .f32⟩ : BufTy).Contents (Elt F)),
    unary main_v8 main_v9 (Host.exp : (⟨S_, .f32⟩ : BufTy).Contents (Elt F) → (⟨S_, .f32⟩ : BufTy).Contents (Elt F)),
    nullary main_cst_24 (constant S_ .f32 0x3F800000#32),
    binary main_cst_24 main_v9 main_v10 (addf : (⟨S_, .f32⟩ : BufTy).Contents (Elt F) → (⟨S_, .f32⟩ : BufTy).Contents (Elt F) → (⟨S_, .f32⟩ : BufTy).Contents (Elt F)),
    nullary main_cst_25 (constant S_ .f32 0x3F800000#32),
    binary main_cst_25 main_v10 main_v11 (Host.divf : (⟨S_, .f32⟩ : BufTy).Contents (Elt F) → (⟨S_, .f32⟩ : BufTy).Contents (Elt F) → (⟨S_, .f32⟩ : BufTy).Contents (Elt F)),
    nullary main_c_26 (constantI S_ 32 1024#32),
    unary main_c_26 main_v12 (broadcastInDim S512 ![] bcast_S_S512 : (⟨S_, .i32⟩ : BufTy).Contents (Elt F) → (⟨S512, .i32⟩ : BufTy).Contents (Elt F)),
    binary main_c main_v12 main_v13 (addi : (⟨S512, .i32⟩ : BufTy).Contents (Elt F) → (⟨S512, .i32⟩ : BufTy).Contents (Elt F) → (⟨S512, .i32⟩ : BufTy).Contents (Elt F)),
    ternary main_c_0 main_v13 main_c main_v14 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v14 main_v15 (broadcastInDim S512x1 ![0] bcast_S512_S512x1_0 : (⟨S512, .i32⟩ : BufTy).Contents (Elt F) → (⟨S512x1, .i32⟩ : BufTy).Contents (Elt F)),
    binary main_arg0 main_v15 main_v16 ((fun x i => Host.gather gather_S8x4096x1024_S512x1_S8x4096x512_01_2_n_n_2_1_840961 x i) : (⟨S8x4096x1024, .f32⟩ : BufTy).Contents (Elt F) → (⟨S512x1, .i32⟩ : BufTy).Contents (Elt F) → (⟨S8x4096x512, .f32⟩ : BufTy).Contents (Elt F)),
    unary main_v5 main_v17 (broadcastInDim S8x4096x512 ![] bcast_S_S8x4096x512 : (⟨S_, .f32⟩ : BufTy).Contents (Elt F) → (⟨S8x4096x512, .f32⟩ : BufTy).Contents (Elt F)),
    binary main_v17 main_v16 main_v18 (mulf : (⟨S8x4096x512, .f32⟩ : BufTy).Contents (Elt F) → (⟨S8x4096x512, .f32⟩ : BufTy).Contents (Elt F) → (⟨S8x4096x512, .f32⟩ : BufTy).Contents (Elt F)),
    nullary main_c_27 (constantI S_ 32 1024#32),
    unary main_c_27 main_v19 (broadcastInDim S512 ![] bcast_S_S512 : (⟨S_, .i32⟩ : BufTy).Contents (Elt F) → (⟨S512, .i32⟩ : BufTy).Contents (Elt F)),
    binary main_c_1 main_v19 main_v20 (addi : (⟨S512, .i32⟩ : BufTy).Contents (Elt F) → (⟨S512, .i32⟩ : BufTy).Contents (Elt F) → (⟨S512, .i32⟩ : BufTy).Contents (Elt F)),
    ternary main_c_2 main_v20 main_c_1 main_v21 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v21 main_v22 (broadcastInDim S512x1 ![0] bcast_S512_S512x1_0 : (⟨S512, .i32⟩ : BufTy).Contents (Elt F) → (⟨S512x1, .i32⟩ : BufTy).Contents (Elt F)),
    ternary main_arg0 main_v22 main_v18 main_v23 ((fun x i u => Host.scatterAdd scatter_S8x4096x1024_S512x1_S8x4096x512_01_2_2_1 x i u) : (⟨S8x4096x1024, .f32⟩ : BufTy).Contents (Elt F) → (⟨S512x1, .i32⟩ : BufTy).Contents (Elt F) → (⟨S8x4096x512, .f32⟩ : BufTy).Contents (Elt F) → (⟨S8x4096x1024, .f32⟩ : BufTy).Contents (Elt F)),
    nullary main_c_28 (constantI S_ 32 1024#32),
    unary main_c_28 main_v24 (broadcastInDim S1022 ![] bcast_S_S1022 : (⟨S_, .i32⟩ : BufTy).Contents (Elt F) → (⟨S1022, .i32⟩ : BufTy).Contents (Elt F)),
    binary main_c_3 main_v24 main_v25 (addi : (⟨S1022, .i32⟩ : BufTy).Contents (Elt F) → (⟨S1022, .i32⟩ : BufTy).Contents (Elt F) → (⟨S1022, .i32⟩ : BufTy).Contents (Elt F)),
    ternary main_c_4 main_v25 main_c_3 main_v26 (select : (⟨S1022, .i1⟩ : BufTy).Contents (Elt F) → (⟨S1022, .i32⟩ : BufTy).Contents (Elt F) → (⟨S1022, .i32⟩ : BufTy).Contents (Elt F) → (⟨S1022, .i32⟩ : BufTy).Contents (Elt F)),
    unary main_v26 main_v27 (broadcastInDim S1022x1 ![0] bcast_S1022_S1022x1_0 : (⟨S1022, .i32⟩ : BufTy).Contents (Elt F) → (⟨S1022x1, .i32⟩ : BufTy).Contents (Elt F)),
    binary main_arg0 main_v27 main_v28 ((fun x i => Host.gather gather_S8x4096x1024_S1022x1_S8x4096x1022_01_2_n_n_2_1_840961 x i) : (⟨S8x4096x1024, .f32⟩ : BufTy).Contents (Elt F) → (⟨S1022x1, .i32⟩ : BufTy).Contents (Elt F) → (⟨S8x4096x1022, .f32⟩ : BufTy).Contents (Elt F)) ]

set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., reshape_bufs_sub .., unary_bufs_sub .., unary_bufs_sub .., nullary_bufs_sub .., binary_bufs_sub .., nullary_bufs_sub .., binary_bufs_sub .., unary_bufs_sub .., reshape_bufs_sub .., unary_bufs_sub .., unary_bufs_sub .., nullary_bufs_sub .., binary_bufs_sub .., nullary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub ..⟩

/-- `main_part1`'s 60 operations (statements 61 … 120), in order. -/
abbrev ops1 : List (HloOp τ sig (Elt F)) :=
  [ unary main_v11 main_v29 (broadcastInDim S8x4096x1022 ![] bcast_S_S8x4096x1022 : (⟨S_, .f32⟩ : BufTy).Contents (Elt F) → (⟨S8x4096x1022, .f32⟩ : BufTy).Contents (Elt F)),
    binary main_v29 main_v28 main_v30 (mulf : (⟨S8x4096x1022, .f32⟩ : BufTy).Contents (Elt F) → (⟨S8x4096x1022, .f32⟩ : BufTy).Contents (Elt F) → (⟨S8x4096x1022, .f32⟩ : BufTy).Contents (Elt F)),
    nullary main_c_29 (constantI S_ 32 1024#32),
    unary main_c_29 main_v31 (broadcastInDim S1022 ![] bcast_S_S1022 : (⟨S_, .i32⟩ : BufTy).Contents (Elt F) → (⟨S1022, .i32⟩ : BufTy).Contents (Elt F)),
    binary main_c_5 main_v31 main_v32 (addi : (⟨S1022, .i32⟩ : BufTy).Contents (Elt F) → (⟨S1022, .i32⟩ : BufTy).Contents (Elt F) → (⟨S1022, .i32⟩ : BufTy).Contents (Elt F)),
    ternary main_c_6 main_v32 main_c_5 main_v33 (select : (⟨S1022, .i1⟩ : BufTy).Contents (Elt F) → (⟨S1022, .i32⟩ : BufTy).Contents (Elt F) → (⟨S1022, .i32⟩ : BufTy).Contents (Elt F) → (⟨S1022, .i32⟩ : BufTy).Contents (Elt F)),
    unary main_v33 main_v34 (broadcastInDim S1022x1 ![0] bcast_S1022_S1022x1_0 : (⟨S1022, .i32⟩ : BufTy).Contents (Elt F) → (⟨S1022x1, .i32⟩ : BufTy).Contents (Elt F)),
    ternary main_v23 main_v34 main_v30 main_v35 ((fun x i u => Host.scatterAdd scatter_S8x4096x1024_S1022x1_S8x4096x1022_01_2_2_1 x i u) : (⟨S8x4096x1024, .f32⟩ : BufTy).Contents (Elt F) → (⟨S1022x1, .i32⟩ : BufTy).Contents (Elt F) → (⟨S8x4096x1022, .f32⟩ : BufTy).Contents (Elt F) → (⟨S8x4096x1024, .f32⟩ : BufTy).Contents (Elt F)),
    unary main_arg1 main_v36 ((extractStridedSlice S1 ![1] · slices_S3_S1_1) : (⟨S3, .f32⟩ : BufTy).Contents (Elt F) → (⟨S1, .f32⟩ : BufTy).Contents (Elt F)),
    reshape main_v36 main_v37 rfl shapeCasts_S1_S_,
    unary main_v37 main_v38 (Host.negf : (⟨S_, .f32⟩ : BufTy).Contents (Elt F) → (⟨S_, .f32⟩ : BufTy).Contents (Elt F)),
    unary main_v38 main_v39 (Host.exp : (⟨S_, .f32⟩ : BufTy).Contents (Elt F) → (⟨S_, .f32⟩ : BufTy).Contents (Elt F)),
    nullary main_cst_30 (constant S_ .f32 0x3F800000#32),
    binary main_cst_30 main_v39 main_v40 (addf : (⟨S_, .f32⟩ : BufTy).Contents (Elt F) → (⟨S_, .f32⟩ : BufTy).Contents (Elt F) → (⟨S_, .f32⟩ : BufTy).Contents (Elt F)),
    nullary main_cst_31 (constant S_ .f32 0x3F800000#32),
    binary main_cst_31 main_v40 main_v41 (Host.divf : (⟨S_, .f32⟩ : BufTy).Contents (Elt F) → (⟨S_, .f32⟩ : BufTy).Contents (Elt F) → (⟨S_, .f32⟩ : BufTy).Contents (Elt F)),
    unary main_arg2 main_v42 ((extractStridedSlice S1 ![1] · slices_S3_S1_1) : (⟨S3, .f32⟩ : BufTy).Contents (Elt F) → (⟨S1, .f32⟩ : BufTy).Contents (Elt F)),
    reshape main_v42 main_v43 rfl shapeCasts_S1_S_,
    unary main_v43 main_v44 (Host.negf : (⟨S_, .f32⟩ : BufTy).Contents (Elt F) → (⟨S_, .f32⟩ : BufTy).Contents (Elt F)),
    unary main_v44 main_v45 (Host.exp : (⟨S_, .f32⟩ : BufTy).Contents (Elt F) → (⟨S_, .f32⟩ : BufTy).Contents (Elt F)),
    nullary main_cst_32 (constant S_ .f32 0x3F800000#32),
    binary main_cst_32 main_v45 main_v46 (addf : (⟨S_, .f32⟩ : BufTy).Contents (Elt F) → (⟨S_, .f32⟩ : BufTy).Contents (Elt F) → (⟨S_, .f32⟩ : BufTy).Contents (Elt F)),
    nullary main_cst_33 (constant S_ .f32 0x3F800000#32),
    binary main_cst_33 main_v46 main_v47 (Host.divf : (⟨S_, .f32⟩ : BufTy).Contents (Elt F) → (⟨S_, .f32⟩ : BufTy).Contents (Elt F) → (⟨S_, .f32⟩ : BufTy).Contents (Elt F)),
    nullary main_c_34 (constantI S_ 32 1024#32),
    unary main_c_34 main_v48 (broadcastInDim S256 ![] bcast_S_S256 : (⟨S_, .i32⟩ : BufTy).Contents (Elt F) → (⟨S256, .i32⟩ : BufTy).Contents (Elt F)),
    binary main_c_7 main_v48 main_v49 (addi : (⟨S256, .i32⟩ : BufTy).Contents (Elt F) → (⟨S256, .i32⟩ : BufTy).Contents (Elt F) → (⟨S256, .i32⟩ : BufTy).Contents (Elt F)),
    ternary main_c_8 main_v49 main_c_7 main_v50 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v50 main_v51 (broadcastInDim S256x1 ![0] bcast_S256_S256x1_0 : (⟨S256, .i32⟩ : BufTy).Contents (Elt F) → (⟨S256x1, .i32⟩ : BufTy).Contents (Elt F)),
    binary main_arg0 main_v51 main_v52 ((fun x i => Host.gather gather_S8x4096x1024_S256x1_S8x4096x256_01_2_n_n_2_1_840961 x i) : (⟨S8x4096x1024, .f32⟩ : BufTy).Contents (Elt F) → (⟨S256x1, .i32⟩ : BufTy).Contents (Elt F) → (⟨S8x4096x256, .f32⟩ : BufTy).Contents (Elt F)),
    unary main_v41 main_v53 (broadcastInDim S8x4096x256 ![] bcast_S_S8x4096x256 : (⟨S_, .f32⟩ : BufTy).Contents (Elt F) → (⟨S8x4096x256, .f32⟩ : BufTy).Contents (Elt F)),
    binary main_v53 main_v52 main_v54 (mulf : (⟨S8x4096x256, .f32⟩ : BufTy).Contents (Elt F) → (⟨S8x4096x256, .f32⟩ : BufTy).Contents (Elt F) → (⟨S8x4096x256, .f32⟩ : BufTy).Contents (Elt F)),
    nullary main_c_35 (constantI S_ 32 1024#32),
    unary main_c_35 main_v55 (broadcastInDim S256 ![] bcast_S_S256 : (⟨S_, .i32⟩ : BufTy).Contents (Elt F) → (⟨S256, .i32⟩ : BufTy).Contents (Elt F)),
    binary main_c_9 main_v55 main_v56 (addi : (⟨S256, .i32⟩ : BufTy).Contents (Elt F) → (⟨S256, .i32⟩ : BufTy).Contents (Elt F) → (⟨S256, .i32⟩ : BufTy).Contents (Elt F)),
    ternary main_c_10 main_v56 main_c_9 main_v57 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v57 main_v58 (broadcastInDim S256x1 ![0] bcast_S256_S256x1_0 : (⟨S256, .i32⟩ : BufTy).Contents (Elt F) → (⟨S256x1, .i32⟩ : BufTy).Contents (Elt F)),
    ternary main_v35 main_v58 main_v54 main_v59 ((fun x i u => Host.scatterAdd scatter_S8x4096x1024_S256x1_S8x4096x256_01_2_2_1 x i u) : (⟨S8x4096x1024, .f32⟩ : BufTy).Contents (Elt F) → (⟨S256x1, .i32⟩ : BufTy).Contents (Elt F) → (⟨S8x4096x256, .f32⟩ : BufTy).Contents (Elt F) → (⟨S8x4096x1024, .f32⟩ : BufTy).Contents (Elt F)),
    nullary main_c_36 (constantI S_ 32 1024#32),
    unary main_c_36 main_v60 (broadcastInDim S1020 ![] bcast_S_S1020 : (⟨S_, .i32⟩ : BufTy).Contents (Elt F) → (⟨S1020, .i32⟩ : BufTy).Contents (Elt F)),
    binary main_c_11 main_v60 main_v61 (addi : (⟨S1020, .i32⟩ : BufTy).Contents (Elt F) → (⟨S1020, .i32⟩ : BufTy).Contents (Elt F) → (⟨S1020, .i32⟩ : BufTy).Contents (Elt F)),
    ternary main_c_12 main_v61 main_c_11 main_v62 (select : (⟨S1020, .i1⟩ : BufTy).Contents (Elt F) → (⟨S1020, .i32⟩ : BufTy).Contents (Elt F) → (⟨S1020, .i32⟩ : BufTy).Contents (Elt F) → (⟨S1020, .i32⟩ : BufTy).Contents (Elt F)),
    unary main_v62 main_v63 (broadcastInDim S1020x1 ![0] bcast_S1020_S1020x1_0 : (⟨S1020, .i32⟩ : BufTy).Contents (Elt F) → (⟨S1020x1, .i32⟩ : BufTy).Contents (Elt F)),
    binary main_arg0 main_v63 main_v64 ((fun x i => Host.gather gather_S8x4096x1024_S1020x1_S8x4096x1020_01_2_n_n_2_1_840961 x i) : (⟨S8x4096x1024, .f32⟩ : BufTy).Contents (Elt F) → (⟨S1020x1, .i32⟩ : BufTy).Contents (Elt F) → (⟨S8x4096x1020, .f32⟩ : BufTy).Contents (Elt F)),
    unary main_v47 main_v65 (broadcastInDim S8x4096x1020 ![] bcast_S_S8x4096x1020 : (⟨S_, .f32⟩ : BufTy).Contents (Elt F) → (⟨S8x4096x1020, .f32⟩ : BufTy).Contents (Elt F)),
    binary main_v65 main_v64 main_v66 (mulf : (⟨S8x4096x1020, .f32⟩ : BufTy).Contents (Elt F) → (⟨S8x4096x1020, .f32⟩ : BufTy).Contents (Elt F) → (⟨S8x4096x1020, .f32⟩ : BufTy).Contents (Elt F)),
    nullary main_c_37 (constantI S_ 32 1024#32),
    unary main_c_37 main_v67 (broadcastInDim S1020 ![] bcast_S_S1020 : (⟨S_, .i32⟩ : BufTy).Contents (Elt F) → (⟨S1020, .i32⟩ : BufTy).Contents (Elt F)),
    binary main_c_13 main_v67 main_v68 (addi : (⟨S1020, .i32⟩ : BufTy).Contents (Elt F) → (⟨S1020, .i32⟩ : BufTy).Contents (Elt F) → (⟨S1020, .i32⟩ : BufTy).Contents (Elt F)),
    ternary main_c_14 main_v68 main_c_13 main_v69 (select : (⟨S1020, .i1⟩ : BufTy).Contents (Elt F) → (⟨S1020, .i32⟩ : BufTy).Contents (Elt F) → (⟨S1020, .i32⟩ : BufTy).Contents (Elt F) → (⟨S1020, .i32⟩ : BufTy).Contents (Elt F)),
    unary main_v69 main_v70 (broadcastInDim S1020x1 ![0] bcast_S1020_S1020x1_0 : (⟨S1020, .i32⟩ : BufTy).Contents (Elt F) → (⟨S1020x1, .i32⟩ : BufTy).Contents (Elt F)),
    ternary main_v59 main_v70 main_v66 main_v71 ((fun x i u => Host.scatterAdd scatter_S8x4096x1024_S1020x1_S8x4096x1020_01_2_2_1 x i u) : (⟨S8x4096x1024, .f32⟩ : BufTy).Contents (Elt F) → (⟨S1020x1, .i32⟩ : BufTy).Contents (Elt F) → (⟨S8x4096x1020, .f32⟩ : BufTy).Contents (Elt F) → (⟨S8x4096x1024, .f32⟩ : BufTy).Contents (Elt F)),
    unary main_arg1 main_v72 ((extractStridedSlice S1 ![2] · slices_S3_S1_2) : (⟨S3, .f32⟩ : BufTy).Contents (Elt F) → (⟨S1, .f32⟩ : BufTy).Contents (Elt F)),
    reshape main_v72 main_v73 rfl shapeCasts_S1_S_,
    unary main_v73 main_v74 (Host.negf : (⟨S_, .f32⟩ : BufTy).Contents (Elt F) → (⟨S_, .f32⟩ : BufTy).Contents (Elt F)),
    unary main_v74 main_v75 (Host.exp : (⟨S_, .f32⟩ : BufTy).Contents (Elt F) → (⟨S_, .f32⟩ : BufTy).Contents (Elt F)),
    nullary main_cst_38 (constant S_ .f32 0x3F800000#32),
    binary main_cst_38 main_v75 main_v76 (addf : (⟨S_, .f32⟩ : BufTy).Contents (Elt F) → (⟨S_, .f32⟩ : BufTy).Contents (Elt F) → (⟨S_, .f32⟩ : BufTy).Contents (Elt F)),
    nullary main_cst_39 (constant S_ .f32 0x3F800000#32),
    binary main_cst_39 main_v76 main_v77 (Host.divf : (⟨S_, .f32⟩ : BufTy).Contents (Elt F) → (⟨S_, .f32⟩ : BufTy).Contents (Elt F) → (⟨S_, .f32⟩ : BufTy).Contents (Elt F)) ]

set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., unary_bufs_sub .., nullary_bufs_sub .., binary_bufs_sub .., nullary_bufs_sub .., binary_bufs_sub .., unary_bufs_sub .., reshape_bufs_sub .., unary_bufs_sub .., unary_bufs_sub .., nullary_bufs_sub .., binary_bufs_sub .., nullary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., unary_bufs_sub .., nullary_bufs_sub .., binary_bufs_sub .., nullary_bufs_sub .., binary_bufs_sub ..⟩

/-- `main_part2`'s 36 operations (statements 121 … 156), in order. -/
abbrev ops2 : List (HloOp τ sig (Elt F)) :=
  [ unary main_arg2 main_v78 ((extractStridedSlice S1 ![2] · slices_S3_S1_2) : (⟨S3, .f32⟩ : BufTy).Contents (Elt F) → (⟨S1, .f32⟩ : BufTy).Contents (Elt F)),
    reshape main_v78 main_v79 rfl shapeCasts_S1_S_,
    unary main_v79 main_v80 (Host.negf : (⟨S_, .f32⟩ : BufTy).Contents (Elt F) → (⟨S_, .f32⟩ : BufTy).Contents (Elt F)),
    unary main_v80 main_v81 (Host.exp : (⟨S_, .f32⟩ : BufTy).Contents (Elt F) → (⟨S_, .f32⟩ : BufTy).Contents (Elt F)),
    nullary main_cst_40 (constant S_ .f32 0x3F800000#32),
    binary main_cst_40 main_v81 main_v82 (addf : (⟨S_, .f32⟩ : BufTy).Contents (Elt F) → (⟨S_, .f32⟩ : BufTy).Contents (Elt F) → (⟨S_, .f32⟩ : BufTy).Contents (Elt F)),
    nullary main_cst_41 (constant S_ .f32 0x3F800000#32),
    binary main_cst_41 main_v82 main_v83 (Host.divf : (⟨S_, .f32⟩ : BufTy).Contents (Elt F) → (⟨S_, .f32⟩ : BufTy).Contents (Elt F) → (⟨S_, .f32⟩ : BufTy).Contents (Elt F)),
    nullary main_c_42 (constantI S_ 32 1024#32),
    unary main_c_42 main_v84 (broadcastInDim S128 ![] bcast_S_S128 : (⟨S_, .i32⟩ : BufTy).Contents (Elt F) → (⟨S128, .i32⟩ : BufTy).Contents (Elt F)),
    binary main_c_15 main_v84 main_v85 (addi : (⟨S128, .i32⟩ : BufTy).Contents (Elt F) → (⟨S128, .i32⟩ : BufTy).Contents (Elt F) → (⟨S128, .i32⟩ : BufTy).Contents (Elt F)),
    ternary main_c_16 main_v85 main_c_15 main_v86 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v86 main_v87 (broadcastInDim S128x1 ![0] bcast_S128_S128x1_0 : (⟨S128, .i32⟩ : BufTy).Contents (Elt F) → (⟨S128x1, .i32⟩ : BufTy).Contents (Elt F)),
    binary main_arg0 main_v87 main_v88 ((fun x i => Host.gather gather_S8x4096x1024_S128x1_S8x4096x128_01_2_n_n_2_1_840961 x i) : (⟨S8x4096x1024, .f32⟩ : BufTy).Contents (Elt F) → (⟨S128x1, .i32⟩ : BufTy).Contents (Elt F) → (⟨S8x4096x128, .f32⟩ : BufTy).Contents (Elt F)),
    unary main_v77 main_v89 (broadcastInDim S8x4096x128 ![] bcast_S_S8x4096x128 : (⟨S_, .f32⟩ : BufTy).Contents (Elt F) → (⟨S8x4096x128, .f32⟩ : BufTy).Contents (Elt F)),
    binary main_v89 main_v88 main_v90 (mulf : (⟨S8x4096x128, .f32⟩ : BufTy).Contents (Elt F) → (⟨S8x4096x128, .f32⟩ : BufTy).Contents (Elt F) → (⟨S8x4096x128, .f32⟩ : BufTy).Contents (Elt F)),
    nullary main_c_43 (constantI S_ 32 1024#32),
    unary main_c_43 main_v91 (broadcastInDim S128 ![] bcast_S_S128 : (⟨S_, .i32⟩ : BufTy).Contents (Elt F) → (⟨S128, .i32⟩ : BufTy).Contents (Elt F)),
    binary main_c_17 main_v91 main_v92 (addi : (⟨S128, .i32⟩ : BufTy).Contents (Elt F) → (⟨S128, .i32⟩ : BufTy).Contents (Elt F) → (⟨S128, .i32⟩ : BufTy).Contents (Elt F)),
    ternary main_c_18 main_v92 main_c_17 main_v93 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v93 main_v94 (broadcastInDim S128x1 ![0] bcast_S128_S128x1_0 : (⟨S128, .i32⟩ : BufTy).Contents (Elt F) → (⟨S128x1, .i32⟩ : BufTy).Contents (Elt F)),
    ternary main_v71 main_v94 main_v90 main_v95 ((fun x i u => Host.scatterAdd scatter_S8x4096x1024_S128x1_S8x4096x128_01_2_2_1 x i u) : (⟨S8x4096x1024, .f32⟩ : BufTy).Contents (Elt F) → (⟨S128x1, .i32⟩ : BufTy).Contents (Elt F) → (⟨S8x4096x128, .f32⟩ : BufTy).Contents (Elt F) → (⟨S8x4096x1024, .f32⟩ : BufTy).Contents (Elt F)),
    nullary main_c_44 (constantI S_ 32 1024#32),
    unary main_c_44 main_v96 (broadcastInDim S1016 ![] bcast_S_S1016 : (⟨S_, .i32⟩ : BufTy).Contents (Elt F) → (⟨S1016, .i32⟩ : BufTy).Contents (Elt F)),
    binary main_c_19 main_v96 main_v97 (addi : (⟨S1016, .i32⟩ : BufTy).Contents (Elt F) → (⟨S1016, .i32⟩ : BufTy).Contents (Elt F) → (⟨S1016, .i32⟩ : BufTy).Contents (Elt F)),
    ternary main_c_20 main_v97 main_c_19 main_v98 (select : (⟨S1016, .i1⟩ : BufTy).Contents (Elt F) → (⟨S1016, .i32⟩ : BufTy).Contents (Elt F) → (⟨S1016, .i32⟩ : BufTy).Contents (Elt F) → (⟨S1016, .i32⟩ : BufTy).Contents (Elt F)),
    unary main_v98 main_v99 (broadcastInDim S1016x1 ![0] bcast_S1016_S1016x1_0 : (⟨S1016, .i32⟩ : BufTy).Contents (Elt F) → (⟨S1016x1, .i32⟩ : BufTy).Contents (Elt F)),
    binary main_arg0 main_v99 main_v100 ((fun x i => Host.gather gather_S8x4096x1024_S1016x1_S8x4096x1016_01_2_n_n_2_1_840961 x i) : (⟨S8x4096x1024, .f32⟩ : BufTy).Contents (Elt F) → (⟨S1016x1, .i32⟩ : BufTy).Contents (Elt F) → (⟨S8x4096x1016, .f32⟩ : BufTy).Contents (Elt F)),
    unary main_v83 main_v101 (broadcastInDim S8x4096x1016 ![] bcast_S_S8x4096x1016 : (⟨S_, .f32⟩ : BufTy).Contents (Elt F) → (⟨S8x4096x1016, .f32⟩ : BufTy).Contents (Elt F)),
    binary main_v101 main_v100 main_v102 (mulf : (⟨S8x4096x1016, .f32⟩ : BufTy).Contents (Elt F) → (⟨S8x4096x1016, .f32⟩ : BufTy).Contents (Elt F) → (⟨S8x4096x1016, .f32⟩ : BufTy).Contents (Elt F)),
    nullary main_c_45 (constantI S_ 32 1024#32),
    unary main_c_45 main_v103 (broadcastInDim S1016 ![] bcast_S_S1016 : (⟨S_, .i32⟩ : BufTy).Contents (Elt F) → (⟨S1016, .i32⟩ : BufTy).Contents (Elt F)),
    binary main_c_21 main_v103 main_v104 (addi : (⟨S1016, .i32⟩ : BufTy).Contents (Elt F) → (⟨S1016, .i32⟩ : BufTy).Contents (Elt F) → (⟨S1016, .i32⟩ : BufTy).Contents (Elt F)),
    ternary main_c_22 main_v104 main_c_21 main_v105 (select : (⟨S1016, .i1⟩ : BufTy).Contents (Elt F) → (⟨S1016, .i32⟩ : BufTy).Contents (Elt F) → (⟨S1016, .i32⟩ : BufTy).Contents (Elt F) → (⟨S1016, .i32⟩ : BufTy).Contents (Elt F)),
    unary main_v105 main_v106 (broadcastInDim S1016x1 ![0] bcast_S1016_S1016x1_0 : (⟨S1016, .i32⟩ : BufTy).Contents (Elt F) → (⟨S1016x1, .i32⟩ : BufTy).Contents (Elt F)),
    ternary main_v95 main_v106 main_v102 main_v107 ((fun x i u => Host.scatterAdd scatter_S8x4096x1024_S1016x1_S8x4096x1016_01_2_2_1 x i u) : (⟨S8x4096x1024, .f32⟩ : BufTy).Contents (Elt F) → (⟨S1016x1, .i32⟩ : BufTy).Contents (Elt F) → (⟨S8x4096x1016, .f32⟩ : BufTy).Contents (Elt F) → (⟨S8x4096x1024, .f32⟩ : BufTy).Contents (Elt F)) ]

set_option maxRecDepth 8192 in
theorem ops2_sub : (ops2 : List (HloOp τ sig (Elt F))).Forall fun op => op.bufs ⊆ tcRefs τ sig :=
  ⟨unary_bufs_sub .., reshape_bufs_sub .., unary_bufs_sub .., unary_bufs_sub .., nullary_bufs_sub .., binary_bufs_sub .., nullary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., ternary_bufs_sub .., unary_bufs_sub .., ternary_bufs_sub ..⟩

/-- @main's 156 operations, in order: the windows' lists one after the other. -/
abbrev ops : List (HloOp τ sig (Elt F)) := ops0 ++ (ops1 ++ (ops2))

end Cert.RefSide

end
-- ==== Proof.LibFoldAppend.lean ====
/-
  The fold of a line of host operations over a concatenation.

  `StableHlo.after ops V` is what a device's buffers hold once the operations `ops` have run in order from contents `V`.
  Running `l₁` and then `l₂` is running `l₁ ++ l₂`: the fold over a concatenation is the fold over the second line from the
  fold over the first. This is what lets a long straight-line program be read back one stretch at a time, each stretch from
  the contents the previous one leaves.
-/
import Idealize.ShloMosaic.Lib.StableHlo.Run

noncomputable section

namespace Idealize.ShloMosaic.StableHlo

variable {τ : Topo} {sig : RefSig} {Val : EltTy → Type}

/-- The buffers after `l₁ ++ l₂` are the buffers after `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

end
-- ==== Proof.RefVal.lean ====
/-
  The reference program's result as one closed term of its three argument arrays.

  The program adds to `x`, six times over, a weighted copy of some of its columns (positions along the last axis) into other
  columns. Stage j gathers the columns listed by one literal table, scales them by a scalar weight, and scatter-adds them at the
  columns listed by a second literal table. The weights are the logistic function 1 / (1 + exp (−w)) of the entries of the two
  length-3 arrays `u` and `d`, in the order u₀, d₀, u₁, d₁, u₂, d₂. Every gather reads the ORIGINAL `x`; every scatter-add adds
  into the running sum, which starts at `x`.

  A literal table reaches its gather or scatter as a column: the program first adds 1024 to the entries a mask selects (the mask
  is the constant false), then lays the table out with a trailing axis of length one. The tables themselves are left as the
  printed program names them, `lit0` … `lit11`.

  `after_ops_result` reads the fold of @main's operations at the result buffer: it is `refVal` of the launch contents of the
  three argument buffers. `after_ops_arg0` … `after_ops_arg2`: the argument buffers are left as they were.
-/
import proofs.«168499_j23390391894546_2_alg».proof.Proof.RefOps
import proofs.«168499_j23390391894546_2_alg».proof.Proof.LibFoldAppend

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The pieces -/

/-- The logistic weight of a scalar, as the program computes it: 1 / (1 + exp (−w)). -/
def sg (w : FVec F S_ .f32) : FVec F S_ .f32 :=
  Host.divf (constant S_ .f32 0x3F800000#32) (addf (constant S_ .f32 0x3F800000#32) (Host.exp (Host.negf w)))

/-- Table `lit0` as the [512, 1] column of positions the program builds from it. -/
def col0 : IVec S512x1 32 :=
  broadcastInDim S512x1 ![0] bcast_S512_S512x1_0
    (select (constantI S512 1 0#1)
      (addi (fun i => lit0 (S512.rowMajor i)) (broadcastInDim S512 ![] bcast_S_S512 (constantI S_ 32 1024#32)))
      (fun i => lit0 (S512.rowMajor i)))

/-- Table `lit1` as the [512, 1] column of positions the program builds from it. -/
def col1 : IVec S512x1 32 :=
  broadcastInDim S512x1 ![0] bcast_S512_S512x1_0
    (select (constantI S512 1 0#1)
      (addi (fun i => lit1 (S512.rowMajor i)) (broadcastInDim S512 ![] bcast_S_S512 (constantI S_ 32 1024#32)))
      (fun i => lit1 (S512.rowMajor i)))

/-- Table `lit2` as the [1022, 1] column of positions the program builds from it. -/
def col2 : IVec S1022x1 32 :=
  broadcastInDim S1022x1 ![0] bcast_S1022_S1022x1_0
    (select (constantI S1022 1 0#1)
      (addi (fun i => lit2 (S1022.rowMajor i)) (broadcastInDim S1022 ![] bcast_S_S1022 (constantI S_ 32 1024#32)))
      (fun i => lit2 (S1022.rowMajor i)))

/-- Table `lit3` as the [1022, 1] column of positions the program builds from it. -/
def col3 : IVec S1022x1 32 :=
  broadcastInDim S1022x1 ![0] bcast_S1022_S1022x1_0
    (select (constantI S1022 1 0#1)
      (addi (fun i => lit3 (S1022.rowMajor i)) (broadcastInDim S1022 ![] bcast_S_S1022 (constantI S_ 32 1024#32)))
      (fun i => lit3 (S1022.rowMajor i)))

/-- Table `lit4` as the [256, 1] column of positions the program builds from it. -/
def col4 : IVec S256x1 32 :=
  broadcastInDim S256x1 ![0] bcast_S256_S256x1_0
    (select (constantI S256 1 0#1)
      (addi (fun i => lit4 (S256.rowMajor i)) (broadcastInDim S256 ![] bcast_S_S256 (constantI S_ 32 1024#32)))
      (fun i => lit4 (S256.rowMajor i)))

/-- Table `lit5` as the [256, 1] column of positions the program builds from it. -/
def col5 : IVec S256x1 32 :=
  broadcastInDim S256x1 ![0] bcast_S256_S256x1_0
    (select (constantI S256 1 0#1)
      (addi (fun i => lit5 (S256.rowMajor i)) (broadcastInDim S256 ![] bcast_S_S256 (constantI S_ 32 1024#32)))
      (fun i => lit5 (S256.rowMajor i)))

/-- Table `lit6` as the [1020, 1] column of positions the program builds from it. -/
def col6 : IVec S1020x1 32 :=
  broadcastInDim S1020x1 ![0] bcast_S1020_S1020x1_0
    (select (constantI S1020 1 0#1)
      (addi (fun i => lit6 (S1020.rowMajor i)) (broadcastInDim S1020 ![] bcast_S_S1020 (constantI S_ 32 1024#32)))
      (fun i => lit6 (S1020.rowMajor i)))

/-- Table `lit7` as the [1020, 1] column of positions the program builds from it. -/
def col7 : IVec S1020x1 32 :=
  broadcastInDim S1020x1 ![0] bcast_S1020_S1020x1_0
    (select (constantI S1020 1 0#1)
      (addi (fun i => lit7 (S1020.rowMajor i)) (broadcastInDim S1020 ![] bcast_S_S1020 (constantI S_ 32 1024#32)))
      (fun i => lit7 (S1020.rowMajor i)))

/-- Table `lit8` as the [128, 1] column of positions the program builds from it. -/
def col8 : IVec S128x1 32 :=
  broadcastInDim S128x1 ![0] bcast_S128_S128x1_0
    (select (constantI S128 1 0#1)
      (addi (fun i => lit8 (S128.rowMajor i)) (broadcastInDim S128 ![] bcast_S_S128 (constantI S_ 32 1024#32)))
      (fun i => lit8 (S128.rowMajor i)))

/-- Table `lit9` as the [128, 1] column of positions the program builds from it. -/
def col9 : IVec S128x1 32 :=
  broadcastInDim S128x1 ![0] bcast_S128_S128x1_0
    (select (constantI S128 1 0#1)
      (addi (fun i => lit9 (S128.rowMajor i)) (broadcastInDim S128 ![] bcast_S_S128 (constantI S_ 32 1024#32)))
      (fun i => lit9 (S128.rowMajor i)))

/-- Table `lit10` as the [1016, 1] column of positions the program builds from it. -/
def col10 : IVec S1016x1 32 :=
  broadcastInDim S1016x1 ![0] bcast_S1016_S1016x1_0
    (select (constantI S1016 1 0#1)
      (addi (fun i => lit10 (S1016.rowMajor i)) (broadcastInDim S1016 ![] bcast_S_S1016 (constantI S_ 32 1024#32)))
      (fun i => lit10 (S1016.rowMajor i)))

/-- Table `lit11` as the [1016, 1] column of positions the program builds from it. -/
def col11 : IVec S1016x1 32 :=
  broadcastInDim S1016x1 ![0] bcast_S1016_S1016x1_0
    (select (constantI S1016 1 0#1)
      (addi (fun i => lit11 (S1016.rowMajor i)) (broadcastInDim S1016 ![] bcast_S_S1016 (constantI S_ 32 1024#32)))
      (fun i => lit11 (S1016.rowMajor i)))

/-- Stage 1 of 6: the 512 columns of `x` at the positions `col0`, each scaled by the weight `w`, added into `acc` at the
    positions `col1` of the last axis. -/
def st0 (x acc : FVec F S8x4096x1024 .f32) (w : FVec F S_ .f32) : FVec F S8x4096x1024 .f32 :=
  Host.scatterAdd scatter_S8x4096x1024_S512x1_S8x4096x512_01_2_2_1 acc col1
    (mulf (broadcastInDim S8x4096x512 ![] bcast_S_S8x4096x512 w)
      (Host.gather gather_S8x4096x1024_S512x1_S8x4096x512_01_2_n_n_2_1_840961 x col0))

/-- Stage 2 of 6: the 1022 columns of `x` at the positions `col2`, each scaled by the weight `w`, added into `acc` at the
    positions `col3` of the last axis. -/
def st1 (x acc : FVec F S8x4096x1024 .f32) (w : FVec F S_ .f32) : FVec F S8x4096x1024 .f32 :=
  Host.scatterAdd scatter_S8x4096x1024_S1022x1_S8x4096x1022_01_2_2_1 acc col3
    (mulf (broadcastInDim S8x4096x1022 ![] bcast_S_S8x4096x1022 w)
      (Host.gather gather_S8x4096x1024_S1022x1_S8x4096x1022_01_2_n_n_2_1_840961 x col2))

/-- Stage 3 of 6: the 256 columns of `x` at the positions `col4`, each scaled by the weight `w`, added into `acc` at the
    positions `col5` of the last axis. -/
def st2 (x acc : FVec F S8x4096x1024 .f32) (w : FVec F S_ .f32) : FVec F S8x4096x1024 .f32 :=
  Host.scatterAdd scatter_S8x4096x1024_S256x1_S8x4096x256_01_2_2_1 acc col5
    (mulf (broadcastInDim S8x4096x256 ![] bcast_S_S8x4096x256 w)
      (Host.gather gather_S8x4096x1024_S256x1_S8x4096x256_01_2_n_n_2_1_840961 x col4))

/-- Stage 4 of 6: the 1020 columns of `x` at the positions `col6`, each scaled by the weight `w`, added into `acc` at the
    positions `col7` of the last axis. -/
def st3 (x acc : FVec F S8x4096x1024 .f32) (w : FVec F S_ .f32) : FVec F S8x4096x1024 .f32 :=
  Host.scatterAdd scatter_S8x4096x1024_S1020x1_S8x4096x1020_01_2_2_1 acc col7
    (mulf (broadcastInDim S8x4096x1020 ![] bcast_S_S8x4096x1020 w)
      (Host.gather gather_S8x4096x1024_S1020x1_S8x4096x1020_01_2_n_n_2_1_840961 x col6))

/-- Stage 5 of 6: the 128 columns of `x` at the positions `col8`, each scaled by the weight `w`, added into `acc` at the
    positions `col9` of the last axis. -/
def st4 (x acc : FVec F S8x4096x1024 .f32) (w : FVec F S_ .f32) : FVec F S8x4096x1024 .f32 :=
  Host.scatterAdd scatter_S8x4096x1024_S128x1_S8x4096x128_01_2_2_1 acc col9
    (mulf (broadcastInDim S8x4096x128 ![] bcast_S_S8x4096x128 w)
      (Host.gather gather_S8x4096x1024_S128x1_S8x4096x128_01_2_n_n_2_1_840961 x col8))

/-- Stage 6 of 6: the 1016 columns of `x` at the positions `col10`, each scaled by the weight `w`, added into `acc` at the
    positions `col11` of the last axis. -/
def st5 (x acc : FVec F S8x4096x1024 .f32) (w : FVec F S_ .f32) : FVec F S8x4096x1024 .f32 :=
  Host.scatterAdd scatter_S8x4096x1024_S1016x1_S8x4096x1016_01_2_2_1 acc col11
    (mulf (broadcastInDim S8x4096x1016 ![] bcast_S_S8x4096x1016 w)
      (Host.gather gather_S8x4096x1024_S1016x1_S8x4096x1016_01_2_n_n_2_1_840961 x col10))

/-- The reference's result: `x` after the six stages, the weights the logistic function of u₀, d₀, u₁, d₁, u₂, d₂ (entry k of a
    length-3 array: its slice [k : k+1] read as a scalar). -/
def refVal (x : (⟨S8x4096x1024, .f32⟩ : BufTy).Contents (Elt F)) (u d : (⟨S3, .f32⟩ : BufTy).Contents (Elt F)) :
    (⟨S8x4096x1024, .f32⟩ : BufTy).Contents (Elt F) :=
  st5 x (st4 x (st3 x (st2 x (st1 x (st0 x x
    (sg (shapeCast S_ (extractStridedSlice S1 ![0] u slices_S3_S1_0) shapeCasts_S1_S_)))
    (sg (shapeCast S_ (extractStridedSlice S1 ![0] d slices_S3_S1_0) shapeCasts_S1_S_)))
    (sg (shapeCast S_ (extractStridedSlice S1 ![1] u slices_S3_S1_1) shapeCasts_S1_S_)))
    (sg (shapeCast S_ (extractStridedSlice S1 ![1] d slices_S3_S1_1) shapeCasts_S1_S_)))
    (sg (shapeCast S_ (extractStridedSlice S1 ![2] u slices_S3_S1_2) shapeCasts_S1_S_)))
    (sg (shapeCast S_ (extractStridedSlice S1 ![2] d slices_S3_S1_2) shapeCasts_S1_S_))

/-! ## The fold of @main's operations, read at the result and at the arguments -/

set_option maxRecDepth 8192 in
set_option maxHeartbeats 64000000 in
/-- From any contents `V` of the device's buffers, the operations leave in the result buffer `refVal` of what `V` holds in the
    three argument buffers. -/
theorem after_ops_result (V : Valuation τ sig (Elt F)) :
    after ops V (Proc.devRef .tc main_v107) =
      refVal (V (Proc.devRef .tc main_arg0)) (V (Proc.devRef .tc main_arg1)) (V (Proc.devRef .tc main_arg2)) := by
  simp only [ops, after_append]
  after_results_simp
  rfl

set_option maxRecDepth 8192 in
set_option maxHeartbeats 64000000 in
/-- No operation writes argument 0: the operations leave its buffer as it was. -/
theorem after_ops_arg0 (V : Valuation τ sig (Elt F)) :
    after ops V (Proc.devRef .tc main_arg0) = V (Proc.devRef .tc main_arg0) := by
  simp only [ops, after_append]
  after_results_simp

set_option maxRecDepth 8192 in
set_option maxHeartbeats 64000000 in
/-- No operation writes argument 1: the operations leave its buffer as it was. -/
theorem after_ops_arg1 (V : Valuation τ sig (Elt F)) :
    after ops V (Proc.devRef .tc main_arg1) = V (Proc.devRef .tc main_arg1) := by
  simp only [ops, after_append]
  after_results_simp

set_option maxRecDepth 8192 in
set_option maxHeartbeats 64000000 in
/-- No operation writes argument 2: the operations leave its buffer as it was. -/
theorem after_ops_arg2 (V : Valuation τ sig (Elt F)) :
    after ops V (Proc.devRef .tc main_arg2) = V (Proc.devRef .tc main_arg2) := by
  simp only [ops, after_append]
  after_results_simp

end Cert.RefSide

end
-- ==== Proof.RefRun.lean ====
/-
  The reference program's run, read back.

  The program's @main is a straight line of host operations: the three printed windows are, one after the other, the line of
  the lists `ops0`, `ops1`, `ops2`. Every weakly fair execution of such a line terminates, and leaves in each buffer the fold of
  the operations' results over the launch contents. Read at the result buffer, the fold is the closed term `refVal` of the three
  argument arrays; read at an argument buffer, it is what the launch put there, since no operation writes an argument.
-/
import proofs.«168499_j23390391894546_2_alg».proof.Proof.RefVal

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## @main is the line of its operations -/

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl

/-- Running the windows in order is running the concatenation of their lists. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches only the TensorCore's references. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-! ## The run -/

/-- On every device, for any float values, from any memory with zero counters: every weakly fair execution of @main
    terminates with the result buffer at `refVal` of the three arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v107) = refVal (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v107).trans (after_ops_result (launchContents m c)),
      (h c main_arg0).trans (after_ops_arg0 (launchContents m c)),
      (h c main_arg1).trans (after_ops_arg1 (launchContents m c)),
      (h c main_arg2).trans (after_ops_arg2 (launchContents m c))⟩)
    (run_seq scopedRefs_eq scopedSems_eq defs main (fun _ => ops) main_eq (fun _ => ops_sub) m ρ)

end Cert.RefSide

end
-- ==== Proof.StageStretch.lean ====
import proofs.«168499_j23390391894546_2_alg».proof.Proof.Stage
import proofs.«168499_j23390391894546_2_alg».proof.Proof.HarmonicE
import proofs.«168499_j23390391894546_2_alg».proof.Proof.Weights
/-!
# A stage whose index columns are the closed formulas on a stretch

When a stage's target and source columns are, entry by entry, `tgtF (off + e)` and `srcF (off + e)` for a stretch
`off ≤ · < off + E` of the list of 3954 entries, the stage adds to the accumulator at `(a, b, n)` exactly the stretch's
contribution to column `n` of the row `(a, b)`: targets and sources are columns (below 1024), so a target read as a signed
word is the target and the gather's clamp leaves a source where it is.
-/
noncomputable section
open scoped BigOperators
open Idealize.ShloMosaic Idealize.ShloMosaic.ValueIdx

namespace Cert.Stage

open Cert.LibScatterLast Cert.LibGather Cert.Tables Cert.Harmonic Cert.Weights

theorem stage_stretch {E : Nat} (off : ℕ)
    (wfS : ScatterDims.WF ⟨3, ![8, 4096, 1024]⟩ ⟨2, ![E, 1]⟩ ⟨3, ![8, 4096, E]⟩ [0, 1] [2] [2] 1)
    (wfG : GatherDims.WF ⟨3, ![8, 4096, 1024]⟩ ⟨2, ![E, 1]⟩ ⟨3, ![8, 4096, E]⟩ [0, 1] [2] [] [2] [] 1 ![8, 4096, 1])
    (bcBig : (⟨0, ![]⟩ : Shape).BroadcastsInDim ⟨3, ![8, 4096, E]⟩ ![])
    (acc x : FVec Ideal ⟨3, ![8, 4096, 1024]⟩ .f32) (idxT idxS : IVec ⟨2, ![E, 1]⟩ 32)
    (wt : FVec Ideal ⟨0, ![]⟩ .f32) (a : Fin 8) (b : Fin 4096) (n : Fin 1024)
    (hT : ∀ e : Fin E, idxT (ix2 e (0 : Fin 1)) = BitVec.ofNat 32 (tgtF (off + e.val)))
    (hS : ∀ e : Fin E, idxS (ix2 e (0 : Fin 1)) = BitVec.ofNat 32 (srcF (off + e.val)))
    (hoff : off + E ≤ 3954) :
    Host.scatterAdd (F := Ideal) (lastScatter 8 4096 1024 E wfS) acc idxT
        (mulf (broadcastInDim ⟨3, ![8, 4096, E]⟩ ![] bcBig wt) (Host.gather (lastGather 8 4096 1024 E wfG) x idxS))
        (ix3 a b n)
      = acc (ix3 a b n) + stretchE (rowE x a b) n.val off E (wt ix0) := by
  rw [stage_apply]
  congr 1
  unfold stretchE
  rw [← Fin.sum_univ_eq_sum_range (fun e => if tgtF (off + e) = n.val then wt ix0 * rowE x a b (srcF (off + e)) else 0) E]
  refine Finset.sum_congr rfl fun e _ => ?_
  have he : off + e.val < 3954 := by have := e.isLt; omega
  rw [hT e, toInt_ofNat_small (tgtF_lt he)]
  simp only [Nat.cast_inj]
  refine if_congr Iff.rfl ?_ rfl
  refine congrArg (fun j => wt ix0 * x (ix3 a b j)) (Fin.ext ?_)
  show min (idxS (ix2 e (0 : Fin 1))).toInt.toNat (1024 - 1) = min (srcF (off + e.val)) (1024 - 1)
  rw [hS e, toNat_toInt_ofNat_small (srcF_lt he)]

end Cert.Stage
end
-- ==== Proof.TablesReference.lean ====
import proofs.«168499_j23390391894546_2_alg».proof.ReferenceIdeal
import proofs.«168499_j23390391894546_2_alg».proof.Proof.TableFormulas
/-!
# The reference's twelve literal tables are the closed formulas, stretch by stretch

The reference carries each octave's up and down index maps as literal tables: for the six stretches in order, a source table
and a target table of 512, 1022, 256, 1020, 128 and 1016 entries. Entry `e` of stretch `k` is entry `off_k + e` of the
one list of 3954 entries (`off = 0, 512, 1534, 1790, 2810, 2938`): its source and target columns are `srcF (off_k + e)` and
`tgtF (off_k + e)`. Each equation is checked by evaluating both sides at every entry.
-/

namespace Cert.Tables

open Cert.ReferenceIdeal

set_option maxRecDepth 100000 in
theorem r_src0 : ∀ e : Fin 512, lit0 e = BitVec.ofNat 32 (srcF e.val) := by decide +kernel
set_option maxRecDepth 100000 in
theorem r_tgt0 : ∀ e : Fin 512, lit1 e = BitVec.ofNat 32 (tgtF e.val) := by decide +kernel
set_option maxRecDepth 100000 in
theorem r_src1 : ∀ e : Fin 1022, lit2 e = BitVec.ofNat 32 (srcF (512 + e.val)) := by decide +kernel
set_option maxRecDepth 100000 in
theorem r_tgt1 : ∀ e : Fin 1022, lit3 e = BitVec.ofNat 32 (tgtF (512 + e.val)) := by decide +kernel
set_option maxRecDepth 100000 in
theorem r_src2 : ∀ e : Fin 256, lit4 e = BitVec.ofNat 32 (srcF (1534 + e.val)) := by decide +kernel
set_option maxRecDepth 100000 in
theorem r_tgt2 : ∀ e : Fin 256, lit5 e = BitVec.ofNat 32 (tgtF (1534 + e.val)) := by decide +kernel
set_option maxRecDepth 100000 in
theorem r_src3 : ∀ e : Fin 1020, lit6 e = BitVec.ofNat 32 (srcF (1790 + e.val)) := by decide +kernel
set_option maxRecDepth 100000 in
theorem r_tgt3 : ∀ e : Fin 1020, lit7 e = BitVec.ofNat 32 (tgtF (1790 + e.val)) := by decide +kernel
set_option maxRecDepth 100000 in
theorem r_src4 : ∀ e : Fin 128, lit8 e = BitVec.ofNat 32 (srcF (2810 + e.val)) := by decide +kernel
set_option maxRecDepth 100000 in
theorem r_tgt4 : ∀ e : Fin 128, lit9 e = BitVec.ofNat 32 (tgtF (2810 + e.val)) := by decide +kernel
set_option maxRecDepth 100000 in
theorem r_src5 : ∀ e : Fin 1016, lit10 e = BitVec.ofNat 32 (srcF (2938 + e.val)) := by decide +kernel
set_option maxRecDepth 100000 in
theorem r_tgt5 : ∀ e : Fin 1016, lit11 e = BitVec.ofNat 32 (tgtF (2938 + e.val)) := by decide +kernel

end Cert.Tables
-- ==== Proof.RefCols.lean ====
import proofs.«168499_j23390391894546_2_alg».proof.Proof.RefVal
import proofs.«168499_j23390391894546_2_alg».proof.Proof.StageStretch
import proofs.«168499_j23390391894546_2_alg».proof.Proof.TablesReference
import Idealize.ShloMosaic.Lib.Pipeline.Value
/-!
# The six stages of the reference, case by case

For each stage: a flat table's position `e` is its entry `e`; the stage's source and target columns are the closed formulas on
the stage's stretch of the list of entries (its two literal tables checked entry by entry); hence the stage adds, at
`(a, b, n)`, its stretch's contribution to column `n` of the row `(a, b)`. The six blocks differ only in the stage's tables,
length and offset.
-/
noncomputable section
open scoped BigOperators
open Idealize.ShloMosaic Idealize.ShloMosaic.ValueIdx

namespace Cert.RefSide

open Cert.ReferenceIdeal Cert.ReferenceIdeal.Gen Cert.Tables Cert.Harmonic Cert.Weights Cert.Stage

/-- Position `e` of a flat table of 512 entries is entry `e`. -/
theorem rm0 (e : Fin 512) : (S512.rowMajor (ix1 e) : Fin 512) = e := Fin.ext (Shape.rowMajor_val_one _)

/-- Stage 1's source column is the closed formula on its stretch. -/
theorem col0_apply (e : Fin 512) : col0 (ix2 e (0 : Fin 1)) = BitVec.ofNat 32 (srcF (0 + e.val)) := by
  unfold col0
  rw [col_apply]
  show lit0 (S512.rowMajor (ix1 e)) = _
  rw [rm0, Nat.zero_add, r_src0 e]

/-- Stage 1's target column is the closed formula on its stretch. -/
theorem col1_apply (e : Fin 512) : col1 (ix2 e (0 : Fin 1)) = BitVec.ofNat 32 (tgtF (0 + e.val)) := by
  unfold col1
  rw [col_apply]
  show lit1 (S512.rowMajor (ix1 e)) = _
  rw [rm0, Nat.zero_add, r_tgt0 e]

/-- Stage 1 adds its stretch's contribution. -/
theorem st0_apply (x acc : FVec Ideal S8x4096x1024 .f32) (w : FVec Ideal S_ .f32) (a : Fin 8) (b : Fin 4096) (n : Fin 1024) :
    st0 (F := Ideal) x acc w (ix3 a b n) = acc (ix3 a b n) + stretchE (rowE x a b) n.val 0 512 (w ix0) := by
  unfold st0
  exact stage_stretch 0 scatter_S8x4096x1024_S512x1_S8x4096x512_01_2_2_1_wf gather_S8x4096x1024_S512x1_S8x4096x512_01_2_n_n_2_1_840961_wf bcast_S_S8x4096x512 acc x col1 col0 w a b n col1_apply col0_apply (by norm_num)

/-- Position `e` of a flat table of 1022 entries is entry `e`. -/
theorem rm1 (e : Fin 1022) : (S1022.rowMajor (ix1 e) : Fin 1022) = e := Fin.ext (Shape.rowMajor_val_one _)

/-- Stage 2's source column is the closed formula on its stretch. -/
theorem col2_apply (e : Fin 1022) : col2 (ix2 e (0 : Fin 1)) = BitVec.ofNat 32 (srcF (512 + e.val)) := by
  unfold col2
  rw [col_apply]
  show lit2 (S1022.rowMajor (ix1 e)) = _
  rw [rm1, r_src1 e]

/-- Stage 2's target column is the closed formula on its stretch. -/
theorem col3_apply (e : Fin 1022) : col3 (ix2 e (0 : Fin 1)) = BitVec.ofNat 32 (tgtF (512 + e.val)) := by
  unfold col3
  rw [col_apply]
  show lit3 (S1022.rowMajor (ix1 e)) = _
  rw [rm1, r_tgt1 e]

/-- Stage 2 adds its stretch's contribution. -/
theorem st1_apply (x acc : FVec Ideal S8x4096x1024 .f32) (w : FVec Ideal S_ .f32) (a : Fin 8) (b : Fin 4096) (n : Fin 1024) :
    st1 (F := Ideal) x acc w (ix3 a b n) = acc (ix3 a b n) + stretchE (rowE x a b) n.val 512 1022 (w ix0) := by
  unfold st1
  exact stage_stretch 512 scatter_S8x4096x1024_S1022x1_S8x4096x1022_01_2_2_1_wf gather_S8x4096x1024_S1022x1_S8x4096x1022_01_2_n_n_2_1_840961_wf bcast_S_S8x4096x1022 acc x col3 col2 w a b n col3_apply col2_apply (by norm_num)

/-- Position `e` of a flat table of 256 entries is entry `e`. -/
theorem rm2 (e : Fin 256) : (S256.rowMajor (ix1 e) : Fin 256) = e := Fin.ext (Shape.rowMajor_val_one _)

/-- Stage 3's source column is the closed formula on its stretch. -/
theorem col4_apply (e : Fin 256) : col4 (ix2 e (0 : Fin 1)) = BitVec.ofNat 32 (srcF (1534 + e.val)) := by
  unfold col4
  rw [col_apply]
  show lit4 (S256.rowMajor (ix1 e)) = _
  rw [rm2, r_src2 e]

/-- Stage 3's target column is the closed formula on its stretch. -/
theorem col5_apply (e : Fin 256) : col5 (ix2 e (0 : Fin 1)) = BitVec.ofNat 32 (tgtF (1534 + e.val)) := by
  unfold col5
  rw [col_apply]
  show lit5 (S256.rowMajor (ix1 e)) = _
  rw [rm2, r_tgt2 e]

/-- Stage 3 adds its stretch's contribution. -/
theorem st2_apply (x acc : FVec Ideal S8x4096x1024 .f32) (w : FVec Ideal S_ .f32) (a : Fin 8) (b : Fin 4096) (n : Fin 1024) :
    st2 (F := Ideal) x acc w (ix3 a b n) = acc (ix3 a b n) + stretchE (rowE x a b) n.val 1534 256 (w ix0) := by
  unfold st2
  exact stage_stretch 1534 scatter_S8x4096x1024_S256x1_S8x4096x256_01_2_2_1_wf gather_S8x4096x1024_S256x1_S8x4096x256_01_2_n_n_2_1_840961_wf bcast_S_S8x4096x256 acc x col5 col4 w a b n col5_apply col4_apply (by norm_num)

/-- Position `e` of a flat table of 1020 entries is entry `e`. -/
theorem rm3 (e : Fin 1020) : (S1020.rowMajor (ix1 e) : Fin 1020) = e := Fin.ext (Shape.rowMajor_val_one _)

/-- Stage 4's source column is the closed formula on its stretch. -/
theorem col6_apply (e : Fin 1020) : col6 (ix2 e (0 : Fin 1)) = BitVec.ofNat 32 (srcF (1790 + e.val)) := by
  unfold col6
  rw [col_apply]
  show lit6 (S1020.rowMajor (ix1 e)) = _
  rw [rm3, r_src3 e]

/-- Stage 4's target column is the closed formula on its stretch. -/
theorem col7_apply (e : Fin 1020) : col7 (ix2 e (0 : Fin 1)) = BitVec.ofNat 32 (tgtF (1790 + e.val)) := by
  unfold col7
  rw [col_apply]
  show lit7 (S1020.rowMajor (ix1 e)) = _
  rw [rm3, r_tgt3 e]

/-- Stage 4 adds its stretch's contribution. -/
theorem st3_apply (x acc : FVec Ideal S8x4096x1024 .f32) (w : FVec Ideal S_ .f32) (a : Fin 8) (b : Fin 4096) (n : Fin 1024) :
    st3 (F := Ideal) x acc w (ix3 a b n) = acc (ix3 a b n) + stretchE (rowE x a b) n.val 1790 1020 (w ix0) := by
  unfold st3
  exact stage_stretch 1790 scatter_S8x4096x1024_S1020x1_S8x4096x1020_01_2_2_1_wf gather_S8x4096x1024_S1020x1_S8x4096x1020_01_2_n_n_2_1_840961_wf bcast_S_S8x4096x1020 acc x col7 col6 w a b n col7_apply col6_apply (by norm_num)

/-- Position `e` of a flat table of 128 entries is entry `e`. -/
theorem rm4 (e : Fin 128) : (S128.rowMajor (ix1 e) : Fin 128) = e := Fin.ext (Shape.rowMajor_val_one _)

/-- Stage 5's source column is the closed formula on its stretch. -/
theorem col8_apply (e : Fin 128) : col8 (ix2 e (0 : Fin 1)) = BitVec.ofNat 32 (srcF (2810 + e.val)) := by
  unfold col8
  rw [col_apply]
  show lit8 (S128.rowMajor (ix1 e)) = _
  rw [rm4, r_src4 e]

/-- Stage 5's target column is the closed formula on its stretch. -/
theorem col9_apply (e : Fin 128) : col9 (ix2 e (0 : Fin 1)) = BitVec.ofNat 32 (tgtF (2810 + e.val)) := by
  unfold col9
  rw [col_apply]
  show lit9 (S128.rowMajor (ix1 e)) = _
  rw [rm4, r_tgt4 e]

/-- Stage 5 adds its stretch's contribution. -/
theorem st4_apply (x acc : FVec Ideal S8x4096x1024 .f32) (w : FVec Ideal S_ .f32) (a : Fin 8) (b : Fin 4096) (n : Fin 1024) :
    st4 (F := Ideal) x acc w (ix3 a b n) = acc (ix3 a b n) + stretchE (rowE x a b) n.val 2810 128 (w ix0) := by
  unfold st4
  exact stage_stretch 2810 scatter_S8x4096x1024_S128x1_S8x4096x128_01_2_2_1_wf gather_S8x4096x1024_S128x1_S8x4096x128_01_2_n_n_2_1_840961_wf bcast_S_S8x4096x128 acc x col9 col8 w a b n col9_apply col8_apply (by norm_num)

/-- Position `e` of a flat table of 1016 entries is entry `e`. -/
theorem rm5 (e : Fin 1016) : (S1016.rowMajor (ix1 e) : Fin 1016) = e := Fin.ext (Shape.rowMajor_val_one _)

/-- Stage 6's source column is the closed formula on its stretch. -/
theorem col10_apply (e : Fin 1016) : col10 (ix2 e (0 : Fin 1)) = BitVec.ofNat 32 (srcF (2938 + e.val)) := by
  unfold col10
  rw [col_apply]
  show lit10 (S1016.rowMajor (ix1 e)) = _
  rw [rm5, r_src5 e]

/-- Stage 6's target column is the closed formula on its stretch. -/
theorem col11_apply (e : Fin 1016) : col11 (ix2 e (0 : Fin 1)) = BitVec.ofNat 32 (tgtF (2938 + e.val)) := by
  unfold col11
  rw [col_apply]
  show lit11 (S1016.rowMajor (ix1 e)) = _
  rw [rm5, r_tgt5 e]

/-- Stage 6 adds its stretch's contribution. -/
theorem st5_apply (x acc : FVec Ideal S8x4096x1024 .f32) (w : FVec Ideal S_ .f32) (a : Fin 8) (b : Fin 4096) (n : Fin 1024) :
    st5 (F := Ideal) x acc w (ix3 a b n) = acc (ix3 a b n) + stretchE (rowE x a b) n.val 2938 1016 (w ix0) := by
  unfold st5
  exact stage_stretch 2938 scatter_S8x4096x1024_S1016x1_S8x4096x1016_01_2_2_1_wf gather_S8x4096x1024_S1016x1_S8x4096x1016_01_2_n_n_2_1_840961_wf bcast_S_S8x4096x1016 acc x col11 col10 w a b n col11_apply col10_apply (by norm_num)

end Cert.RefSide
end
-- ==== Proof.RefRead.lean ====
import proofs.«168499_j23390391894546_2_alg».proof.Proof.RefCols
/-!
# The reference's result at an index is the gather–scatter form

Each of the six stages adds, at `(a, b, n)`, the contribution of its stretch of the list of entries to column `n` of the row
`(a, b)`. The six weights are the logistic function of the entries of the two weight arrays, each picked out by a
one-element slice read as a scalar. Adding the six contributions to the input in the program's order is the gather–scatter form.
-/
noncomputable section
open scoped BigOperators
open Idealize.ShloMosaic Idealize.ShloMosaic.ValueIdx

namespace Cert.RefSide

open Cert.ReferenceIdeal Cert.ReferenceIdeal.Gen Cert.Tables Cert.Harmonic Cert.Weights Cert.Stage

/-- The printed weight chain on a scalar is the logistic function. -/
theorem sg_apply (w : FVec Ideal S_ .f32) : sg (F := Ideal) w ix0 = Ideal.logistic (w ix0) :=
  chain_eq_logistic (w ix0)

/-- Entry `k` of a weight array, picked out by the one-element slice at `k` read as a scalar. -/
theorem pick (u : FVec Ideal S3 .f32) (o : Nat) (h : S3.Slices ![o] S1) (k : Fin 3) (hk : k.val = o) :
    shapeCast S_ (extractStridedSlice S1 ![o] u h) shapeCasts_S1_S_ ix0 = u (ix1 k) := by
  rw [shapeCast_apply _ _ ix0 (ix1 (0 : Fin 1)) (by rw [Shape.rowMajor_val_one]; rfl)]
  exact extractStridedSlice_apply ![o] u h (ix1 (0 : Fin 1)) (ix1 k) (fun c => by
    match c with
    | ⟨0, _⟩ => show k.val = o + 0; omega)

/-- THE REFERENCE'S RESULT READ AT `(a, b, n)`. -/
theorem refVal_form (x : (⟨S8x4096x1024, .f32⟩ : BufTy).Contents (Elt Ideal)) (u d : (⟨S3, .f32⟩ : BufTy).Contents (Elt Ideal))
    (a : Fin 8) (b : Fin 4096) (n : Fin 1024) :
    refVal (F := Ideal) x u d (ix3 a b n) = scatFormE (rowE x a b) (W6 u d) n.val := by
  unfold refVal scatFormE
  rw [st5_apply, st4_apply, st3_apply, st2_apply, st1_apply, st0_apply]
  simp only [sg_apply]
  rw [pick u 0 slices_S3_S1_0 0 rfl, pick d 0 slices_S3_S1_0 0 rfl, pick u 1 slices_S3_S1_1 1 rfl,
    pick d 1 slices_S3_S1_1 1 rfl, pick u 2 slices_S3_S1_2 2 rfl, pick d 2 slices_S3_S1_2 2 rfl,
    W6_0, W6_1, W6_2, W6_3, W6_4, W6_5, rowE_val]

end Cert.RefSide
end
-- ==== Proof.Finite.lean ====
import proofs.«168499_j23390391894546_2_alg».proof.Pre_finite_inputs
import Idealize.ShloMosaic.PureOps.Ideal
import Idealize.ShloMosaic.Lib.ReduceAll
import Idealize.ShloMosaic.Lib.ValueIdx
import proofs.«168499_j23390391894546_2_alg».proof.Proof.LibReal
/-!
# The precondition read back: every input entry is a real number

The precondition is the conjunction, over the three input arrays, of "every entry has absolute value below `+∞`". At the
exact instance an entry is an extended real; its absolute value `max x (−x)` is below `+∞` exactly when the entry is
neither infinity, that is, when it is a real number. A conjunction of reductions by `and` that came out 1 had a 1 at every
entry of every array.
-/
noncomputable section

namespace Cert.Finite

open Idealize.ShloMosaic Idealize.ShloMosaic.ValueIdx Cert.LibReal

/-- The float word of `+∞` is `+∞`. -/
theorem ofBits_inf : Ideal.ofBits .f32 0x7F800000#32 = (⊤ : EReal) := by simp [Ideal.ofBits, Ideal.ieee]

/-- An extended real whose absolute value is below `+∞` is a real number. -/
theorem isReal_of_abs_lt_top {x : EReal} (h : max x (-x) < ⊤) : IsReal x := by
  induction x using EReal.rec with
  | bot => simp at h
  | coe r => exact ⟨r, rfl⟩
  | top => simp at h

theorem ofBool_eq_one {b : Bool} : BitVec.ofBool b = 1#1 ↔ b = true := by cases b <;> decide

/-- The printed element test `|x| < +∞` that came out 1 says `x` is a real number. -/
theorem isReal_of_test {x : EReal}
    (h : FloatOps.cmpf (F := Ideal) .olt (FloatOps.hostAbsf x) (Ideal.ofBits .f32 0x7F800000#32) = 1#1) : IsReal x := by
  rw [ofBits_inf] at h
  have h' : Ideal.cmp .olt (max x (-x)) ⊤ = 1#1 := h
  unfold Ideal.cmp at h'
  rw [ofBool_eq_one] at h'
  exact isReal_of_abs_lt_top (of_decide_eq_true h')

instance : Subsingleton Cert.Pre_finite_inputs.S_.Idx := ⟨fun a b => funext fun d => d.elim0⟩

variable [Cert.Pre_finite_inputs.Facts]

/-- THE PRECONDITION READ BACK: each of the three arrays holds real numbers only. -/
theorem real_of_pre (x : FVec Ideal Cert.Pre_finite_inputs.S8x4096x1024 .f32) (u d : FVec Ideal Cert.Pre_finite_inputs.S3 .f32)
    (h : Cert.Pre_finite_inputs.fn (F := Ideal) x u d = fun _ => 1#1) :
    (∀ i, IsReal (x i)) ∧ (∀ i, IsReal (u i)) ∧ (∀ i, IsReal (d i)) := by
  have h0 := congrFun h ix0
  dsimp only [Cert.Pre_finite_inputs.fn] at h0
  obtain ⟨h01, h2⟩ := IntOp.andi_eq_one.mp h0
  obtain ⟨hx, hu⟩ := IntOp.andi_eq_one.mp h01
  refine ⟨fun i => ?_, fun i => ?_, fun i => ?_⟩
  · exact isReal_of_test (Host.reduce_andi_all _ _ _ _ ix0 hx i)
  · exact isReal_of_test (Host.reduce_andi_all _ _ _ _ ix0 hu i)
  · exact isReal_of_test (Host.reduce_andi_all _ _ _ _ ix0 h2 i)

end Cert.Finite
end
-- ==== Proof.lean ====
/-
  Octave mixing along the last axis: a dense matrix product against six gather–scale–scatter-adds.

  For `x : [8, 4096, 1024]` and two weight triples `u`, `d`, both programs compute, for every row `(a, b)` and column `n`,

      out[a, b, n] = x[a, b, n] + Σ over the 3954 list entries e with target(e) = n of σ(weight(e)) · x[a, b, source(e)],

  where the list is made of six stretches, an "up" and a "down" stretch per octave `o = 1, 2, 3` (stride `s = 2^o`: up entries
  `i ↦ (source i, target i·s)`, down entries `i ↦ (source i + s, target (i + s) / s)`), `σ` is the logistic function, and an
  up (down) entry of octave `o` carries the weight `u[o − 1]` (`d[o − 1]`).

  The reference adds the six stretches one after the other: each stage gathers the source columns of `x`, scales them by the
  stage's weight and scatter-adds them at the target columns. The kernel first builds the 1024 × 1024 matrix `U` with
  `U[k, n] = Σ over entries with source k and target n of σ(weight)` (one scatter-add of gathered weights into the zero
  matrix), and then computes `x + x · U` block of rows by block of rows on the flattened `[32768, 1024]` view. Read as exact
  arithmetic (a change of float format is the identity), the two agree: distributing `x[a, b, k]` into the sum that defines
  `U[k, n]`, exchanging the two sums and collapsing the sum over `k` at `k = source(e)` turns the product into the one sum
  over the entries. Distributivity fails at the infinities of the extended reals, so this uses the precondition: every
  input is finite, hence every row entry and every logistic weight is a real number.

  The literal index tables of both programs are identified, entry by entry, with closed formulas for slot, source and target;
  sources and targets are columns and slots are below six, so no scatter drops an entry and no gather's clamp moves one.

  The kernel does not round on the way (the idealization rewrote no operation), so it is its own idealization; its frame,
  and the idealized kernel's, are the generated ones; the reference's frame is its run with the result dropped.
-/
import proofs.«168499_j23390391894546_2_alg».proof.Defs
import proofs.«168499_j23390391894546_2_alg».proof.Proof.Gen.Kernel
import proofs.«168499_j23390391894546_2_alg».proof.Proof.Gen.Kernel.Frame
import proofs.«168499_j23390391894546_2_alg».proof.Proof.Gen.KernelIdeal
import proofs.«168499_j23390391894546_2_alg».proof.Proof.Gen.KernelIdeal.Frame
import proofs.«168499_j23390391894546_2_alg».proof.Proof.Gen.ReferenceIdeal
import proofs.«168499_j23390391894546_2_alg».proof.Proof.Gen.Pre_finite_inputs
import proofs.«168499_j23390391894546_2_alg».proof.Proof.KerRun
import proofs.«168499_j23390391894546_2_alg».proof.Proof.KerForm
import proofs.«168499_j23390391894546_2_alg».proof.Proof.RefRun
import proofs.«168499_j23390391894546_2_alg».proof.Proof.RefRead
import proofs.«168499_j23390391894546_2_alg».proof.Proof.Finite
import proofs.«168499_j23390391894546_2_alg».proof.Proof.HarmonicE
import Idealize.ShloMosaic.Adequacy
import Idealize.ShloMosaic.Init

noncomputable section

namespace Cert.Proof

open Idealize.ShloMosaic Idealize.ShloMosaic.ValueIdx Idealize.SL.Sem

/-- With real inputs the kernel's result and the reference's result are one array: at every `(a, b, n)` the first is the
    matrix form and the second the gather–scatter form of the row `(a, b)` and the six logistic weights. -/
theorem values_eq (x : (⟨3, ![8, 4096, 1024]⟩ : Shape).Idx → EReal) (u d : (⟨1, ![3]⟩ : Shape).Idx → EReal)
    (hx : ∀ i, Cert.LibReal.IsReal (x i)) (hu : ∀ i, Cert.LibReal.IsReal (u i)) (hd : ∀ i, Cert.LibReal.IsReal (d i)) :
    Cert.RefSide.refVal (F := Ideal) x u d = Cert.KerSide.kerVal x u d := by
  funext i
  obtain ⟨a, b, n, rfl⟩ : ∃ (a : Fin 8) (b : Fin 4096) (n : Fin 1024), i = ix3 a b n := ⟨i 0, i 1, i 2, eq_ix3 i⟩
  rw [Cert.KerSide.kerVal_form, Cert.RefSide.refVal_form]
  exact (Cert.Harmonic.matFormE_eq_scatFormE _ _ (Cert.Weights.rowE_isReal x hx a b) (Cert.Weights.W6_isReal u d hu hd) n.val).symm

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefSide.run m ρ)

/-- The idealization rewrote no operation. -/
theorem preserves : Cert.preserves_Kernel_KernelIdeal := trivial

/-- From memories agreeing on the three arguments, of which the precondition holds, both programs end with the same result:
    the kernel's run names it, the reference's run ends at `refVal` of the same arguments, and the two are one array. -/
theorem algebraic : Cert.algebraic_KernelIdeal_ReferenceIdeal := by
  intro m ρ m' ρ' hpre hagree
  refine ⟨_, Cert.KerSide.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2]
  obtain ⟨hx, hu, hd⟩ := Cert.Finite.real_of_pre _ _ _ (hpre c)
  exact values_eq _ _ _ hx hu hd

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
